-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v265)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v265) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096 : Shape := ⟨1, ![4096]⟩
abbrev S65536x8 : Shape := ⟨2, ![65536, 8]⟩
abbrev S4096x512 : Shape := ⟨2, ![4096, 512]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S65536x8 : S_.BroadcastsInDim S65536x8 (![] : Fin 0 → Fin S65536x8.rank)
  reducesTo_S65536x8_S_d0_1 : S65536x8.ReducesTo [0, 1] S_

variable [Facts]

def fn_part1 {F : FTy → Type} [FloatOps F] (main_v13 : IVec S_ 1) (main_v16 : IVec S65536x8 1) : IVec S_ 1 :=
  let main_c_5 : IVec S_ 1 := constantI S_ 1 1#1
  let main_v17 : IVec S_ 1 := (fun x v => Host.reduce IntOp.andi x v reducesTo_S65536x8_S_d0_1 h_S_) main_v16 main_c_5
  let main_v18 : IVec S_ 1 := andi main_v13 main_v17
  main_v18

def fn {F : FTy → Type} [FloatOps F] (main_arg0 : FVec F S2x2048x4096 .f32) (main_arg1 : FVec F S4096 .f32) (main_arg2 : FVec F S4096 .f32) (main_arg3 : FVec F S65536x8 .f32) (main_arg4 : IVec S4096x512 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S65536x8 .f32 := Host.absf main_arg3
  let main_cst_4 : FVec F S_ .f32 := constant S_ .f32 0x7F800000#32
  let main_v15 : FVec F S65536x8 .f32 := broadcastInDim S65536x8 ![] bcast_S_S65536x8 main_cst_4
  let main_v16 : IVec S65536x8 1 := cmpf .olt main_v14 main_v15
  fn_part1 (F := F) main_v13 main_v16
-- ==== Kernel.lean ====
abbrev S2x2048x4096 : Shape := ⟨3, ![2, 2048, 4096]⟩
abbrev S4096 : Shape := ⟨1, ![4096]⟩
abbrev S65536x8 : Shape := ⟨2, ![65536, 8]⟩
abbrev S4096x512 : Shape := ⟨2, ![4096, 512]⟩
abbrev S4096x4096 : Shape := ⟨2, ![4096, 4096]⟩
abbrev S1x4096 : Shape := ⟨2, ![1, 4096]⟩
abbrev S4096x2048x2x1 : Shape := ⟨4, ![4096, 2048, 2, 1]⟩
abbrev S4096x2048x1x1 : Shape := ⟨4, ![4096, 2048, 1, 1]⟩
abbrev S4096x2048x1 : Shape := ⟨3, ![4096, 2048, 1]⟩
abbrev S4096x1024x2x2 : Shape := ⟨4, ![4096, 1024, 2, 2]⟩
abbrev S4096x1024x1x2 : Shape := ⟨4, ![4096, 1024, 1, 2]⟩
abbrev S4096x1024x2 : Shape := ⟨3, ![4096, 1024, 2]⟩
abbrev S4096x512x2x4 : Shape := ⟨4, ![4096, 512, 2, 4]⟩
abbrev S4096x512x1x4 : Shape := ⟨4, ![4096, 512, 1, 4]⟩
abbrev S4096x512x4 : Shape := ⟨3, ![4096, 512, 4]⟩
abbrev S4096x256x2x8 : Shape := ⟨4, ![4096, 256, 2, 8]⟩
abbrev S4096x256x1x8 : Shape := ⟨4, ![4096, 256, 1, 8]⟩
abbrev S4096x256x8 : Shape := ⟨3, ![4096, 256, 8]⟩
abbrev S4096x128x2x16 : Shape := ⟨4, ![4096, 128, 2, 16]⟩
abbrev S4096x128x1x16 : Shape := ⟨4, ![4096, 128, 1, 16]⟩
abbrev S4096x128x16 : Shape := ⟨3, ![4096, 128, 16]⟩
abbrev S4096x64x2x32 : Shape := ⟨4, ![4096, 64, 2, 32]⟩
abbrev S4096x64x1x32 : Shape := ⟨4, ![4096, 64, 1, 32]⟩
abbrev S4096x64x32 : Shape := ⟨3, ![4096, 64, 32]⟩
abbrev S4096x32x2x64 : Shape := ⟨4, ![4096, 32, 2, 64]⟩
abbrev S4096x32x1x64 : Shape := ⟨4, ![4096, 32, 1, 64]⟩
abbrev S4096x32x64 : Shape := ⟨3, ![4096, 32, 64]⟩
abbrev S4096x16x2x128 : Shape := ⟨4, ![4096, 16, 2, 128]⟩
abbrev S4096x16x1x128 : Shape := ⟨4, ![4096, 16, 1, 128]⟩
abbrev S4096x16x128 : Shape := ⟨3, ![4096, 16, 128]⟩
abbrev S4096x8x2x256 : Shape := ⟨4, ![4096, 8, 2, 256]⟩
abbrev S4096x8x1x256 : Shape := ⟨4, ![4096, 8, 1, 256]⟩
abbrev S4096x8x256 : Shape := ⟨3, ![4096, 8, 256]⟩
abbrev S4096x4x2x512 : Shape := ⟨4, ![4096, 4, 2, 512]⟩
abbrev S4096x4x1x512 : Shape := ⟨4, ![4096, 4, 1, 512]⟩
abbrev S4096x4x512 : Shape := ⟨3, ![4096, 4, 512]⟩
abbrev S4096x2x2x1024 : Shape := ⟨4, ![4096, 2, 2, 1024]⟩
abbrev S4096x2x1x1024 : Shape := ⟨4, ![4096, 2, 1, 1024]⟩
abbrev S4096x2x1024 : Shape := ⟨3, ![4096, 2, 1024]⟩
abbrev S4096x1x2x2048 : Shape := ⟨4, ![4096, 1, 2, 2048]⟩
abbrev S4096x1x1x2048 : Shape := ⟨4, ![4096, 1, 1, 2048]⟩
abbrev S4096x1x2048 : Shape := ⟨3, ![4096, 1, 2048]⟩
abbrev S_ : Shape := ⟨0, ![]⟩
abbrev S4096x512x1 : Shape := ⟨3, ![4096, 512, 1]⟩
abbrev S4096x512x8 : Shape := ⟨3, ![4096, 512, 8]⟩
abbrev S1024x1024 : Shape := ⟨2, ![1024, 1024]⟩

abbrev nBuf : Space → Nat
  | .hbm => 275
  | .vmem => 7
  | .smem => 0
  | _ => 0

abbrev hbmTy0_0 (i : Nat) : BufTy := match i % 128 with
  | 0 => ⟨S2x2048x4096, .f32⟩
  | 1 => ⟨S4096, .f32⟩
  | 2 => ⟨S4096, .f32⟩
  | 3 => ⟨S65536x8, .f32⟩
  | 4 => ⟨S4096x512, .i32⟩
  | 5 => ⟨S4096x4096, .f32⟩
  | 6 => ⟨S1x4096, .f32⟩
  | 7 => ⟨S4096x4096, .f32⟩
  | 8 => ⟨S4096x4096, .f32⟩
  | 9 => ⟨S4096x2048x2x1, .f32⟩
  | 10 => ⟨S4096x2048x1x1, .f32⟩
  | 11 => ⟨S4096x2048x1, .f32⟩
  | 12 => ⟨S4096x2048x1x1, .f32⟩
  | 13 => ⟨S4096x2048x1, .f32⟩
  | 14 => ⟨S4096x2048x1, .f32⟩
  | 15 => ⟨S4096x2048x1, .f32⟩
  | 16 => ⟨S4096x2048x1x1, .f32⟩
  | 17 => ⟨S4096x2048x1x1, .f32⟩
  | 18 => ⟨S4096x2048x2x1, .f32⟩
  | 19 => ⟨S4096x1024x2x2, .f32⟩
  | 20 => ⟨S4096x1024x1x2, .f32⟩
  | 21 => ⟨S4096x1024x2, .f32⟩
  | 22 => ⟨S4096x1024x1x2, .f32⟩
  | 23 => ⟨S4096x1024x2, .f32⟩
  | 24 => ⟨S4096x1024x2, .f32⟩
  | 25 => ⟨S4096x1024x2, .f32⟩
  | 26 => ⟨S4096x1024x1x2, .f32⟩
  | 27 => ⟨S4096x1024x1x2, .f32⟩
  | 28 => ⟨S4096x1024x2x2, .f32⟩
  | 29 => ⟨S4096x512x2x4, .f32⟩
  | 30 => ⟨S4096x512x1x4, .f32⟩
  | 31 => ⟨S4096x512x4, .f32⟩
  | 32 => ⟨S4096x512x1x4, .f32⟩
  | 33 => ⟨S4096x512x4, .f32⟩
  | 34 => ⟨S4096x512x4, .f32⟩
  | 35 => ⟨S4096x512x4, .f32⟩
  | 36 => ⟨S4096x512x1x4, .f32⟩
  | 37 => ⟨S4096x512x1x4, .f32⟩
  | 38 => ⟨S4096x512x2x4, .f32⟩
  | 39 => ⟨S4096x256x2x8, .f32⟩
  | 40 => ⟨S4096x256x1x8, .f32⟩
  | 41 => ⟨S4096x256x8, .f32⟩
  | 42 => ⟨S4096x256x1x8, .f32⟩
  | 43 => ⟨S4096x256x8, .f32⟩
  | 44 => ⟨S4096x256x8, .f32⟩
  | 45 => ⟨S4096x256x8, .f32⟩
  | 46 => ⟨S4096x256x1x8, .f32⟩
  | 47 => ⟨S4096x256x1x8, .f32⟩
  | 48 => ⟨S4096x256x2x8, .f32⟩
  | 49 => ⟨S4096x128x2x16, .f32⟩
  | 50 => ⟨S4096x128x1x16, .f32⟩
  | 51 => ⟨S4096x128x16, .f32⟩
  | 52 => ⟨S4096x128x1x16, .f32⟩
  | 53 => ⟨S4096x128x16, .f32⟩
  | 54 => ⟨S4096x128x16, .f32⟩
  | 55 => ⟨S4096x128x16, .f32⟩
  | 56 => ⟨S4096x128x1x16, .f32⟩
  | 57 => ⟨S4096x128x1x16, .f32⟩
  | 58 => ⟨S4096x128x2x16, .f32⟩
  | 59 => ⟨S4096x64x2x32, .f32⟩
  | 60 => ⟨S4096x64x1x32, .f32⟩
  | 61 => ⟨S4096x64x32, .f32⟩
  | 62 => ⟨S4096x64x1x32, .f32⟩
  | 63 => ⟨S4096x64x32, .f32⟩
  | 64 => ⟨S4096x64x32, .f32⟩
  | 65 => ⟨S4096x64x32, .f32⟩
  | 66 => ⟨S4096x64x1x32, .f32⟩
  | 67 => ⟨S4096x64x1x32, .f32⟩
  | 68 => ⟨S4096x64x2x32, .f32⟩
  | 69 => ⟨S4096x32x2x64, .f32⟩
  | 70 => ⟨S4096x32x1x64, .f32⟩
  | 71 => ⟨S4096x32x64, .f32⟩
  | 72 => ⟨S4096x32x1x64, .f32⟩
  | 73 => ⟨S4096x32x64, .f32⟩
  | 74 => ⟨S4096x32x64, .f32⟩
  | 75 => ⟨S4096x32x64, .f32⟩
  | 76 => ⟨S4096x32x1x64, .f32⟩
  | 77 => ⟨S4096x32x1x64, .f32⟩
  | 78 => ⟨S4096x32x2x64, .f32⟩
  | 79 => ⟨S4096x16x2x128, .f32⟩
  | 80 => ⟨S4096x16x1x128, .f32⟩
  | 81 => ⟨S4096x16x128, .f32⟩
  | 82 => ⟨S4096x16x1x128, .f32⟩
  | 83 => ⟨S4096x16x128, .f32⟩
  | 84 => ⟨S4096x16x128, .f32⟩
  | 85 => ⟨S4096x16x128, .f32⟩
  | 86 => ⟨S4096x16x1x128, .f32⟩
  | 87 => ⟨S4096x16x1x128, .f32⟩
  | 88 => ⟨S4096x16x2x128, .f32⟩
  | 89 => ⟨S4096x8x2x256, .f32⟩
  | 90 => ⟨S4096x8x1x256, .f32⟩
  | 91 => ⟨S4096x8x256, .f32⟩
  | 92 => ⟨S4096x8x1x256, .f32⟩
  | 93 => ⟨S4096x8x256, .f32⟩
  | 94 => ⟨S4096x8x256, .f32⟩
  | 95 => ⟨S4096x8x256, .f32⟩
  | 96 => ⟨S4096x8x1x256, .f32⟩
  | 97 => ⟨S4096x8x1x256, .f32⟩
  | 98 => ⟨S4096x8x2x256, .f32⟩
  | 99 => ⟨S4096x4x2x512, .f32⟩
  | 100 => ⟨S4096x4x1x512, .f32⟩
  | 101 => ⟨S4096x4x512, .f32⟩
  | 102 => ⟨S4096x4x1x512, .f32⟩
  | 103 => ⟨S4096x4x512, .f32⟩
  | 104 => ⟨S4096x4x512, .f32⟩
  | 105 => ⟨S4096x4x512, .f32⟩
  | 106 => ⟨S4096x4x1x512, .f32⟩
  | 107 => ⟨S4096x4x1x512, .f32⟩
  | 108 => ⟨S4096x4x2x512, .f32⟩
  | 109 => ⟨S4096x2x2x1024, .f32⟩
  | 110 => ⟨S4096x2x1x1024, .f32⟩
  | 111 => ⟨S4096x2x1024, .f32⟩
  | 112 => ⟨S4096x2x1x1024, .f32⟩
  | 113 => ⟨S4096x2x1024, .f32⟩
  | 114 => ⟨S4096x2x1024, .f32⟩
  | 115 => ⟨S4096x2x1024, .f32⟩
  | 116 => ⟨S4096x2x1x1024, .f32⟩
  | 117 => ⟨S4096x2x1x1024, .f32⟩
  | 118 => ⟨S4096x2x2x1024, .f32⟩
  | 119 => ⟨S4096x1x2x2048, .f32⟩
  | 120 => ⟨S4096x1x1x2048, .f32⟩
  | 121 => ⟨S4096x1x2048, .f32⟩
  | 122 => ⟨S4096x1x1x2048, .f32⟩
  | 123 => ⟨S4096x1x2048, .f32⟩
  | 124 => ⟨S4096x1x2048, .f32⟩
  | 125 => ⟨S4096x1x2048, .f32⟩
  | 126 => ⟨S4096x1x1x2048, .f32⟩
  | 127 => ⟨S4096x1x1x2048, .f32⟩
  | _ => ⟨S2x2048x4096, .f32⟩

abbrev hbmTy0_1 (i : Nat) : BufTy := match i % 128 with
  | 0 => ⟨S4096x1x2x2048, .f32⟩
  | 1 => ⟨S4096x4096, .f32⟩
  | 2 => ⟨S_, .f32⟩
  | 3 => ⟨S4096x4096, .f32⟩
  | 4 => ⟨S4096x4096, .f32⟩
  | 5 => ⟨S_, .i32⟩
  | 6 => ⟨S4096x512, .i32⟩
  | 7 => ⟨S4096x512, .i1⟩
  | 8 => ⟨S_, .i32⟩
  | 9 => ⟨S4096x512, .i32⟩
  | 10 => ⟨S4096x512, .i32⟩
  | 11 => ⟨S4096x512, .i32⟩
  | 12 => ⟨S4096x512x1, .i32⟩
  | 13 => ⟨S4096x512x8, .f32⟩
  | 14 => ⟨S4096x4096, .f32⟩
  | 15 => ⟨S4096x4096, .f32⟩
  | 16 => ⟨S4096x4096, .bf16⟩
  | 17 => ⟨S4096x4096, .bf16⟩
  | 18 => ⟨S4096x4096, .f32⟩
  | 19 => ⟨S4096x2048x2x1, .f32⟩
  | 20 => ⟨S4096x2048x1x1, .f32⟩
  | 21 => ⟨S4096x2048x1, .f32⟩
  | 22 => ⟨S4096x2048x1x1, .f32⟩
  | 23 => ⟨S4096x2048x1, .f32⟩
  | 24 => ⟨S4096x2048x1, .f32⟩
  | 25 => ⟨S4096x2048x1, .f32⟩
  | 26 => ⟨S4096x2048x1x1, .f32⟩
  | 27 => ⟨S4096x2048x1x1, .f32⟩
  | 28 => ⟨S4096x2048x2x1, .f32⟩
  | 29 => ⟨S4096x1024x2x2, .f32⟩
  | 30 => ⟨S4096x1024x1x2, .f32⟩
  | 31 => ⟨S4096x1024x2, .f32⟩
  | 32 => ⟨S4096x1024x1x2, .f32⟩
  | 33 => ⟨S4096x1024x2, .f32⟩
  | 34 => ⟨S4096x1024x2, .f32⟩
  | 35 => ⟨S4096x1024x2, .f32⟩
  | 36 => ⟨S4096x1024x1x2, .f32⟩
  | 37 => ⟨S4096x1024x1x2, .f32⟩
  | 38 => ⟨S4096x1024x2x2, .f32⟩
  | 39 => ⟨S4096x512x2x4, .f32⟩
  | 40 => ⟨S4096x512x1x4, .f32⟩
  | 41 => ⟨S4096x512x4, .f32⟩
  | 42 => ⟨S4096x512x1x4, .f32⟩
  | 43 => ⟨S4096x512x4, .f32⟩
  | 44 => ⟨S4096x512x4, .f32⟩
  | 45 => ⟨S4096x512x4, .f32⟩
  | 46 => ⟨S4096x512x1x4, .f32⟩
  | 47 => ⟨S4096x512x1x4, .f32⟩
  | 48 => ⟨S4096x512x2x4, .f32⟩
  | 49 => ⟨S4096x256x2x8, .f32⟩
  | 50 => ⟨S4096x256x1x8, .f32⟩
  | 51 => ⟨S4096x256x8, .f32⟩
  | 52 => ⟨S4096x256x1x8, .f32⟩
  | 53 => ⟨S4096x256x8, .f32⟩
  | 54 => ⟨S4096x256x8, .f32⟩
  | 55 => ⟨S4096x256x8, .f32⟩
  | 56 => ⟨S4096x256x1x8, .f32⟩
  | 57 => ⟨S4096x256x1x8, .f32⟩
  | 58 => ⟨S4096x256x2x8, .f32⟩
  | 59 => ⟨S4096x128x2x16, .f32⟩
  | 60 => ⟨S4096x128x1x16, .f32⟩
  | 61 => ⟨S4096x128x16, .f32⟩
  | 62 => ⟨S4096x128x1x16, .f32⟩
  | 63 => ⟨S4096x128x16, .f32⟩
  | 64 => ⟨S4096x128x16, .f32⟩
  | 65 => ⟨S4096x128x16, .f32⟩
  | 66 => ⟨S4096x128x1x16, .f32⟩
  | 67 => ⟨S4096x128x1x16, .f32⟩
  | 68 => ⟨S4096x128x2x16, .f32⟩
  | 69 => ⟨S4096x64x2x32, .f32⟩
  | 70 => ⟨S4096x64x1x32, .f32⟩
  | 71 => ⟨S4096x64x32, .f32⟩
  | 72 => ⟨S4096x64x1x32, .f32⟩
  | 73 => ⟨S4096x64x32, .f32⟩
  | 74 => ⟨S4096x64x32, .f32⟩
  | 75 => ⟨S4096x64x32, .f32⟩
  | 76 => ⟨S4096x64x1x32, .f32⟩
  | 77 => ⟨S4096x64x1x32, .f32⟩
  | 78 => ⟨S4096x64x2x32, .f32⟩
  | 79 => ⟨S4096x32x2x64, .f32⟩
  | 80 => ⟨S4096x32x1x64, .f32⟩
  | 81 => ⟨S4096x32x64, .f32⟩
  | 82 => ⟨S4096x32x1x64, .f32⟩
  | 83 => ⟨S4096x32x64, .f32⟩
  | 84 => ⟨S4096x32x64, .f32⟩
  | 85 => ⟨S4096x32x64, .f32⟩
  | 86 => ⟨S4096x32x1x64, .f32⟩
  | 87 => ⟨S4096x32x1x64, .f32⟩
  | 88 => ⟨S4096x32x2x64, .f32⟩
  | 89 => ⟨S4096x16x2x128, .f32⟩
  | 90 => ⟨S4096x16x1x128, .f32⟩
  | 91 => ⟨S4096x16x128, .f32⟩
  | 92 => ⟨S4096x16x1x128, .f32⟩
  | 93 => ⟨S4096x16x128, .f32⟩
  | 94 => ⟨S4096x16x128, .f32⟩
  | 95 => ⟨S4096x16x128, .f32⟩
  | 96 => ⟨S4096x16x1x128, .f32⟩
  | 97 => ⟨S4096x16x1x128, .f32⟩
  | 98 => ⟨S4096x16x2x128, .f32⟩
  | 99 => ⟨S4096x8x2x256, .f32⟩
  | 100 => ⟨S4096x8x1x256, .f32⟩
  | 101 => ⟨S4096x8x256, .f32⟩
  | 102 => ⟨S4096x8x1x256, .f32⟩
  | 103 => ⟨S4096x8x256, .f32⟩
  | 104 => ⟨S4096x8x256, .f32⟩
  | 105 => ⟨S4096x8x256, .f32⟩
  | 106 => ⟨S4096x8x1x256, .f32⟩
  | 107 => ⟨S4096x8x1x256, .f32⟩
  | 108 => ⟨S4096x8x2x256, .f32⟩
  | 109 => ⟨S4096x4x2x512, .f32⟩
  | 110 => ⟨S4096x4x1x512, .f32⟩
  | 111 => ⟨S4096x4x512, .f32⟩
  | 112 => ⟨S4096x4x1x512, .f32⟩
  | 113 => ⟨S4096x4x512, .f32⟩
  | 114 => ⟨S4096x4x512, .f32⟩
  | 115 => ⟨S4096x4x512, .f32⟩
  | 116 => ⟨S4096x4x1x512, .f32⟩
  | 117 => ⟨S4096x4x1x512, .f32⟩
  | 118 => ⟨S4096x4x2x512, .f32⟩
  | 119 => ⟨S4096x2x2x1024, .f32⟩
  | 120 => ⟨S4096x2x1x1024, .f32⟩
  | 121 => ⟨S4096x2x1024, .f32⟩
  | 122 => ⟨S4096x2x1x1024, .f32⟩
  | 123 => ⟨S4096x2x1024, .f32⟩
  | 124 => ⟨S4096x2x1024, .f32⟩
  | 125 => ⟨S4096x2x1024, .f32⟩
  | 126 => ⟨S4096x2x1x1024, .f32⟩
  | 127 => ⟨S4096x2x1x1024, .f32⟩
  | _ => ⟨S2x2048x4096, .f32⟩

abbrev hbmTy0_2 (i : Nat) : BufTy := match i % 128 with
  | 0 => ⟨S4096x2x2x1024, .f32⟩
  | 1 => ⟨S4096x1x2x2048, .f32⟩
  | 2 => ⟨S4096x1x1x2048, .f32⟩
  | 3 => ⟨S4096x1x2048, .f32⟩
  | 4 => ⟨S4096x1x1x2048, .f32⟩
  | 5 => ⟨S4096x1x2048, .f32⟩
  | 6 => ⟨S4096x1x2048, .f32⟩
  | 7 => ⟨S4096x1x2048, .f32⟩
  | 8 => ⟨S4096x1x1x2048, .f32⟩
  | 9 => ⟨S4096x1x1x2048, .f32⟩
  | 10 => ⟨S4096x1x2x2048, .f32⟩
  | 11 => ⟨S4096x4096, .f32⟩
  | 12 => ⟨S_, .f32⟩
  | 13 => ⟨S4096x4096, .f32⟩
  | 14 => ⟨S4096x4096, .f32⟩
  | 15 => ⟨S1x4096, .f32⟩
  | 16 => ⟨S4096x4096, .f32⟩
  | 17 => ⟨S4096x4096, .f32⟩
  | 18 => ⟨S2x2048x4096, .f32⟩
  | _ => ⟨S2x2048x4096, .f32⟩

abbrev hbmTy (i : Nat) : BufTy := match i / 128 with
  | 0 => hbmTy0_0 i
  | 1 => hbmTy0_1 i
  | 2 => hbmTy0_2 i
  | _ => ⟨S2x2048x4096, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_cst : Ref sig .tc := ⟨.hbm, 130, rfl⟩
abbrev main_v125 : Ref sig .tc := ⟨.hbm, 131, rfl⟩
abbrev main_v126 : Ref sig .tc := ⟨.hbm, 132, rfl⟩
abbrev main_c : Ref sig .tc := ⟨.hbm, 133, rfl⟩
abbrev main_v127 : Ref sig .tc := ⟨.hbm, 134, rfl⟩
abbrev main_v128 : Ref sig .tc := ⟨.hbm, 135, rfl⟩
abbrev main_c_0 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_v258 : Ref sig .tc := ⟨.hbm, 266, rfl⟩
abbrev main_v259 : Ref sig .tc := ⟨.hbm, 267, rfl⟩
abbrev main_cst_1 : Ref sig .tc := ⟨.hbm, 268, rfl⟩
abbrev main_v260 : Ref sig .tc := ⟨.hbm, 269, rfl⟩
abbrev main_v261 : Ref sig .tc := ⟨.hbm, 270, rfl⟩
abbrev main_v262 : Ref sig .tc := ⟨.hbm, 271, rfl⟩
abbrev main_v263 : Ref sig .tc := ⟨.hbm, 272, rfl⟩
abbrev main_v264 : Ref sig .tc := ⟨.hbm, 273, rfl⟩
abbrev main_v265 : Ref sig .tc := ⟨.hbm, 274, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S2x2048x4096_S4096x4096 : S2x2048x4096.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x2048x2x1 : S4096x4096.ShapeCasts S4096x2048x2x1
  slices_S4096x2048x2x1_S4096x2048x1x1_0_0_0_0 : S4096x2048x2x1.Slices ![0, 0, 0, 0] S4096x2048x1x1
  shapeCasts_S4096x2048x1x1_S4096x2048x1 : S4096x2048x1x1.ShapeCasts S4096x2048x1
  slices_S4096x2048x2x1_S4096x2048x1x1_0_0_1_0 : S4096x2048x2x1.Slices ![0, 0, 1, 0] S4096x2048x1x1
  bcast_S4096x2048x1_S4096x2048x1x1_0_1_3 : S4096x2048x1.BroadcastsInDim S4096x2048x1x1 (![0, 1, 3] : Fin 3 → Fin S4096x2048x1x1.rank)
  concatenates_S4096x2048x1x1_S4096x2048x1x1_S4096x2048x2x1_d2 : Shape.Concatenates [S4096x2048x1x1, S4096x2048x1x1] S4096x2048x2x1 2
  shapeCasts_S4096x2048x2x1_S4096x1024x2x2 : S4096x2048x2x1.ShapeCasts S4096x1024x2x2
  slices_S4096x1024x2x2_S4096x1024x1x2_0_0_0_0 : S4096x1024x2x2.Slices ![0, 0, 0, 0] S4096x1024x1x2
  shapeCasts_S4096x1024x1x2_S4096x1024x2 : S4096x1024x1x2.ShapeCasts S4096x1024x2
  slices_S4096x1024x2x2_S4096x1024x1x2_0_0_1_0 : S4096x1024x2x2.Slices ![0, 0, 1, 0] S4096x1024x1x2
  bcast_S4096x1024x2_S4096x1024x1x2_0_1_3 : S4096x1024x2.BroadcastsInDim S4096x1024x1x2 (![0, 1, 3] : Fin 3 → Fin S4096x1024x1x2.rank)
  concatenates_S4096x1024x1x2_S4096x1024x1x2_S4096x1024x2x2_d2 : Shape.Concatenates [S4096x1024x1x2, S4096x1024x1x2] S4096x1024x2x2 2
  shapeCasts_S4096x1024x2x2_S4096x512x2x4 : S4096x1024x2x2.ShapeCasts S4096x512x2x4
  slices_S4096x512x2x4_S4096x512x1x4_0_0_0_0 : S4096x512x2x4.Slices ![0, 0, 0, 0] S4096x512x1x4
  shapeCasts_S4096x512x1x4_S4096x512x4 : S4096x512x1x4.ShapeCasts S4096x512x4
  slices_S4096x512x2x4_S4096x512x1x4_0_0_1_0 : S4096x512x2x4.Slices ![0, 0, 1, 0] S4096x512x1x4
  bcast_S4096x512x4_S4096x512x1x4_0_1_3 : S4096x512x4.BroadcastsInDim S4096x512x1x4 (![0, 1, 3] : Fin 3 → Fin S4096x512x1x4.rank)
  concatenates_S4096x512x1x4_S4096x512x1x4_S4096x512x2x4_d2 : Shape.Concatenates [S4096x512x1x4, S4096x512x1x4] S4096x512x2x4 2
  shapeCasts_S4096x512x2x4_S4096x256x2x8 : S4096x512x2x4.ShapeCasts S4096x256x2x8
  slices_S4096x256x2x8_S4096x256x1x8_0_0_0_0 : S4096x256x2x8.Slices ![0, 0, 0, 0] S4096x256x1x8
  shapeCasts_S4096x256x1x8_S4096x256x8 : S4096x256x1x8.ShapeCasts S4096x256x8
  slices_S4096x256x2x8_S4096x256x1x8_0_0_1_0 : S4096x256x2x8.Slices ![0, 0, 1, 0] S4096x256x1x8
  bcast_S4096x256x8_S4096x256x1x8_0_1_3 : S4096x256x8.BroadcastsInDim S4096x256x1x8 (![0, 1, 3] : Fin 3 → Fin S4096x256x1x8.rank)
  concatenates_S4096x256x1x8_S4096x256x1x8_S4096x256x2x8_d2 : Shape.Concatenates [S4096x256x1x8, S4096x256x1x8] S4096x256x2x8 2
  shapeCasts_S4096x256x2x8_S4096x128x2x16 : S4096x256x2x8.ShapeCasts S4096x128x2x16
  slices_S4096x128x2x16_S4096x128x1x16_0_0_0_0 : S4096x128x2x16.Slices ![0, 0, 0, 0] S4096x128x1x16
  shapeCasts_S4096x128x1x16_S4096x128x16 : S4096x128x1x16.ShapeCasts S4096x128x16
  slices_S4096x128x2x16_S4096x128x1x16_0_0_1_0 : S4096x128x2x16.Slices ![0, 0, 1, 0] S4096x128x1x16
  bcast_S4096x128x16_S4096x128x1x16_0_1_3 : S4096x128x16.BroadcastsInDim S4096x128x1x16 (![0, 1, 3] : Fin 3 → Fin S4096x128x1x16.rank)
  concatenates_S4096x128x1x16_S4096x128x1x16_S4096x128x2x16_d2 : Shape.Concatenates [S4096x128x1x16, S4096x128x1x16] S4096x128x2x16 2
  shapeCasts_S4096x128x2x16_S4096x64x2x32 : S4096x128x2x16.ShapeCasts S4096x64x2x32
  slices_S4096x64x2x32_S4096x64x1x32_0_0_0_0 : S4096x64x2x32.Slices ![0, 0, 0, 0] S4096x64x1x32
  shapeCasts_S4096x64x1x32_S4096x64x32 : S4096x64x1x32.ShapeCasts S4096x64x32
  slices_S4096x64x2x32_S4096x64x1x32_0_0_1_0 : S4096x64x2x32.Slices ![0, 0, 1, 0] S4096x64x1x32
  bcast_S4096x64x32_S4096x64x1x32_0_1_3 : S4096x64x32.BroadcastsInDim S4096x64x1x32 (![0, 1, 3] : Fin 3 → Fin S4096x64x1x32.rank)
  concatenates_S4096x64x1x32_S4096x64x1x32_S4096x64x2x32_d2 : Shape.Concatenates [S4096x64x1x32, S4096x64x1x32] S4096x64x2x32 2
  shapeCasts_S4096x64x2x32_S4096x32x2x64 : S4096x64x2x32.ShapeCasts S4096x32x2x64
  slices_S4096x32x2x64_S4096x32x1x64_0_0_0_0 : S4096x32x2x64.Slices ![0, 0, 0, 0] S4096x32x1x64
  shapeCasts_S4096x32x1x64_S4096x32x64 : S4096x32x1x64.ShapeCasts S4096x32x64
  slices_S4096x32x2x64_S4096x32x1x64_0_0_1_0 : S4096x32x2x64.Slices ![0, 0, 1, 0] S4096x32x1x64
  bcast_S4096x32x64_S4096x32x1x64_0_1_3 : S4096x32x64.BroadcastsInDim S4096x32x1x64 (![0, 1, 3] : Fin 3 → Fin S4096x32x1x64.rank)
  concatenates_S4096x32x1x64_S4096x32x1x64_S4096x32x2x64_d2 : Shape.Concatenates [S4096x32x1x64, S4096x32x1x64] S4096x32x2x64 2
  shapeCasts_S4096x32x2x64_S4096x16x2x128 : S4096x32x2x64.ShapeCasts S4096x16x2x128
  slices_S4096x16x2x128_S4096x16x1x128_0_0_0_0 : S4096x16x2x128.Slices ![0, 0, 0, 0] S4096x16x1x128
  shapeCasts_S4096x16x1x128_S4096x16x128 : S4096x16x1x128.ShapeCasts S4096x16x128
  slices_S4096x16x2x128_S4096x16x1x128_0_0_1_0 : S4096x16x2x128.Slices ![0, 0, 1, 0] S4096x16x1x128
  bcast_S4096x16x128_S4096x16x1x128_0_1_3 : S4096x16x128.BroadcastsInDim S4096x16x1x128 (![0, 1, 3] : Fin 3 → Fin S4096x16x1x128.rank)
  concatenates_S4096x16x1x128_S4096x16x1x128_S4096x16x2x128_d2 : Shape.Concatenates [S4096x16x1x128, S4096x16x1x128] S4096x16x2x128 2
  shapeCasts_S4096x16x2x128_S4096x8x2x256 : S4096x16x2x128.ShapeCasts S4096x8x2x256
  slices_S4096x8x2x256_S4096x8x1x256_0_0_0_0 : S4096x8x2x256.Slices ![0, 0, 0, 0] S4096x8x1x256
  shapeCasts_S4096x8x1x256_S4096x8x256 : S4096x8x1x256.ShapeCasts S4096x8x256
  slices_S4096x8x2x256_S4096x8x1x256_0_0_1_0 : S4096x8x2x256.Slices ![0, 0, 1, 0] S4096x8x1x256
  bcast_S4096x8x256_S4096x8x1x256_0_1_3 : S4096x8x256.BroadcastsInDim S4096x8x1x256 (![0, 1, 3] : Fin 3 → Fin S4096x8x1x256.rank)
  concatenates_S4096x8x1x256_S4096x8x1x256_S4096x8x2x256_d2 : Shape.Concatenates [S4096x8x1x256, S4096x8x1x256] S4096x8x2x256 2
  shapeCasts_S4096x8x2x256_S4096x4x2x512 : S4096x8x2x256.ShapeCasts S4096x4x2x512
  slices_S4096x4x2x512_S4096x4x1x512_0_0_0_0 : S4096x4x2x512.Slices ![0, 0, 0, 0] S4096x4x1x512
  shapeCasts_S4096x4x1x512_S4096x4x512 : S4096x4x1x512.ShapeCasts S4096x4x512
  slices_S4096x4x2x512_S4096x4x1x512_0_0_1_0 : S4096x4x2x512.Slices ![0, 0, 1, 0] S4096x4x1x512
  bcast_S4096x4x512_S4096x4x1x512_0_1_3 : S4096x4x512.BroadcastsInDim S4096x4x1x512 (![0, 1, 3] : Fin 3 → Fin S4096x4x1x512.rank)
  concatenates_S4096x4x1x512_S4096x4x1x512_S4096x4x2x512_d2 : Shape.Concatenates [S4096x4x1x512, S4096x4x1x512] S4096x4x2x512 2
  shapeCasts_S4096x4x2x512_S4096x2x2x1024 : S4096x4x2x512.ShapeCasts S4096x2x2x1024
  slices_S4096x2x2x1024_S4096x2x1x1024_0_0_0_0 : S4096x2x2x1024.Slices ![0, 0, 0, 0] S4096x2x1x1024
  shapeCasts_S4096x2x1x1024_S4096x2x1024 : S4096x2x1x1024.ShapeCasts S4096x2x1024
  slices_S4096x2x2x1024_S4096x2x1x1024_0_0_1_0 : S4096x2x2x1024.Slices ![0, 0, 1, 0] S4096x2x1x1024
  bcast_S4096x2x1024_S4096x2x1x1024_0_1_3 : S4096x2x1024.BroadcastsInDim S4096x2x1x1024 (![0, 1, 3] : Fin 3 → Fin S4096x2x1x1024.rank)
  concatenates_S4096x2x1x1024_S4096x2x1x1024_S4096x2x2x1024_d2 : Shape.Concatenates [S4096x2x1x1024, S4096x2x1x1024] S4096x2x2x1024 2
  shapeCasts_S4096x2x2x1024_S4096x1x2x2048 : S4096x2x2x1024.ShapeCasts S4096x1x2x2048
  slices_S4096x1x2x2048_S4096x1x1x2048_0_0_0_0 : S4096x1x2x2048.Slices ![0, 0, 0, 0] S4096x1x1x2048
  shapeCasts_S4096x1x1x2048_S4096x1x2048 : S4096x1x1x2048.ShapeCasts S4096x1x2048
  slices_S4096x1x2x2048_S4096x1x1x2048_0_0_1_0 : S4096x1x2x2048.Slices ![0, 0, 1, 0] S4096x1x1x2048
  bcast_S4096x1x2048_S4096x1x1x2048_0_1_3 : S4096x1x2048.BroadcastsInDim S4096x1x1x2048 (![0, 1, 3] : Fin 3 → Fin S4096x1x1x2048.rank)
  concatenates_S4096x1x1x2048_S4096x1x1x2048_S4096x1x2x2048_d2 : Shape.Concatenates [S4096x1x1x2048, S4096x1x1x2048] S4096x1x2x2048 2
  shapeCasts_S4096x1x2x2048_S4096x4096 : S4096x1x2x2048.ShapeCasts S4096x4096
  bcast_S_S4096x4096 : S_.BroadcastsInDim S4096x4096 (![] : Fin 0 → Fin S4096x4096.rank)
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  transposes_S4096x4096_S4096x4096_1_0 : S4096x4096.Transposes [1, 0] S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x4096_S2x2048x4096 : S4096x4096.ShapeCasts S2x2048x4096
  gather_S65536x8_S4096x512x1_S4096x512x8_2_0_n_n_0_2_18_wf : GatherDims.WF S65536x8 S4096x512x1 S4096x512x8 [2] [0] [] [0] [] 2 ![1, 8]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def gather_S65536x8_S4096x512x1_S4096x512x8_2_0_n_n_0_2_18 : GatherDims S65536x8 S4096x512x1 S4096x512x8 where
  offsetDims := [2]
  collapsedSliceDims := [0]
  operandBatchingDims := []
  startIndicesBatchingDims := []
  startIndexMap := [0]
  indexVectorDim := 2
  sliceSizes := ![1, 8]
  wf := gather_S65536x8_S4096x512x1_S4096x512x8_2_0_n_n_0_2_18_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v136) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v137) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v138) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096 : Shape := ⟨1, ![4096]⟩
abbrev S65536x8 : Shape := ⟨2, ![65536, 8]⟩
abbrev S4096x512 : Shape := ⟨2, ![4096, 512]⟩
abbrev S4096x4096 : Shape := ⟨2, ![4096, 4096]⟩
abbrev S1x4096 : Shape := ⟨2, ![1, 4096]⟩
abbrev S4096x2048x2x1 : Shape := ⟨4, ![4096, 2048, 2, 1]⟩
abbrev S4096x2048x1x1 : Shape := ⟨4, ![4096, 2048, 1, 1]⟩
abbrev S4096x2048x1 : Shape := ⟨3, ![4096, 2048, 1]⟩
abbrev S4096x1024x2x2 : Shape := ⟨4, ![4096, 1024, 2, 2]⟩
abbrev S4096x1024x1x2 : Shape := ⟨4, ![4096, 1024, 1, 2]⟩
abbrev S4096x1024x2 : Shape := ⟨3, ![4096, 1024, 2]⟩
abbrev S4096x512x2x4 : Shape := ⟨4, ![4096, 512, 2, 4]⟩
abbrev S4096x512x1x4 : Shape := ⟨4, ![4096, 512, 1, 4]⟩
abbrev S4096x512x4 : Shape := ⟨3, ![4096, 512, 4]⟩
abbrev S4096x256x2x8 : Shape := ⟨4, ![4096, 256, 2, 8]⟩
abbrev S4096x256x1x8 : Shape := ⟨4, ![4096, 256, 1, 8]⟩
abbrev S4096x256x8 : Shape := ⟨3, ![4096, 256, 8]⟩
abbrev S4096x128x2x16 : Shape := ⟨4, ![4096, 128, 2, 16]⟩
abbrev S4096x128x1x16 : Shape := ⟨4, ![4096, 128, 1, 16]⟩
abbrev S4096x128x16 : Shape := ⟨3, ![4096, 128, 16]⟩
abbrev S4096x64x2x32 : Shape := ⟨4, ![4096, 64, 2, 32]⟩
abbrev S4096x64x1x32 : Shape := ⟨4, ![4096, 64, 1, 32]⟩
abbrev S4096x64x32 : Shape := ⟨3, ![4096, 64, 32]⟩
abbrev S4096x32x2x64 : Shape := ⟨4, ![4096, 32, 2, 64]⟩
abbrev S4096x32x1x64 : Shape := ⟨4, ![4096, 32, 1, 64]⟩
abbrev S4096x32x64 : Shape := ⟨3, ![4096, 32, 64]⟩
abbrev S4096x16x2x128 : Shape := ⟨4, ![4096, 16, 2, 128]⟩
abbrev S4096x16x1x128 : Shape := ⟨4, ![4096, 16, 1, 128]⟩
abbrev S4096x16x128 : Shape := ⟨3, ![4096, 16, 128]⟩
abbrev S4096x8x2x256 : Shape := ⟨4, ![4096, 8, 2, 256]⟩
abbrev S4096x8x1x256 : Shape := ⟨4, ![4096, 8, 1, 256]⟩
abbrev S4096x8x256 : Shape := ⟨3, ![4096, 8, 256]⟩
abbrev S4096x4x2x512 : Shape := ⟨4, ![4096, 4, 2, 512]⟩
abbrev S4096x4x1x512 : Shape := ⟨4, ![4096, 4, 1, 512]⟩
abbrev S4096x4x512 : Shape := ⟨3, ![4096, 4, 512]⟩
abbrev S4096x2x2x1024 : Shape := ⟨4, ![4096, 2, 2, 1024]⟩
abbrev S4096x2x1x1024 : Shape := ⟨4, ![4096, 2, 1, 1024]⟩
abbrev S4096x2x1024 : Shape := ⟨3, ![4096, 2, 1024]⟩
abbrev S4096x1x2x2048 : Shape := ⟨4, ![4096, 1, 2, 2048]⟩
abbrev S4096x1x1x2048 : Shape := ⟨4, ![4096, 1, 1, 2048]⟩
abbrev S4096x1x2048 : Shape := ⟨3, ![4096, 1, 2048]⟩
abbrev S_ : Shape := ⟨0, ![]⟩
abbrev S4096x512x1 : Shape := ⟨3, ![4096, 512, 1]⟩
abbrev S4096x512x8 : Shape := ⟨3, ![4096, 512, 8]⟩

abbrev nBuf : Space → Nat
  | .hbm => 273
  | .vmem => 0
  | .smem => 0
  | _ => 0

abbrev hbmTy0_0 (i : Nat) : BufTy := match i % 128 with
  | 0 => ⟨S2x2048x4096, .f32⟩
  | 1 => ⟨S4096, .f32⟩
  | 2 => ⟨S4096, .f32⟩
  | 3 => ⟨S65536x8, .f32⟩
  | 4 => ⟨S4096x512, .i32⟩
  | 5 => ⟨S4096x4096, .f32⟩
  | 6 => ⟨S1x4096, .f32⟩
  | 7 => ⟨S4096x4096, .f32⟩
  | 8 => ⟨S4096x4096, .f32⟩
  | 9 => ⟨S4096x2048x2x1, .f32⟩
  | 10 => ⟨S4096x2048x1x1, .f32⟩
  | 11 => ⟨S4096x2048x1, .f32⟩
  | 12 => ⟨S4096x2048x1x1, .f32⟩
  | 13 => ⟨S4096x2048x1, .f32⟩
  | 14 => ⟨S4096x2048x1, .f32⟩
  | 15 => ⟨S4096x2048x1, .f32⟩
  | 16 => ⟨S4096x2048x1x1, .f32⟩
  | 17 => ⟨S4096x2048x1x1, .f32⟩
  | 18 => ⟨S4096x2048x2x1, .f32⟩
  | 19 => ⟨S4096x1024x2x2, .f32⟩
  | 20 => ⟨S4096x1024x1x2, .f32⟩
  | 21 => ⟨S4096x1024x2, .f32⟩
  | 22 => ⟨S4096x1024x1x2, .f32⟩
  | 23 => ⟨S4096x1024x2, .f32⟩
  | 24 => ⟨S4096x1024x2, .f32⟩
  | 25 => ⟨S4096x1024x2, .f32⟩
  | 26 => ⟨S4096x1024x1x2, .f32⟩
  | 27 => ⟨S4096x1024x1x2, .f32⟩
  | 28 => ⟨S4096x1024x2x2, .f32⟩
  | 29 => ⟨S4096x512x2x4, .f32⟩
  | 30 => ⟨S4096x512x1x4, .f32⟩
  | 31 => ⟨S4096x512x4, .f32⟩
  | 32 => ⟨S4096x512x1x4, .f32⟩
  | 33 => ⟨S4096x512x4, .f32⟩
  | 34 => ⟨S4096x512x4, .f32⟩
  | 35 => ⟨S4096x512x4, .f32⟩
  | 36 => ⟨S4096x512x1x4, .f32⟩
  | 37 => ⟨S4096x512x1x4, .f32⟩
  | 38 => ⟨S4096x512x2x4, .f32⟩
  | 39 => ⟨S4096x256x2x8, .f32⟩
  | 40 => ⟨S4096x256x1x8, .f32⟩
  | 41 => ⟨S4096x256x8, .f32⟩
  | 42 => ⟨S4096x256x1x8, .f32⟩
  | 43 => ⟨S4096x256x8, .f32⟩
  | 44 => ⟨S4096x256x8, .f32⟩
  | 45 => ⟨S4096x256x8, .f32⟩
  | 46 => ⟨S4096x256x1x8, .f32⟩
  | 47 => ⟨S4096x256x1x8, .f32⟩
  | 48 => ⟨S4096x256x2x8, .f32⟩
  | 49 => ⟨S4096x128x2x16, .f32⟩
  | 50 => ⟨S4096x128x1x16, .f32⟩
  | 51 => ⟨S4096x128x16, .f32⟩
  | 52 => ⟨S4096x128x1x16, .f32⟩
  | 53 => ⟨S4096x128x16, .f32⟩
  | 54 => ⟨S4096x128x16, .f32⟩
  | 55 => ⟨S4096x128x16, .f32⟩
  | 56 => ⟨S4096x128x1x16, .f32⟩
  | 57 => ⟨S4096x128x1x16, .f32⟩
  | 58 => ⟨S4096x128x2x16, .f32⟩
  | 59 => ⟨S4096x64x2x32, .f32⟩
  | 60 => ⟨S4096x64x1x32, .f32⟩
  | 61 => ⟨S4096x64x32, .f32⟩
  | 62 => ⟨S4096x64x1x32, .f32⟩
  | 63 => ⟨S4096x64x32, .f32⟩
  | 64 => ⟨S4096x64x32, .f32⟩
  | 65 => ⟨S4096x64x32, .f32⟩
  | 66 => ⟨S4096x64x1x32, .f32⟩
  | 67 => ⟨S4096x64x1x32, .f32⟩
  | 68 => ⟨S4096x64x2x32, .f32⟩
  | 69 => ⟨S4096x32x2x64, .f32⟩
  | 70 => ⟨S4096x32x1x64, .f32⟩
  | 71 => ⟨S4096x32x64, .f32⟩
  | 72 => ⟨S4096x32x1x64, .f32⟩
  | 73 => ⟨S4096x32x64, .f32⟩
  | 74 => ⟨S4096x32x64, .f32⟩
  | 75 => ⟨S4096x32x64, .f32⟩
  | 76 => ⟨S4096x32x1x64, .f32⟩
  | 77 => ⟨S4096x32x1x64, .f32⟩
  | 78 => ⟨S4096x32x2x64, .f32⟩
  | 79 => ⟨S4096x16x2x128, .f32⟩
  | 80 => ⟨S4096x16x1x128, .f32⟩
  | 81 => ⟨S4096x16x128, .f32⟩
  | 82 => ⟨S4096x16x1x128, .f32⟩
  | 83 => ⟨S4096x16x128, .f32⟩
  | 84 => ⟨S4096x16x128, .f32⟩
  | 85 => ⟨S4096x16x128, .f32⟩
  | 86 => ⟨S4096x16x1x128, .f32⟩
  | 87 => ⟨S4096x16x1x128, .f32⟩
  | 88 => ⟨S4096x16x2x128, .f32⟩
  | 89 => ⟨S4096x8x2x256, .f32⟩
  | 90 => ⟨S4096x8x1x256, .f32⟩
  | 91 => ⟨S4096x8x256, .f32⟩
  | 92 => ⟨S4096x8x1x256, .f32⟩
  | 93 => ⟨S4096x8x256, .f32⟩
  | 94 => ⟨S4096x8x256, .f32⟩
  | 95 => ⟨S4096x8x256, .f32⟩
  | 96 => ⟨S4096x8x1x256, .f32⟩
  | 97 => ⟨S4096x8x1x256, .f32⟩
  | 98 => ⟨S4096x8x2x256, .f32⟩
  | 99 => ⟨S4096x4x2x512, .f32⟩
  | 100 => ⟨S4096x4x1x512, .f32⟩
  | 101 => ⟨S4096x4x512, .f32⟩
  | 102 => ⟨S4096x4x1x512, .f32⟩
  | 103 => ⟨S4096x4x512, .f32⟩
  | 104 => ⟨S4096x4x512, .f32⟩
  | 105 => ⟨S4096x4x512, .f32⟩
  | 106 => ⟨S4096x4x1x512, .f32⟩
  | 107 => ⟨S4096x4x1x512, .f32⟩
  | 108 => ⟨S4096x4x2x512, .f32⟩
  | 109 => ⟨S4096x2x2x1024, .f32⟩
  | 110 => ⟨S4096x2x1x1024, .f32⟩
  | 111 => ⟨S4096x2x1024, .f32⟩
  | 112 => ⟨S4096x2x1x1024, .f32⟩
  | 113 => ⟨S4096x2x1024, .f32⟩
  | 114 => ⟨S4096x2x1024, .f32⟩
  | 115 => ⟨S4096x2x1024, .f32⟩
  | 116 => ⟨S4096x2x1x1024, .f32⟩
  | 117 => ⟨S4096x2x1x1024, .f32⟩
  | 118 => ⟨S4096x2x2x1024, .f32⟩
  | 119 => ⟨S4096x1x2x2048, .f32⟩
  | 120 => ⟨S4096x1x1x2048, .f32⟩
  | 121 => ⟨S4096x1x2048, .f32⟩
  | 122 => ⟨S4096x1x1x2048, .f32⟩
  | 123 => ⟨S4096x1x2048, .f32⟩
  | 124 => ⟨S4096x1x2048, .f32⟩
  | 125 => ⟨S4096x1x2048, .f32⟩
  | 126 => ⟨S4096x1x1x2048, .f32⟩
  | 127 => ⟨S4096x1x1x2048, .f32⟩
  | _ => ⟨S2x2048x4096, .f32⟩

abbrev hbmTy0_1 (i : Nat) : BufTy := match i % 128 with
  | 0 => ⟨S4096x1x2x2048, .f32⟩
  | 1 => ⟨S4096x4096, .f32⟩
  | 2 => ⟨S_, .f32⟩
  | 3 => ⟨S4096x4096, .f32⟩
  | 4 => ⟨S4096x4096, .f32⟩
  | 5 => ⟨S_, .i32⟩
  | 6 => ⟨S4096x512, .i32⟩
  | 7 => ⟨S4096x512, .i1⟩
  | 8 => ⟨S_, .i32⟩
  | 9 => ⟨S4096x512, .i32⟩
  | 10 => ⟨S4096x512, .i32⟩
  | 11 => ⟨S4096x512, .i32⟩
  | 12 => ⟨S4096x512x1, .i32⟩
  | 13 => ⟨S4096x512x8, .f32⟩
  | 14 => ⟨S4096x4096, .f32⟩
  | 15 => ⟨S4096x4096, .f32⟩
  | 16 => ⟨S4096x4096, .f32⟩
  | 17 => ⟨S4096x2048x2x1, .f32⟩
  | 18 => ⟨S4096x2048x1x1, .f32⟩
  | 19 => ⟨S4096x2048x1, .f32⟩
  | 20 => ⟨S4096x2048x1x1, .f32⟩
  | 21 => ⟨S4096x2048x1, .f32⟩
  | 22 => ⟨S4096x2048x1, .f32⟩
  | 23 => ⟨S4096x2048x1, .f32⟩
  | 24 => ⟨S4096x2048x1x1, .f32⟩
  | 25 => ⟨S4096x2048x1x1, .f32⟩
  | 26 => ⟨S4096x2048x2x1, .f32⟩
  | 27 => ⟨S4096x1024x2x2, .f32⟩
  | 28 => ⟨S4096x1024x1x2, .f32⟩
  | 29 => ⟨S4096x1024x2, .f32⟩
  | 30 => ⟨S4096x1024x1x2, .f32⟩
  | 31 => ⟨S4096x1024x2, .f32⟩
  | 32 => ⟨S4096x1024x2, .f32⟩
  | 33 => ⟨S4096x1024x2, .f32⟩
  | 34 => ⟨S4096x1024x1x2, .f32⟩
  | 35 => ⟨S4096x1024x1x2, .f32⟩
  | 36 => ⟨S4096x1024x2x2, .f32⟩
  | 37 => ⟨S4096x512x2x4, .f32⟩
  | 38 => ⟨S4096x512x1x4, .f32⟩
  | 39 => ⟨S4096x512x4, .f32⟩
  | 40 => ⟨S4096x512x1x4, .f32⟩
  | 41 => ⟨S4096x512x4, .f32⟩
  | 42 => ⟨S4096x512x4, .f32⟩
  | 43 => ⟨S4096x512x4, .f32⟩
  | 44 => ⟨S4096x512x1x4, .f32⟩
  | 45 => ⟨S4096x512x1x4, .f32⟩
  | 46 => ⟨S4096x512x2x4, .f32⟩
  | 47 => ⟨S4096x256x2x8, .f32⟩
  | 48 => ⟨S4096x256x1x8, .f32⟩
  | 49 => ⟨S4096x256x8, .f32⟩
  | 50 => ⟨S4096x256x1x8, .f32⟩
  | 51 => ⟨S4096x256x8, .f32⟩
  | 52 => ⟨S4096x256x8, .f32⟩
  | 53 => ⟨S4096x256x8, .f32⟩
  | 54 => ⟨S4096x256x1x8, .f32⟩
  | 55 => ⟨S4096x256x1x8, .f32⟩
  | 56 => ⟨S4096x256x2x8, .f32⟩
  | 57 => ⟨S4096x128x2x16, .f32⟩
  | 58 => ⟨S4096x128x1x16, .f32⟩
  | 59 => ⟨S4096x128x16, .f32⟩
  | 60 => ⟨S4096x128x1x16, .f32⟩
  | 61 => ⟨S4096x128x16, .f32⟩
  | 62 => ⟨S4096x128x16, .f32⟩
  | 63 => ⟨S4096x128x16, .f32⟩
  | 64 => ⟨S4096x128x1x16, .f32⟩
  | 65 => ⟨S4096x128x1x16, .f32⟩
  | 66 => ⟨S4096x128x2x16, .f32⟩
  | 67 => ⟨S4096x64x2x32, .f32⟩
  | 68 => ⟨S4096x64x1x32, .f32⟩
  | 69 => ⟨S4096x64x32, .f32⟩
  | 70 => ⟨S4096x64x1x32, .f32⟩
  | 71 => ⟨S4096x64x32, .f32⟩
  | 72 => ⟨S4096x64x32, .f32⟩
  | 73 => ⟨S4096x64x32, .f32⟩
  | 74 => ⟨S4096x64x1x32, .f32⟩
  | 75 => ⟨S4096x64x1x32, .f32⟩
  | 76 => ⟨S4096x64x2x32, .f32⟩
  | 77 => ⟨S4096x32x2x64, .f32⟩
  | 78 => ⟨S4096x32x1x64, .f32⟩
  | 79 => ⟨S4096x32x64, .f32⟩
  | 80 => ⟨S4096x32x1x64, .f32⟩
  | 81 => ⟨S4096x32x64, .f32⟩
  | 82 => ⟨S4096x32x64, .f32⟩
  | 83 => ⟨S4096x32x64, .f32⟩
  | 84 => ⟨S4096x32x1x64, .f32⟩
  | 85 => ⟨S4096x32x1x64, .f32⟩
  | 86 => ⟨S4096x32x2x64, .f32⟩
  | 87 => ⟨S4096x16x2x128, .f32⟩
  | 88 => ⟨S4096x16x1x128, .f32⟩
  | 89 => ⟨S4096x16x128, .f32⟩
  | 90 => ⟨S4096x16x1x128, .f32⟩
  | 91 => ⟨S4096x16x128, .f32⟩
  | 92 => ⟨S4096x16x128, .f32⟩
  | 93 => ⟨S4096x16x128, .f32⟩
  | 94 => ⟨S4096x16x1x128, .f32⟩
  | 95 => ⟨S4096x16x1x128, .f32⟩
  | 96 => ⟨S4096x16x2x128, .f32⟩
  | 97 => ⟨S4096x8x2x256, .f32⟩
  | 98 => ⟨S4096x8x1x256, .f32⟩
  | 99 => ⟨S4096x8x256, .f32⟩
  | 100 => ⟨S4096x8x1x256, .f32⟩
  | 101 => ⟨S4096x8x256, .f32⟩
  | 102 => ⟨S4096x8x256, .f32⟩
  | 103 => ⟨S4096x8x256, .f32⟩
  | 104 => ⟨S4096x8x1x256, .f32⟩
  | 105 => ⟨S4096x8x1x256, .f32⟩
  | 106 => ⟨S4096x8x2x256, .f32⟩
  | 107 => ⟨S4096x4x2x512, .f32⟩
  | 108 => ⟨S4096x4x1x512, .f32⟩
  | 109 => ⟨S4096x4x512, .f32⟩
  | 110 => ⟨S4096x4x1x512, .f32⟩
  | 111 => ⟨S4096x4x512, .f32⟩
  | 112 => ⟨S4096x4x512, .f32⟩
  | 113 => ⟨S4096x4x512, .f32⟩
  | 114 => ⟨S4096x4x1x512, .f32⟩
  | 115 => ⟨S4096x4x1x512, .f32⟩
  | 116 => ⟨S4096x4x2x512, .f32⟩
  | 117 => ⟨S4096x2x2x1024, .f32⟩
  | 118 => ⟨S4096x2x1x1024, .f32⟩
  | 119 => ⟨S4096x2x1024, .f32⟩
  | 120 => ⟨S4096x2x1x1024, .f32⟩
  | 121 => ⟨S4096x2x1024, .f32⟩
  | 122 => ⟨S4096x2x1024, .f32⟩
  | 123 => ⟨S4096x2x1024, .f32⟩
  | 124 => ⟨S4096x2x1x1024, .f32⟩
  | 125 => ⟨S4096x2x1x1024, .f32⟩
  | 126 => ⟨S4096x2x2x1024, .f32⟩
  | 127 => ⟨S4096x1x2x2048, .f32⟩
  | _ => ⟨S2x2048x4096, .f32⟩

abbrev hbmTy0_2 (i : Nat) : BufTy := match i % 128 with
  | 0 => ⟨S4096x1x1x2048, .f32⟩
  | 1 => ⟨S4096x1x2048, .f32⟩
  | 2 => ⟨S4096x1x1x2048, .f32⟩
  | 3 => ⟨S4096x1x2048, .f32⟩
  | 4 => ⟨S4096x1x2048, .f32⟩
  | 5 => ⟨S4096x1x2048, .f32⟩
  | 6 => ⟨S4096x1x1x2048, .f32⟩
  | 7 => ⟨S4096x1x1x2048, .f32⟩
  | 8 => ⟨S4096x1x2x2048, .f32⟩
  | 9 => ⟨S4096x4096, .f32⟩
  | 10 => ⟨S_, .f32⟩
  | 11 => ⟨S4096x4096, .f32⟩
  | 12 => ⟨S4096x4096, .f32⟩
  | 13 => ⟨S1x4096, .f32⟩
  | 14 => ⟨S4096x4096, .f32⟩
  | 15 => ⟨S4096x4096, .f32⟩
  | 16 => ⟨S2x2048x4096, .f32⟩
  | _ => ⟨S2x2048x4096, .f32⟩

abbrev hbmTy (i : Nat) : BufTy := match i / 128 with
  | 0 => hbmTy0_0 i
  | 1 => hbmTy0_1 i
  | 2 => hbmTy0_2 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_cst : Ref sig .tc := ⟨.hbm, 130, rfl⟩
abbrev main_v125 : Ref sig .tc := ⟨.hbm, 131, rfl⟩
abbrev main_v126 : Ref sig .tc := ⟨.hbm, 132, rfl⟩
abbrev main_c : Ref sig .tc := ⟨.hbm, 133, rfl⟩
abbrev main_v127 : Ref sig .tc := ⟨.hbm, 134, rfl⟩
abbrev main_v128 : Ref sig .tc := ⟨.hbm, 135, rfl⟩
abbrev main_c_0 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_cst_1 : Ref sig .tc := ⟨.hbm, 266, rfl⟩
abbrev main_v258 : Ref sig .tc := ⟨.hbm, 267, rfl⟩
abbrev main_v259 : Ref sig .tc := ⟨.hbm, 268, rfl⟩
abbrev main_v260 : Ref sig .tc := ⟨.hbm, 269, rfl⟩
abbrev main_v261 : Ref sig .tc := ⟨.hbm, 270, rfl⟩
abbrev main_v262 : Ref sig .tc := ⟨.hbm, 271, rfl⟩
abbrev main_v263 : Ref sig .tc := ⟨.hbm, 272, rfl⟩

abbrev nD : Nat := 1
abbrev τ : Topo := Topo.v7x

variable {F : FTy → Type} [FloatOps F]

class Facts₀ : Prop where
  shapeCasts_S2x2048x4096_S4096x4096 : S2x2048x4096.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x2048x2x1 : S4096x4096.ShapeCasts S4096x2048x2x1
  slices_S4096x2048x2x1_S4096x2048x1x1_0_0_0_0 : S4096x2048x2x1.Slices ![0, 0, 0, 0] S4096x2048x1x1
  shapeCasts_S4096x2048x1x1_S4096x2048x1 : S4096x2048x1x1.ShapeCasts S4096x2048x1
  slices_S4096x2048x2x1_S4096x2048x1x1_0_0_1_0 : S4096x2048x2x1.Slices ![0, 0, 1, 0] S4096x2048x1x1
  bcast_S4096x2048x1_S4096x2048x1x1_0_1_3 : S4096x2048x1.BroadcastsInDim S4096x2048x1x1 (![0, 1, 3] : Fin 3 → Fin S4096x2048x1x1.rank)
  concatenates_S4096x2048x1x1_S4096x2048x1x1_S4096x2048x2x1_d2 : Shape.Concatenates [S4096x2048x1x1, S4096x2048x1x1] S4096x2048x2x1 2
  shapeCasts_S4096x2048x2x1_S4096x1024x2x2 : S4096x2048x2x1.ShapeCasts S4096x1024x2x2
  slices_S4096x1024x2x2_S4096x1024x1x2_0_0_0_0 : S4096x1024x2x2.Slices ![0, 0, 0, 0] S4096x1024x1x2
  shapeCasts_S4096x1024x1x2_S4096x1024x2 : S4096x1024x1x2.ShapeCasts S4096x1024x2
  slices_S4096x1024x2x2_S4096x1024x1x2_0_0_1_0 : S4096x1024x2x2.Slices ![0, 0, 1, 0] S4096x1024x1x2
  bcast_S4096x1024x2_S4096x1024x1x2_0_1_3 : S4096x1024x2.BroadcastsInDim S4096x1024x1x2 (![0, 1, 3] : Fin 3 → Fin S4096x1024x1x2.rank)
  concatenates_S4096x1024x1x2_S4096x1024x1x2_S4096x1024x2x2_d2 : Shape.Concatenates [S4096x1024x1x2, S4096x1024x1x2] S4096x1024x2x2 2
  shapeCasts_S4096x1024x2x2_S4096x512x2x4 : S4096x1024x2x2.ShapeCasts S4096x512x2x4
  slices_S4096x512x2x4_S4096x512x1x4_0_0_0_0 : S4096x512x2x4.Slices ![0, 0, 0, 0] S4096x512x1x4
  shapeCasts_S4096x512x1x4_S4096x512x4 : S4096x512x1x4.ShapeCasts S4096x512x4
  slices_S4096x512x2x4_S4096x512x1x4_0_0_1_0 : S4096x512x2x4.Slices ![0, 0, 1, 0] S4096x512x1x4
  bcast_S4096x512x4_S4096x512x1x4_0_1_3 : S4096x512x4.BroadcastsInDim S4096x512x1x4 (![0, 1, 3] : Fin 3 → Fin S4096x512x1x4.rank)
  concatenates_S4096x512x1x4_S4096x512x1x4_S4096x512x2x4_d2 : Shape.Concatenates [S4096x512x1x4, S4096x512x1x4] S4096x512x2x4 2
  shapeCasts_S4096x512x2x4_S4096x256x2x8 : S4096x512x2x4.ShapeCasts S4096x256x2x8
  slices_S4096x256x2x8_S4096x256x1x8_0_0_0_0 : S4096x256x2x8.Slices ![0, 0, 0, 0] S4096x256x1x8
  shapeCasts_S4096x256x1x8_S4096x256x8 : S4096x256x1x8.ShapeCasts S4096x256x8
  slices_S4096x256x2x8_S4096x256x1x8_0_0_1_0 : S4096x256x2x8.Slices ![0, 0, 1, 0] S4096x256x1x8
  bcast_S4096x256x8_S4096x256x1x8_0_1_3 : S4096x256x8.BroadcastsInDim S4096x256x1x8 (![0, 1, 3] : Fin 3 → Fin S4096x256x1x8.rank)
  concatenates_S4096x256x1x8_S4096x256x1x8_S4096x256x2x8_d2 : Shape.Concatenates [S4096x256x1x8, S4096x256x1x8] S4096x256x2x8 2
  shapeCasts_S4096x256x2x8_S4096x128x2x16 : S4096x256x2x8.ShapeCasts S4096x128x2x16
  slices_S4096x128x2x16_S4096x128x1x16_0_0_0_0 : S4096x128x2x16.Slices ![0, 0, 0, 0] S4096x128x1x16
  shapeCasts_S4096x128x1x16_S4096x128x16 : S4096x128x1x16.ShapeCasts S4096x128x16
  slices_S4096x128x2x16_S4096x128x1x16_0_0_1_0 : S4096x128x2x16.Slices ![0, 0, 1, 0] S4096x128x1x16
  bcast_S4096x128x16_S4096x128x1x16_0_1_3 : S4096x128x16.BroadcastsInDim S4096x128x1x16 (![0, 1, 3] : Fin 3 → Fin S4096x128x1x16.rank)
  concatenates_S4096x128x1x16_S4096x128x1x16_S4096x128x2x16_d2 : Shape.Concatenates [S4096x128x1x16, S4096x128x1x16] S4096x128x2x16 2
  shapeCasts_S4096x128x2x16_S4096x64x2x32 : S4096x128x2x16.ShapeCasts S4096x64x2x32
  slices_S4096x64x2x32_S4096x64x1x32_0_0_0_0 : S4096x64x2x32.Slices ![0, 0, 0, 0] S4096x64x1x32
  shapeCasts_S4096x64x1x32_S4096x64x32 : S4096x64x1x32.ShapeCasts S4096x64x32
  slices_S4096x64x2x32_S4096x64x1x32_0_0_1_0 : S4096x64x2x32.Slices ![0, 0, 1, 0] S4096x64x1x32
  bcast_S4096x64x32_S4096x64x1x32_0_1_3 : S4096x64x32.BroadcastsInDim S4096x64x1x32 (![0, 1, 3] : Fin 3 → Fin S4096x64x1x32.rank)
  concatenates_S4096x64x1x32_S4096x64x1x32_S4096x64x2x32_d2 : Shape.Concatenates [S4096x64x1x32, S4096x64x1x32] S4096x64x2x32 2
  shapeCasts_S4096x64x2x32_S4096x32x2x64 : S4096x64x2x32.ShapeCasts S4096x32x2x64
  slices_S4096x32x2x64_S4096x32x1x64_0_0_0_0 : S4096x32x2x64.Slices ![0, 0, 0, 0] S4096x32x1x64
  shapeCasts_S4096x32x1x64_S4096x32x64 : S4096x32x1x64.ShapeCasts S4096x32x64
  slices_S4096x32x2x64_S4096x32x1x64_0_0_1_0 : S4096x32x2x64.Slices ![0, 0, 1, 0] S4096x32x1x64
  bcast_S4096x32x64_S4096x32x1x64_0_1_3 : S4096x32x64.BroadcastsInDim S4096x32x1x64 (![0, 1, 3] : Fin 3 → Fin S4096x32x1x64.rank)
  concatenates_S4096x32x1x64_S4096x32x1x64_S4096x32x2x64_d2 : Shape.Concatenates [S4096x32x1x64, S4096x32x1x64] S4096x32x2x64 2
  shapeCasts_S4096x32x2x64_S4096x16x2x128 : S4096x32x2x64.ShapeCasts S4096x16x2x128
  slices_S4096x16x2x128_S4096x16x1x128_0_0_0_0 : S4096x16x2x128.Slices ![0, 0, 0, 0] S4096x16x1x128
  shapeCasts_S4096x16x1x128_S4096x16x128 : S4096x16x1x128.ShapeCasts S4096x16x128
  slices_S4096x16x2x128_S4096x16x1x128_0_0_1_0 : S4096x16x2x128.Slices ![0, 0, 1, 0] S4096x16x1x128
  bcast_S4096x16x128_S4096x16x1x128_0_1_3 : S4096x16x128.BroadcastsInDim S4096x16x1x128 (![0, 1, 3] : Fin 3 → Fin S4096x16x1x128.rank)
  concatenates_S4096x16x1x128_S4096x16x1x128_S4096x16x2x128_d2 : Shape.Concatenates [S4096x16x1x128, S4096x16x1x128] S4096x16x2x128 2
  shapeCasts_S4096x16x2x128_S4096x8x2x256 : S4096x16x2x128.ShapeCasts S4096x8x2x256
  slices_S4096x8x2x256_S4096x8x1x256_0_0_0_0 : S4096x8x2x256.Slices ![0, 0, 0, 0] S4096x8x1x256
  shapeCasts_S4096x8x1x256_S4096x8x256 : S4096x8x1x256.ShapeCasts S4096x8x256
  slices_S4096x8x2x256_S4096x8x1x256_0_0_1_0 : S4096x8x2x256.Slices ![0, 0, 1, 0] S4096x8x1x256
  bcast_S4096x8x256_S4096x8x1x256_0_1_3 : S4096x8x256.BroadcastsInDim S4096x8x1x256 (![0, 1, 3] : Fin 3 → Fin S4096x8x1x256.rank)
  concatenates_S4096x8x1x256_S4096x8x1x256_S4096x8x2x256_d2 : Shape.Concatenates [S4096x8x1x256, S4096x8x1x256] S4096x8x2x256 2
  shapeCasts_S4096x8x2x256_S4096x4x2x512 : S4096x8x2x256.ShapeCasts S4096x4x2x512
  slices_S4096x4x2x512_S4096x4x1x512_0_0_0_0 : S4096x4x2x512.Slices ![0, 0, 0, 0] S4096x4x1x512
  shapeCasts_S4096x4x1x512_S4096x4x512 : S4096x4x1x512.ShapeCasts S4096x4x512
  slices_S4096x4x2x512_S4096x4x1x512_0_0_1_0 : S4096x4x2x512.Slices ![0, 0, 1, 0] S4096x4x1x512
  bcast_S4096x4x512_S4096x4x1x512_0_1_3 : S4096x4x512.BroadcastsInDim S4096x4x1x512 (![0, 1, 3] : Fin 3 → Fin S4096x4x1x512.rank)
  concatenates_S4096x4x1x512_S4096x4x1x512_S4096x4x2x512_d2 : Shape.Concatenates [S4096x4x1x512, S4096x4x1x512] S4096x4x2x512 2
  shapeCasts_S4096x4x2x512_S4096x2x2x1024 : S4096x4x2x512.ShapeCasts S4096x2x2x1024
  slices_S4096x2x2x1024_S4096x2x1x1024_0_0_0_0 : S4096x2x2x1024.Slices ![0, 0, 0, 0] S4096x2x1x1024
  shapeCasts_S4096x2x1x1024_S4096x2x1024 : S4096x2x1x1024.ShapeCasts S4096x2x1024
  slices_S4096x2x2x1024_S4096x2x1x1024_0_0_1_0 : S4096x2x2x1024.Slices ![0, 0, 1, 0] S4096x2x1x1024
  bcast_S4096x2x1024_S4096x2x1x1024_0_1_3 : S4096x2x1024.BroadcastsInDim S4096x2x1x1024 (![0, 1, 3] : Fin 3 → Fin S4096x2x1x1024.rank)
  concatenates_S4096x2x1x1024_S4096x2x1x1024_S4096x2x2x1024_d2 : Shape.Concatenates [S4096x2x1x1024, S4096x2x1x1024] S4096x2x2x1024 2
  shapeCasts_S4096x2x2x1024_S4096x1x2x2048 : S4096x2x2x1024.ShapeCasts S4096x1x2x2048
  slices_S4096x1x2x2048_S4096x1x1x2048_0_0_0_0 : S4096x1x2x2048.Slices ![0, 0, 0, 0] S4096x1x1x2048
  shapeCasts_S4096x1x1x2048_S4096x1x2048 : S4096x1x1x2048.ShapeCasts S4096x1x2048
  slices_S4096x1x2x2048_S4096x1x1x2048_0_0_1_0 : S4096x1x2x2048.Slices ![0, 0, 1, 0] S4096x1x1x2048
  bcast_S4096x1x2048_S4096x1x1x2048_0_1_3 : S4096x1x2048.BroadcastsInDim S4096x1x1x2048 (![0, 1, 3] : Fin 3 → Fin S4096x1x1x2048.rank)
  concatenates_S4096x1x1x2048_S4096x1x1x2048_S4096x1x2x2048_d2 : Shape.Concatenates [S4096x1x1x2048, S4096x1x1x2048] S4096x1x2x2048 2
  shapeCasts_S4096x1x2x2048_S4096x4096 : S4096x1x2x2048.ShapeCasts S4096x4096
  bcast_S_S4096x4096 : S_.BroadcastsInDim S4096x4096 (![] : Fin 0 → Fin S4096x4096.rank)
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  transposes_S4096x4096_S4096x4096_1_0 : S4096x4096.Transposes [1, 0] S4096x4096
  shapeCasts_S4096x4096_S2x2048x4096 : S4096x4096.ShapeCasts S2x2048x4096
  gather_S65536x8_S4096x512x1_S4096x512x8_2_0_n_n_0_2_18_wf : GatherDims.WF S65536x8 S4096x512x1 S4096x512x8 [2] [0] [] [0] [] 2 ![1, 8]
  dot_S4096x4096_S4096x4096_S4096x4096_1_0_0_1_n_n_wf : DotDims.WF S4096x4096 S4096x4096 S4096x4096 [1] [0] [0] [1] [] []

variable [Facts₀]

def gather_S65536x8_S4096x512x1_S4096x512x8_2_0_n_n_0_2_18 : GatherDims S65536x8 S4096x512x1 S4096x512x8 where
  offsetDims := [2]
  collapsedSliceDims := [0]
  operandBatchingDims := []
  startIndicesBatchingDims := []
  startIndexMap := [0]
  indexVectorDim := 2
  sliceSizes := ![1, 8]
  wf := gather_S65536x8_S4096x512x1_S4096x512x8_2_0_n_n_0_2_18_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.Entry.lean ====
/-
  The memory the matmul region is entered with. The program runs 141 host operations first (the input scaled by SU
  and rotated by the Walsh–Hadamard butterfly, the codebook rows gathered and transposed, both rounded to bf16),
  then the region, then 128 more (the second butterfly and the scaling by SV). `V0 m c` is core `c`'s buffer contents
  after the first stretch, as a fold that is never opened here; `V` reads it at a reference.
-/
import proofs.«157367_j44899588112786_1_alg».proof.Proof.Gen.Kernel.Launch
import proofs.«157367_j44899588112786_1_alg».proof.Proof.Gen.Kernel.Skeleton
import proofs.«157367_j44899588112786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch memory after the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

end Cert.Kernel.Fr

end
-- ==== Proof.K.Args.lean ====
/-
  The five argument arrays are written by no host operation, before the region or after it, and are no array of the
  pipeline: each ends holding what it was launched with.
-/
import proofs.«157367_j44899588112786_1_alg».proof.Proof.K.Entry

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 3 either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 4 either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

end Cert.Kernel.Fr

end
-- ==== Proof.K.Shared.lean ====
/-
  What the three runs of the matmul body share. The grid is 4 × 4 × 4 with the contraction axis last, so point `t`
  has contraction step `t % 4`: at step 0 the body clears the accumulator scratch, at every step it adds the
  product of the point's two blocks to it, and at step 3 it copies the accumulator into the output block, which is
  written back there and only there. Stated here: the program around the region, the blocks the windows hold, the two
  conditions in closed form, where the output window is idle, and the names of the staging memrefs.
-/
import proofs.«157367_j44899588112786_1_alg».proof.Proof.K.Args

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer only, and none of those is one of the three arrays of the pipeline. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The frame claim's post from a run to the library's post: each argument array is no array of the pipeline, so it
    ends at what the later host operations leave in it, which is what it was launched with. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The body's two conditions -/

/-- "This is contraction step 0": the condition under which the body clears the accumulator. -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is contraction step 3", the last: the condition under which the body stores the accumulator into the output block. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last contraction step the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last contraction step it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1024x1024 .f32 := (Memref.whole cc0_stg2_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator scratch: a whole scoped buffer of the kernel's own. -/
abbrev scM0_0 : Memref sig .tc .vmem S1024x1024 .f32 := Memref.whole cc0_scratch0
abbrev VS0_0 : View sig .tc .vmem S1024x1024 .f32 := scM0_0.view

/-- The region's invariant with the accumulator scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The body at contraction step 0 (the first condition holds, the second does not): the accumulator scratch, whatever
  it held, is cleared and then receives the product of the two blocks; nothing is stored into the output block, which
  is handed back as it was found. The pieces the scratch ends with are found by running the body.
-/
import proofs.«157367_j44899588112786_1_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at step 0: the pieces left in the output block (none) and in the scratch, with the body's triple. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.RunB.lean ====
/-
  The body at contraction steps 1 and 2 (neither condition holds): the accumulator scratch, at what the step before
  left in it, receives that plus the product of the two blocks; the output block is handed back as it was found.
-/
import proofs.«157367_j44899588112786_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at a middle step: the pieces left in the output block (none) and in the scratch, with the body's triple. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.RunC.lean ====
/-
  The body at contraction step 3, the last (the first condition fails, the second holds): the accumulator scratch,
  at what step 2 left in it, receives that plus the product of the two blocks, and the output block, whatever it held,
  receives the accumulator's new contents.
-/
import proofs.«157367_j44899588112786_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at the last step: the pieces left in the output block and in the scratch, with the body's triple. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.K.Frame.lean ====
/-
  The frame of the program: every weakly fair execution terminates without a fault and leaves the five argument
  arrays as launched. The accumulator scratch is carried between grid points, so what it and the output block hold
  after each point is defined by recursion on the point (`outsAt0`): at contraction step 0 the first run's contents,
  at steps 1 and 2 the middle run's over what the point before left in the scratch, at step 3 the last run's. The
  proof data of the pipeline names these, the body obligation is a case split on the step, and the launch theorem
  for a region with carried scratch and later host operations gives the run.
-/
import proofs.«157367_j44899588112786_1_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block at step 0: nothing is stored; a placeholder nothing consults. -/
def out0_A_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VO0_2.read (Elt F) (VO0_2.writes (Elt F) VO0_2.junk (kernelRun0_A c i arg3 harg3 arg4 harg4 arg5 harg5 arg6 harg6 hc0 hc1 x0 x1).1)

/-- The step-0 run's pieces cover the scratch. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- What step 0 leaves in the scratch. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- The output block at a middle step: nothing is stored; a placeholder nothing consults. -/
def out0_B_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VO0_2.read (Elt F) (VO0_2.writes (Elt F) VO0_2.junk (kernelRun0_B c i arg3 harg3 arg4 harg4 arg5 harg5 arg6 harg6 hc0 hc1 x0 x1 xs0).1)

theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- What a middle step leaves in the scratch. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

/-- The last step's pieces cover the output block. -/
theorem cover0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y

/-- What the last step leaves in the output block. -/
def out0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VO0_2.read (Elt F) (VO0_2.writes (Elt F) VO0_2.junk (kernelRun0_C c i arg3 harg3 arg4 harg4 arg5 harg5 arg6 harg6 hc0 hc1 x0 x1 xs0).1)

theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y

/-- What the last step leaves in the scratch. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_C c i arg3 harg3 arg4 harg4 arg5 harg5 arg6 harg6 hc0 hc1 x0 x1 xs0).2.1)

/-! ## What the output block and the scratch hold after each point -/

/-- After the body at position `n`: (the output window's staging buffer, the accumulator scratch). -/
def outsAt0 (c : Dev nD) : (n : ℕ) → n < cfg0.N → Vec F S1024x1024 .f32 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- At a step-0 point. -/
theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a middle point: over what the point before left in the scratch. -/
theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last-step point: over what the point before left in the scratch. -/
theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch holds anything; afterwards what
    the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the output's
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the step decides which run applies; the invariant
    hands the body the scratch at what the point before left (at anything at the first point) and takes it back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · have h1 : ¬t.val % 4 = 3 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has each array of the pipeline at what the
    proof data's write-backs compute and every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Fr

end
-- ==== Proof.KI.Entry.lean ====
/-
  The memory the matmul region is entered with. The program runs 141 host operations first (the input scaled by SU
  and rotated by the Walsh–Hadamard butterfly, the codebook rows gathered and transposed, both rounded to bf16),
  then the region, then 128 more (the second butterfly and the scaling by SV). `V0 m c` is core `c`'s buffer contents
  after the first stretch, as a fold that is never opened here; `V` reads it at a reference.
-/
import proofs.«157367_j44899588112786_1_alg».proof.Proof.Gen.KernelIdeal.Launch
import proofs.«157367_j44899588112786_1_alg».proof.Proof.Gen.KernelIdeal.Skeleton
import proofs.«157367_j44899588112786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch memory after the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

end Cert.KernelIdeal.Fr

end
-- ==== Proof.KI.Args.lean ====
/-
  The five argument arrays are written by no host operation, before the region or after it, and are no array of the
  pipeline: each ends holding what it was launched with.
-/
import proofs.«157367_j44899588112786_1_alg».proof.Proof.KI.Entry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 3 either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 4 either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

end Cert.KernelIdeal.Fr

end
-- ==== Proof.KI.Shared.lean ====
/-
  What the three runs of the matmul body share. The grid is 4 × 4 × 4 with the contraction axis last, so point `t`
  has contraction step `t % 4`: at step 0 the body clears the accumulator scratch, at every step it adds the
  product of the point's two blocks to it, and at step 3 it copies the accumulator into the output block, which is
  written back there and only there. Stated here: the program around the region, the blocks the windows hold, the two
  conditions in closed form, where the output window is idle, and the names of the staging memrefs.
-/
import proofs.«157367_j44899588112786_1_alg».proof.Proof.KI.Args

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer only, and none of those is one of the three arrays of the pipeline. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The frame claim's post from a run to the library's post: each argument array is no array of the pipeline, so it
    ends at what the later host operations leave in it, which is what it was launched with. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The body's two conditions -/

/-- "This is contraction step 0": the condition under which the body clears the accumulator. -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is contraction step 3", the last: the condition under which the body stores the accumulator into the output block. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last contraction step the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last contraction step it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1024x1024 .f32 := (Memref.whole cc0_stg2_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator scratch: a whole scoped buffer of the kernel's own. -/
abbrev scM0_0 : Memref sig .tc .vmem S1024x1024 .f32 := Memref.whole cc0_scratch0
abbrev VS0_0 : View sig .tc .vmem S1024x1024 .f32 := scM0_0.view

/-- The region's invariant with the accumulator scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The body at contraction step 0 (the first condition holds, the second does not): the accumulator scratch, whatever
  it held, is cleared and then receives the product of the two blocks; nothing is stored into the output block, which
  is handed back as it was found. The pieces the scratch ends with are found by running the body.
-/
import proofs.«157367_j44899588112786_1_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at step 0: the pieces left in the output block (none) and in the scratch, with the body's triple. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.RunB.lean ====
/-
  The body at contraction steps 1 and 2 (neither condition holds): the accumulator scratch, at what the step before
  left in it, receives that plus the product of the two blocks; the output block is handed back as it was found.
-/
import proofs.«157367_j44899588112786_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at a middle step: the pieces left in the output block (none) and in the scratch, with the body's triple. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.RunC.lean ====
/-
  The body at contraction step 3, the last (the first condition fails, the second holds): the accumulator scratch,
  at what step 2 left in it, receives that plus the product of the two blocks, and the output block, whatever it held,
  receives the accumulator's new contents.
-/
import proofs.«157367_j44899588112786_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at the last step: the pieces left in the output block and in the scratch, with the body's triple. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.Frame.lean ====
/-
  The frame of the program: every weakly fair execution terminates without a fault and leaves the five argument
  arrays as launched. The accumulator scratch is carried between grid points, so what it and the output block hold
  after each point is defined by recursion on the point (`outsAt0`): at contraction step 0 the first run's contents,
  at steps 1 and 2 the middle run's over what the point before left in the scratch, at step 3 the last run's. The
  proof data of the pipeline names these, the body obligation is a case split on the step, and the launch theorem
  for a region with carried scratch and later host operations gives the run.
-/
import proofs.«157367_j44899588112786_1_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block at step 0: nothing is stored; a placeholder nothing consults. -/
def out0_A_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VO0_2.read (Elt F) (VO0_2.writes (Elt F) VO0_2.junk (kernelRun0_A c i arg3 harg3 arg4 harg4 arg5 harg5 arg6 harg6 hc0 hc1 x0 x1).1)

/-- The step-0 run's pieces cover the scratch. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- What step 0 leaves in the scratch. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- The output block at a middle step: nothing is stored; a placeholder nothing consults. -/
def out0_B_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VO0_2.read (Elt F) (VO0_2.writes (Elt F) VO0_2.junk (kernelRun0_B c i arg3 harg3 arg4 harg4 arg5 harg5 arg6 harg6 hc0 hc1 x0 x1 xs0).1)

theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- What a middle step leaves in the scratch. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

/-- The last step's pieces cover the output block. -/
theorem cover0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y

/-- What the last step leaves in the output block. -/
def out0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VO0_2.read (Elt F) (VO0_2.writes (Elt F) VO0_2.junk (kernelRun0_C c i arg3 harg3 arg4 harg4 arg5 harg5 arg6 harg6 hc0 hc1 x0 x1 xs0).1)

theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y

/-- What the last step leaves in the scratch. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_C c i arg3 harg3 arg4 harg4 arg5 harg5 arg6 harg6 hc0 hc1 x0 x1 xs0).2.1)

/-! ## What the output block and the scratch hold after each point -/

/-- After the body at position `n`: (the output window's staging buffer, the accumulator scratch). -/
def outsAt0 (c : Dev nD) : (n : ℕ) → n < cfg0.N → Vec F S1024x1024 .f32 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- At a step-0 point. -/
theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a middle point: over what the point before left in the scratch. -/
theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last-step point: over what the point before left in the scratch. -/
theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch holds anything; afterwards what
    the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the output's
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the step decides which run applies; the invariant
    hands the body the scratch at what the point before left (at anything at the first point) and takes it back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · have h1 : ¬t.val % 4 = 3 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has each array of the pipeline at what the
    proof data's write-backs compute and every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Fr

end
-- ==== Proof.KI.Pieces.lean ====
/-
  What the three runs leave, read as values. Every store of the body writes a whole 1024 × 1024 buffer, so the last
  piece alone decides a buffer's contents: the scratch ends at its old contents plus the product of the two blocks
  (at step 0 the old contents are the zero block the body has just stored and read back), and at the last step the
  output block receives exactly what the scratch then holds.
-/
import proofs.«157367_j44899588112786_1_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A middle step leaves in the scratch its old contents plus the product of the blocks. -/
theorem sout_B_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1024x1024) hz]

/-- So does the last step. -/
theorem sout_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz]

/-- And the output block receives the same. -/
theorem out_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz, View.readCov_unit_zero (S := S1024x1024) _ hz]

/-- Step 0 leaves the zero block plus the product of the blocks. -/
theorem sout_A_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz]
  simp only [View.readAt_eq_ld, harg3.read_unread, harg4.read_unread, View.ld_unit_zero (S := S1024x1024) hz, View.readCov_unit_zero (S := S1024x1024) _ hz]

end Cert.KernelIdeal.Fr

end
-- ==== Proof.KI.Mat.lean ====
/-
  The product, entry by entry, over the extended reals. An array of 4096 × 4096 entries is read at natural-number
  coordinates (zero outside), so that a block's entry (p, r) of block (i, k) is the array's entry
  (1024 i + p, 1024 k + r) with no side condition in sight. The body's step adds to the accumulator entry (p, q) the
  sum over r < 1024 of a(p, r) · b(r, q); four steps from zero add up the 4096 products of row 1024 i + p with column
  1024 j + q, in four consecutive stretches of 1024 — and a sum over the first 1024 (k + 1) naturals is the sum over
  the first 1024 k plus the next 1024 terms. Only the commutative-monoid laws of the addition are used, so nothing
  needs to be finite.
-/
import proofs.«157367_j44899588112786_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Mat

open Cert.KernelIdeal Cert.KernelIdeal.Gen Idealize.ShloMosaic Idealize.ShloMosaic.ValueIdx
open Cert.KernelIdeal.Facts₀ Cert.KernelIdeal.Facts

/-- A 4096 × 4096 array at natural coordinates, zero outside. -/
def nat2 {φ : FTy} (a : FVec Ideal S4096x4096 φ) (I s : ℕ) : EReal :=
  if h : I < 4096 ∧ s < 4096 then a (ix2 ⟨I, h.1⟩ ⟨s, h.2⟩) else 0

theorem nat2_of_lt {φ : FTy} (a : FVec Ideal S4096x4096 φ) (I s : ℕ) (hI : I < 4096) (hs : s < 4096) :
    nat2 a I s = a (ix2 ⟨I, hI⟩ ⟨s, hs⟩) := dif_pos ⟨hI, hs⟩

/-- The product of two arrays: entry (I, J) is the sum over s < 4096 of a(I, s) · b(s, J). -/
def prod {φ₁ φ₂ : FTy} (a : FVec Ideal S4096x4096 φ₁) (b : FVec Ideal S4096x4096 φ₂) : FVec Ideal S4096x4096 .f32 :=
  fun j => ∑ s ∈ Finset.range 4096, nat2 a (j 0).val s * nat2 b s (j 1).val

/-- The partial products: entry (I, J) summed over the first `n` places only. -/
def part {φ₁ φ₂ : FTy} (a : FVec Ideal S4096x4096 φ₁) (b : FVec Ideal S4096x4096 φ₂) (n I J : ℕ) : EReal :=
  ∑ s ∈ Finset.range n, nat2 a I s * nat2 b s J

theorem part_zero {φ₁ φ₂ : FTy} (a : FVec Ideal S4096x4096 φ₁) (b : FVec Ideal S4096x4096 φ₂) (I J : ℕ) : part a b 0 I J = 0 := by
  simp [part]

/-- One more stretch of 1024 places. -/
theorem part_add {φ₁ φ₂ : FTy} (a : FVec Ideal S4096x4096 φ₁) (b : FVec Ideal S4096x4096 φ₂) (n I J : ℕ) :
    part a b (n + 1024) I J = part a b n I J + ∑ r : Fin 1024, nat2 a I (n + r.val) * nat2 b (n + r.val) J := by
  unfold part
  rw [Finset.sum_range_add, Finset.sum_range (fun x => nat2 a I (n + x) * nat2 b (n + x) J)]

theorem prod_apply {φ₁ φ₂ : FTy} (a : FVec Ideal S4096x4096 φ₁) (b : FVec Ideal S4096x4096 φ₂) (j : S4096x4096.Idx) :
    prod a b j = part a b 4096 (j 0).val (j 1).val := rfl

theorem hz : (![0, 0] : Fin 2 → Nat) = fun _ => 0 := funext fun a => by fin_cases a <;> rfl

/-- The cleared accumulator is zero everywhere. -/
theorem pay1_apply (j : S1024x1024.Idx) : k0_pay1 (F := Ideal) j = 0 := by
  unfold k0_pay1
  rw [shapeCast_self]
  show Ideal.ofBits .f32 0x00000000#32 = 0
  exact Ideal.ofBits_zero_f32

end Cert.KernelIdeal.Mat

end
-- ==== Proof.KI.Step.lean ====
/-
  One step of the body at the ideal instance, entry by entry: the accumulator's old entry (p, q) plus the sum over
  r < 1024 of a(p, r) · b(r, q) — the matrix unit's product into a zero accumulator is that plain sum, and its one
  contraction axis is the left block's columns and the right block's rows.
-/
import proofs.«157367_j44899588112786_1_alg».proof.Proof.KI.Mat

noncomputable section

namespace Cert.KernelIdeal.Mat

open Cert.KernelIdeal Cert.KernelIdeal.Gen Idealize.ShloMosaic Idealize.ShloMosaic.ValueIdx

/-- The body's step, entry by entry: the old entry plus the sum over r < 1024 of a(p, r) · b(r, q). -/
theorem pay2_apply (v3 : FVec Ideal S1024x1024 .f32) (a b : FVec Ideal S1024x1024 .bf16) (p q : Fin 1024) :
    k0_pay2 v3 a b (ix2 p q) = v3 (ix2 p q) + ∑ r : Fin 1024, a (ix2 p r) * b (ix2 r q) := by
  unfold k0_pay2
  simp only [shapeCast_self]
  rw [addf_apply]
  refine congrArg (v3 (ix2 p q) + ·) ?_
  refine (Ideal.matmul_constant_zero_apply dot_S1024x1024_S1024x1024_S1024x1024_1_0_0_1_n_n none a b (ix2 p q)).trans ?_
  rw [← Equiv.sum_comp (contrEquiv1 dot_S1024x1024_S1024x1024_S1024x1024_1_0_0_1_n_n 1024 rfl rfl).symm]
  refine Finset.sum_congr rfl fun r _ => ?_
  have hl : dot_S1024x1024_S1024x1024_S1024x1024_1_0_0_1_n_n.lhsIdx (ix2 p q) ((contrEquiv1 dot_S1024x1024_S1024x1024_S1024x1024_1_0_0_1_n_n 1024 rfl rfl).symm r) = ix2 p r := by
    funext ax; apply Fin.ext
    match ax with
    | ⟨0, _⟩ => rfl
    | ⟨1, _⟩ =>
      exact (dot_S1024x1024_S1024x1024_S1024x1024_1_0_0_1_n_n.lhsIdx_val_of_single (cl := 1) rfl (ix2 p q) _).trans
        (contrEquiv1_symm_val dot_S1024x1024_S1024x1024_S1024x1024_1_0_0_1_n_n 1024 rfl rfl r)
  have hr : dot_S1024x1024_S1024x1024_S1024x1024_1_0_0_1_n_n.rhsIdx (ix2 p q) ((contrEquiv1 dot_S1024x1024_S1024x1024_S1024x1024_1_0_0_1_n_n 1024 rfl rfl).symm r) = ix2 r q := by
    funext ax; apply Fin.ext
    match ax with
    | ⟨0, _⟩ =>
      exact (dot_S1024x1024_S1024x1024_S1024x1024_1_0_0_1_n_n.rhsIdx_val_of_single (cr := 0) rfl (ix2 p q) _).trans
        (contrEquiv1_symm_val dot_S1024x1024_S1024x1024_S1024x1024_1_0_0_1_n_n 1024 rfl rfl r)
    | ⟨1, _⟩ => rfl
  rw [hl, hr]

end Cert.KernelIdeal.Mat

end
-- ==== Proof.KI.Value.lean ====
/-
  The product array after the run, at the ideal instance. Point `t` of the 4 × 4 × 4 grid is block row `t / 16`,
  block column `t / 4 % 4`, contraction step `t % 4`; its left block is rows 1024 (t / 16) + p and columns
  1024 (t % 4) + r of the left operand, its right block rows 1024 (t % 4) + r and columns 1024 (t / 4 % 4) + q of the
  right one. By induction on the point, the scratch after point `t` holds at (p, q) the products of row
  1024 (t / 16) + p with column 1024 (t / 4 % 4) + q summed over the first 1024 (t % 4 + 1) places; at step 3 that is
  all 4096, the output block receives it, and the sixteen blocks written back at the step-3 points tile the array.
-/
import proofs.«157367_j44899588112786_1_alg».proof.Proof.KI.Pieces
import proofs.«157367_j44899588112786_1_alg».proof.Proof.KI.Step

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Mat

variable (m : (ℓ : Loc nD τ sig) → Buf (Elt Ideal) ℓ) (ρ : Dev nD → PrngReg)

/-- The left and right operands as the region finds them. -/
abbrev opA (c : Dev nD) : FVec Ideal S4096x4096 .bf16 := V m c main_v136
abbrev opB (c : Dev nD) : FVec Ideal S4096x4096 .bf16 := V m c main_v137

/-- The printed index maps over the grid: block row, block column, contraction step. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The left block at a point, entry by entry. -/
theorem iblk0_apply (c : Dev nD) (t : Fin cfg0.N) (p r : Fin 1024) :
    (iblk m c 0 t : FVec Ideal S1024x1024 .bf16) (ix2 p r) = nat2 (opA m c) (1024 * (t.val / 16) + p.val) (1024 * (t.val % 4) + r.val) := by
  have hN : t.val < 64 := lt_of_lt_of_eq t.isLt (show cfg0.N = 64 from N_0)
  obtain ⟨e0, e1, -, -, -, -⟩ := idx_facts t
  rw [nat2_of_lt _ _ _ (by omega) (by omega)]
  unfold iblk
  rw [View.read_apply]
  show V m c main_v136 (((cfg0.win 0).blk t).view.emb (ix2 p r)) = V m c main_v136 _
  refine congrArg (V m c main_v136) ?_
  funext ax; apply Fin.ext
  match ax with
  | ⟨0, _⟩ => show win0_0.index t (0 : Fin 2) * 1024 + 1 * p.val = 1024 * (t.val / 16) + p.val; rw [e0]; omega
  | ⟨1, _⟩ => show win0_0.index t (1 : Fin 2) * 1024 + 1 * r.val = 1024 * (t.val % 4) + r.val; rw [e1]; omega

/-- The right block at a point, entry by entry. -/
theorem iblk1_apply (c : Dev nD) (t : Fin cfg0.N) (r q : Fin 1024) :
    (iblk m c 1 t : FVec Ideal S1024x1024 .bf16) (ix2 r q) = nat2 (opB m c) (1024 * (t.val % 4) + r.val) (1024 * (t.val / 4 % 4) + q.val) := by
  have hN : t.val < 64 := lt_of_lt_of_eq t.isLt (show cfg0.N = 64 from N_0)
  obtain ⟨-, -, e0, e1, -, -⟩ := idx_facts t
  rw [nat2_of_lt _ _ _ (by omega) (by omega)]
  unfold iblk
  rw [View.read_apply]
  show V m c main_v137 (((cfg0.win 1).blk t).view.emb (ix2 r q)) = V m c main_v137 _
  refine congrArg (V m c main_v137) ?_
  funext ax; apply Fin.ext
  match ax with
  | ⟨0, _⟩ => show win0_1.index t (0 : Fin 2) * 1024 + 1 * r.val = 1024 * (t.val % 4) + r.val; rw [e0]; omega
  | ⟨1, _⟩ => show win0_1.index t (1 : Fin 2) * 1024 + 1 * q.val = 1024 * (t.val / 4 % 4) + q.val; rw [e1]; omega

/-- One step: the old entry plus the next 1024 products of the point's row and column. -/
theorem step_apply (c : Dev nD) (t : Fin cfg0.N) (v3 : FVec Ideal S1024x1024 .f32) (p q : Fin 1024) :
    k0_pay2 v3 (iblk m c 0 t) (iblk m c 1 t) (ix2 p q)
      = v3 (ix2 p q) + ∑ r : Fin 1024, nat2 (opA m c) (1024 * (t.val / 16) + p.val) (1024 * (t.val % 4) + r.val)
          * nat2 (opB m c) (1024 * (t.val % 4) + r.val) (1024 * (t.val / 4 % 4) + q.val) := by
  rw [pay2_apply]
  refine congrArg (v3 (ix2 p q) + ·) (Finset.sum_congr rfl fun r _ => ?_)
  rw [iblk0_apply, iblk1_apply]

/-- THE ACCUMULATION: after point `n` the scratch holds the partial products over the first 1024 (n % 4 + 1) places. -/
theorem scr_eq (c : Dev nD) : ∀ (n : ℕ) (h : n < cfg0.N) (p q : Fin 1024),
    (outsAt0 m c n h).2 (ix2 p q)
      = part (opA m c) (opB m c) (1024 * (n % 4 + 1)) (1024 * (n / 16) + p.val) (1024 * (n / 4 % 4) + q.val)
  | 0, h, p, q => by
    rw [outsAt0_A m c ⟨0, h⟩ rfl (by dsimp only; omega)]
    dsimp only
    rw [sout_A_eq, step_apply, pay1_apply]
    show (0 : EReal) + _ = part _ _ (0 + 1024) _ _
    rw [part_add, part_zero]
    simp only [Nat.zero_div, Nat.zero_mod, Nat.mul_zero, Nat.zero_add]
  | n + 1, h, p, q => by
    have hN : n + 1 < 64 := lt_of_lt_of_eq h (show cfg0.N = 64 from N_0)
    by_cases h0 : (n + 1) % 4 = 0
    · rw [outsAt0_A m c ⟨n + 1, h⟩ h0 (by dsimp only; omega)]
      dsimp only
      rw [sout_A_eq, step_apply, pay1_apply]
      show (0 : EReal) + _ = _
      rw [show 1024 * ((n + 1) % 4 + 1) = 0 + 1024 from by omega, part_add, part_zero]
      simp only [h0, Nat.mul_zero, Nat.zero_add]
    · have ih := scr_eq c n (Nat.lt_of_succ_lt h) p q
      have e16 : (n + 1) / 16 = n / 16 := by omega
      have e4 : (n + 1) / 4 % 4 = n / 4 % 4 := by omega
      have em : (n + 1) % 4 = n % 4 + 1 := by omega
      have key : k0_pay2 (outsAt0 m c n (Nat.lt_of_succ_lt h)).2 (iblk m c 0 ⟨n + 1, h⟩) (iblk m c 1 ⟨n + 1, h⟩) (ix2 p q)
          = part (opA m c) (opB m c) (1024 * ((n + 1) % 4 + 1)) (1024 * ((n + 1) / 16) + p.val) (1024 * ((n + 1) / 4 % 4) + q.val) := by
        rw [step_apply, ih]
        show _ + ∑ r : Fin 1024, nat2 _ (1024 * ((n + 1) / 16) + p.val) (1024 * ((n + 1) % 4) + r.val) * nat2 _ (1024 * ((n + 1) % 4) + r.val) (1024 * ((n + 1) / 4 % 4) + q.val) = _
        rw [e16, e4, em, show 1024 * (n % 4 + 1 + 1) = 1024 * (n % 4 + 1) + 1024 from by omega, part_add]
      by_cases h1 : (n + 1) % 4 = 3
      · rw [outsAt0_C m c ⟨n + 1, h⟩ h0 h1]
        dsimp only
        rw [sout_C_eq]
        exact key
      · rw [outsAt0_B m c ⟨n + 1, h⟩ h0 h1]
        dsimp only
        rw [sout_B_eq]
        exact key

/-- At a step-3 point the output block holds what the scratch holds. -/
theorem out_eq_scr (c : Dev nD) (t : Fin cfg0.N) (h1 : t.val % 4 = 3) :
    (outsAt0 m c t.val t.isLt).1 = (outsAt0 m c t.val t.isLt).2 := by
  rw [outsAt0_C m c t (by omega) h1]
  dsimp only
  rw [out_C_eq, sout_C_eq]

/-- WHAT A STEP-3 POINT WRITES BACK is its block of the product. -/
theorem flushed_eq (c : Dev nD) (t : Fin cfg0.N) (hf : (cfg0.win 2).flush t = true) :
    (dats m 0 c).flushed 2 t = ((cfg0.win 2).blk t).view.read (Elt Ideal) (prod (opA m c) (opB m c)) := by
  have h3 : t.val % 4 = 3 := (flush0_2 t).mp hf
  have hN : t.val < 64 := lt_of_lt_of_eq t.isLt (show cfg0.N = 64 from N_0)
  obtain ⟨-, -, -, -, e0, e1⟩ := idx_facts t
  show (cfg0.win 2).cut (grid0.coords t) ((dats m 0 c).after 2 t) = _
  rw [after0_2, out_eq_scr m c t h3]
  funext j
  obtain ⟨p, q, rfl⟩ : ∃ (p q : Fin 1024), j = ix2 p q := ⟨j 0, j 1, eq_ix2 j⟩
  rw [View.read_apply]
  show (outsAt0 m c t.val t.isLt).2 (ix2 p q) = prod (opA m c) (opB m c) (((cfg0.win 2).blk t).view.emb (ix2 p q))
  rw [scr_eq, prod_apply]
  have c0 : ((((cfg0.win 2).blk t).view.emb (ix2 p q)) 0).val = 1024 * (t.val / 16) + p.val := by
    show win0_2.index t (0 : Fin 2) * 1024 + 1 * p.val = _; rw [e0]; omega
  have c1 : ((((cfg0.win 2).blk t).view.emb (ix2 p q)) 1).val = 1024 * (t.val / 4 % 4) + q.val := by
    show win0_2.index t (1 : Fin 2) * 1024 + 1 * q.val = _; rw [e1]; omega
  rw [c0, c1, h3]

/-- An index of the array is in a point's output block iff each coordinate is in the block's range. -/
theorem mem_blk (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v138).slice (win0_2.rect t)).set ↔ _
  rw [View.set_slice_whole, Rect.mem_set_unit]
  exact Iff.rfl

/-- THE PRODUCT ARRAY after the run. -/
theorem final (c : Dev nD) : (dats m 0 c).arrAt 2 cfg0.N = prod (opA m c) (opB m c) :=
  (dats m 0 c).arrAt_eq_of_cover 2 (prod (opA m c) (opB m c)) (flushed_eq m c) fun i => by
    have hi0 : (i 0).val < 4096 := (i 0).isLt
    have hi1 : (i 1).val < 4096 := (i 1).isLt
    have hN : cfg0.N = 64 := N_0
    refine ⟨⟨16 * ((i 0).val / 1024) + 4 * ((i 1).val / 1024) + 3, by rw [hN]; omega⟩, (flush0_2 _).mpr (by dsimp only; omega), ?_⟩
    rw [mem_blk]
    obtain ⟨-, -, -, -, e0, e1⟩ := idx_facts ⟨16 * ((i 0).val / 1024) + 4 * ((i 1).val / 1024) + 3, by rw [hN]; omega⟩
    intro a
    match a with
    | ⟨0, _⟩ => show win0_2.index _ (0 : Fin 2) * 1024 ≤ (i 0).val ∧ (i 0).val < win0_2.index _ (0 : Fin 2) * 1024 + 1024; rw [e0]; dsimp only; omega
    | ⟨1, _⟩ => show win0_2.index _ (1 : Fin 2) * 1024 ≤ (i 1).val ∧ (i 1).val < win0_2.index _ (1 : Fin 2) * 1024 + 1024; rw [e1]; dsimp only; omega

end Cert.KernelIdeal.Fr

end
-- ==== Proof.KI.Stages.lean ====
/-
  The host side of both programs as pure functions, written once. The Walsh–Hadamard rotation of the rows of a
  4096 × 4096 array is twelve butterfly stages followed by the scaling by 2⁻⁶ = 1/√4096 (the word 0x3C800000); the left
  operand of the product is the rotated, SU-scaled input, the right operand the transposed table of gathered
  codebook rows, and the result is the rotated product scaled by SV. Both programs print these same operations; the
  kernel's program also rounds the two operands to bf16 on the way into its blocked product.
-/
import proofs.«157367_j44899588112786_1_alg».proof.Proof.Gen.KernelIdeal

noncomputable section

namespace Cert.KernelIdeal.Host

open Cert.KernelIdeal Idealize.ShloMosaic Idealize.SL.Sem
open Cert.KernelIdeal.Facts₀ Cert.KernelIdeal.Facts

variable {F : FTy → Type} [FloatOps F]

/-- Butterfly stage 1: the array viewed as [4096, 2048, 2, 1] (row, block, half, place) sends the two halves
    `a`, `b` of each block to `a + b`, `a − b`; the result is handed on viewed as [4096, 1024, 2, 2]. -/
def stage1 (x : (⟨S4096x2048x2x1, .f32⟩ : BufTy).Contents (Elt F)) : (⟨S4096x1024x2x2, .f32⟩ : BufTy).Contents (Elt F) :=
  shapeCast S4096x1024x2x2 (concatenate S4096x2048x2x1 2
    [⟨S4096x2048x1x1, broadcastInDim S4096x2048x1x1 ![0, 1, 3] bcast_S4096x2048x1_S4096x2048x1x1_0_1_3 (addf (shapeCast S4096x2048x1 (extractStridedSlice S4096x2048x1x1 ![0, 0, 0, 0] x slices_S4096x2048x2x1_S4096x2048x1x1_0_0_0_0) shapeCasts_S4096x2048x1x1_S4096x2048x1) (shapeCast S4096x2048x1 (extractStridedSlice S4096x2048x1x1 ![0, 0, 1, 0] x slices_S4096x2048x2x1_S4096x2048x1x1_0_0_1_0) shapeCasts_S4096x2048x1x1_S4096x2048x1))⟩,
     ⟨S4096x2048x1x1, broadcastInDim S4096x2048x1x1 ![0, 1, 3] bcast_S4096x2048x1_S4096x2048x1x1_0_1_3 (subf (shapeCast S4096x2048x1 (extractStridedSlice S4096x2048x1x1 ![0, 0, 0, 0] x slices_S4096x2048x2x1_S4096x2048x1x1_0_0_0_0) shapeCasts_S4096x2048x1x1_S4096x2048x1) (shapeCast S4096x2048x1 (extractStridedSlice S4096x2048x1x1 ![0, 0, 1, 0] x slices_S4096x2048x2x1_S4096x2048x1x1_0_0_1_0) shapeCasts_S4096x2048x1x1_S4096x2048x1))⟩]
    concatenates_S4096x2048x1x1_S4096x2048x1x1_S4096x2048x2x1_d2) shapeCasts_S4096x2048x2x1_S4096x1024x2x2

/-- Butterfly stage 2: the array viewed as [4096, 1024, 2, 2] (row, block, half, place) sends the two halves
    `a`, `b` of each block to `a + b`, `a − b`; the result is handed on viewed as [4096, 512, 2, 4]. -/
def stage2 (x : (⟨S4096x1024x2x2, .f32⟩ : BufTy).Contents (Elt F)) : (⟨S4096x512x2x4, .f32⟩ : BufTy).Contents (Elt F) :=
  shapeCast S4096x512x2x4 (concatenate S4096x1024x2x2 2
    [⟨S4096x1024x1x2, broadcastInDim S4096x1024x1x2 ![0, 1, 3] bcast_S4096x1024x2_S4096x1024x1x2_0_1_3 (addf (shapeCast S4096x1024x2 (extractStridedSlice S4096x1024x1x2 ![0, 0, 0, 0] x slices_S4096x1024x2x2_S4096x1024x1x2_0_0_0_0) shapeCasts_S4096x1024x1x2_S4096x1024x2) (shapeCast S4096x1024x2 (extractStridedSlice S4096x1024x1x2 ![0, 0, 1, 0] x slices_S4096x1024x2x2_S4096x1024x1x2_0_0_1_0) shapeCasts_S4096x1024x1x2_S4096x1024x2))⟩,
     ⟨S4096x1024x1x2, broadcastInDim S4096x1024x1x2 ![0, 1, 3] bcast_S4096x1024x2_S4096x1024x1x2_0_1_3 (subf (shapeCast S4096x1024x2 (extractStridedSlice S4096x1024x1x2 ![0, 0, 0, 0] x slices_S4096x1024x2x2_S4096x1024x1x2_0_0_0_0) shapeCasts_S4096x1024x1x2_S4096x1024x2) (shapeCast S4096x1024x2 (extractStridedSlice S4096x1024x1x2 ![0, 0, 1, 0] x slices_S4096x1024x2x2_S4096x1024x1x2_0_0_1_0) shapeCasts_S4096x1024x1x2_S4096x1024x2))⟩]
    concatenates_S4096x1024x1x2_S4096x1024x1x2_S4096x1024x2x2_d2) shapeCasts_S4096x1024x2x2_S4096x512x2x4

/-- Butterfly stage 3: the array viewed as [4096, 512, 2, 4] (row, block, half, place) sends the two halves
    `a`, `b` of each block to `a + b`, `a − b`; the result is handed on viewed as [4096, 256, 2, 8]. -/
def stage3 (x : (⟨S4096x512x2x4, .f32⟩ : BufTy).Contents (Elt F)) : (⟨S4096x256x2x8, .f32⟩ : BufTy).Contents (Elt F) :=
  shapeCast S4096x256x2x8 (concatenate S4096x512x2x4 2
    [⟨S4096x512x1x4, broadcastInDim S4096x512x1x4 ![0, 1, 3] bcast_S4096x512x4_S4096x512x1x4_0_1_3 (addf (shapeCast S4096x512x4 (extractStridedSlice S4096x512x1x4 ![0, 0, 0, 0] x slices_S4096x512x2x4_S4096x512x1x4_0_0_0_0) shapeCasts_S4096x512x1x4_S4096x512x4) (shapeCast S4096x512x4 (extractStridedSlice S4096x512x1x4 ![0, 0, 1, 0] x slices_S4096x512x2x4_S4096x512x1x4_0_0_1_0) shapeCasts_S4096x512x1x4_S4096x512x4))⟩,
     ⟨S4096x512x1x4, broadcastInDim S4096x512x1x4 ![0, 1, 3] bcast_S4096x512x4_S4096x512x1x4_0_1_3 (subf (shapeCast S4096x512x4 (extractStridedSlice S4096x512x1x4 ![0, 0, 0, 0] x slices_S4096x512x2x4_S4096x512x1x4_0_0_0_0) shapeCasts_S4096x512x1x4_S4096x512x4) (shapeCast S4096x512x4 (extractStridedSlice S4096x512x1x4 ![0, 0, 1, 0] x slices_S4096x512x2x4_S4096x512x1x4_0_0_1_0) shapeCasts_S4096x512x1x4_S4096x512x4))⟩]
    concatenates_S4096x512x1x4_S4096x512x1x4_S4096x512x2x4_d2) shapeCasts_S4096x512x2x4_S4096x256x2x8

/-- Butterfly stage 4: the array viewed as [4096, 256, 2, 8] (row, block, half, place) sends the two halves
    `a`, `b` of each block to `a + b`, `a − b`; the result is handed on viewed as [4096, 128, 2, 16]. -/
def stage4 (x : (⟨S4096x256x2x8, .f32⟩ : BufTy).Contents (Elt F)) : (⟨S4096x128x2x16, .f32⟩ : BufTy).Contents (Elt F) :=
  shapeCast S4096x128x2x16 (concatenate S4096x256x2x8 2
    [⟨S4096x256x1x8, broadcastInDim S4096x256x1x8 ![0, 1, 3] bcast_S4096x256x8_S4096x256x1x8_0_1_3 (addf (shapeCast S4096x256x8 (extractStridedSlice S4096x256x1x8 ![0, 0, 0, 0] x slices_S4096x256x2x8_S4096x256x1x8_0_0_0_0) shapeCasts_S4096x256x1x8_S4096x256x8) (shapeCast S4096x256x8 (extractStridedSlice S4096x256x1x8 ![0, 0, 1, 0] x slices_S4096x256x2x8_S4096x256x1x8_0_0_1_0) shapeCasts_S4096x256x1x8_S4096x256x8))⟩,
     ⟨S4096x256x1x8, broadcastInDim S4096x256x1x8 ![0, 1, 3] bcast_S4096x256x8_S4096x256x1x8_0_1_3 (subf (shapeCast S4096x256x8 (extractStridedSlice S4096x256x1x8 ![0, 0, 0, 0] x slices_S4096x256x2x8_S4096x256x1x8_0_0_0_0) shapeCasts_S4096x256x1x8_S4096x256x8) (shapeCast S4096x256x8 (extractStridedSlice S4096x256x1x8 ![0, 0, 1, 0] x slices_S4096x256x2x8_S4096x256x1x8_0_0_1_0) shapeCasts_S4096x256x1x8_S4096x256x8))⟩]
    concatenates_S4096x256x1x8_S4096x256x1x8_S4096x256x2x8_d2) shapeCasts_S4096x256x2x8_S4096x128x2x16

/-- Butterfly stage 5: the array viewed as [4096, 128, 2, 16] (row, block, half, place) sends the two halves
    `a`, `b` of each block to `a + b`, `a − b`; the result is handed on viewed as [4096, 64, 2, 32]. -/
def stage5 (x : (⟨S4096x128x2x16, .f32⟩ : BufTy).Contents (Elt F)) : (⟨S4096x64x2x32, .f32⟩ : BufTy).Contents (Elt F) :=
  shapeCast S4096x64x2x32 (concatenate S4096x128x2x16 2
    [⟨S4096x128x1x16, broadcastInDim S4096x128x1x16 ![0, 1, 3] bcast_S4096x128x16_S4096x128x1x16_0_1_3 (addf (shapeCast S4096x128x16 (extractStridedSlice S4096x128x1x16 ![0, 0, 0, 0] x slices_S4096x128x2x16_S4096x128x1x16_0_0_0_0) shapeCasts_S4096x128x1x16_S4096x128x16) (shapeCast S4096x128x16 (extractStridedSlice S4096x128x1x16 ![0, 0, 1, 0] x slices_S4096x128x2x16_S4096x128x1x16_0_0_1_0) shapeCasts_S4096x128x1x16_S4096x128x16))⟩,
     ⟨S4096x128x1x16, broadcastInDim S4096x128x1x16 ![0, 1, 3] bcast_S4096x128x16_S4096x128x1x16_0_1_3 (subf (shapeCast S4096x128x16 (extractStridedSlice S4096x128x1x16 ![0, 0, 0, 0] x slices_S4096x128x2x16_S4096x128x1x16_0_0_0_0) shapeCasts_S4096x128x1x16_S4096x128x16) (shapeCast S4096x128x16 (extractStridedSlice S4096x128x1x16 ![0, 0, 1, 0] x slices_S4096x128x2x16_S4096x128x1x16_0_0_1_0) shapeCasts_S4096x128x1x16_S4096x128x16))⟩]
    concatenates_S4096x128x1x16_S4096x128x1x16_S4096x128x2x16_d2) shapeCasts_S4096x128x2x16_S4096x64x2x32

/-- Butterfly stage 6: the array viewed as [4096, 64, 2, 32] (row, block, half, place) sends the two halves
    `a`, `b` of each block to `a + b`, `a − b`; the result is handed on viewed as [4096, 32, 2, 64]. -/
def stage6 (x : (⟨S4096x64x2x32, .f32⟩ : BufTy).Contents (Elt F)) : (⟨S4096x32x2x64, .f32⟩ : BufTy).Contents (Elt F) :=
  shapeCast S4096x32x2x64 (concatenate S4096x64x2x32 2
    [⟨S4096x64x1x32, broadcastInDim S4096x64x1x32 ![0, 1, 3] bcast_S4096x64x32_S4096x64x1x32_0_1_3 (addf (shapeCast S4096x64x32 (extractStridedSlice S4096x64x1x32 ![0, 0, 0, 0] x slices_S4096x64x2x32_S4096x64x1x32_0_0_0_0) shapeCasts_S4096x64x1x32_S4096x64x32) (shapeCast S4096x64x32 (extractStridedSlice S4096x64x1x32 ![0, 0, 1, 0] x slices_S4096x64x2x32_S4096x64x1x32_0_0_1_0) shapeCasts_S4096x64x1x32_S4096x64x32))⟩,
     ⟨S4096x64x1x32, broadcastInDim S4096x64x1x32 ![0, 1, 3] bcast_S4096x64x32_S4096x64x1x32_0_1_3 (subf (shapeCast S4096x64x32 (extractStridedSlice S4096x64x1x32 ![0, 0, 0, 0] x slices_S4096x64x2x32_S4096x64x1x32_0_0_0_0) shapeCasts_S4096x64x1x32_S4096x64x32) (shapeCast S4096x64x32 (extractStridedSlice S4096x64x1x32 ![0, 0, 1, 0] x slices_S4096x64x2x32_S4096x64x1x32_0_0_1_0) shapeCasts_S4096x64x1x32_S4096x64x32))⟩]
    concatenates_S4096x64x1x32_S4096x64x1x32_S4096x64x2x32_d2) shapeCasts_S4096x64x2x32_S4096x32x2x64

/-- Butterfly stage 7: the array viewed as [4096, 32, 2, 64] (row, block, half, place) sends the two halves
    `a`, `b` of each block to `a + b`, `a − b`; the result is handed on viewed as [4096, 16, 2, 128]. -/
def stage7 (x : (⟨S4096x32x2x64, .f32⟩ : BufTy).Contents (Elt F)) : (⟨S4096x16x2x128, .f32⟩ : BufTy).Contents (Elt F) :=
  shapeCast S4096x16x2x128 (concatenate S4096x32x2x64 2
    [⟨S4096x32x1x64, broadcastInDim S4096x32x1x64 ![0, 1, 3] bcast_S4096x32x64_S4096x32x1x64_0_1_3 (addf (shapeCast S4096x32x64 (extractStridedSlice S4096x32x1x64 ![0, 0, 0, 0] x slices_S4096x32x2x64_S4096x32x1x64_0_0_0_0) shapeCasts_S4096x32x1x64_S4096x32x64) (shapeCast S4096x32x64 (extractStridedSlice S4096x32x1x64 ![0, 0, 1, 0] x slices_S4096x32x2x64_S4096x32x1x64_0_0_1_0) shapeCasts_S4096x32x1x64_S4096x32x64))⟩,
     ⟨S4096x32x1x64, broadcastInDim S4096x32x1x64 ![0, 1, 3] bcast_S4096x32x64_S4096x32x1x64_0_1_3 (subf (shapeCast S4096x32x64 (extractStridedSlice S4096x32x1x64 ![0, 0, 0, 0] x slices_S4096x32x2x64_S4096x32x1x64_0_0_0_0) shapeCasts_S4096x32x1x64_S4096x32x64) (shapeCast S4096x32x64 (extractStridedSlice S4096x32x1x64 ![0, 0, 1, 0] x slices_S4096x32x2x64_S4096x32x1x64_0_0_1_0) shapeCasts_S4096x32x1x64_S4096x32x64))⟩]
    concatenates_S4096x32x1x64_S4096x32x1x64_S4096x32x2x64_d2) shapeCasts_S4096x32x2x64_S4096x16x2x128

/-- Butterfly stage 8: the array viewed as [4096, 16, 2, 128] (row, block, half, place) sends the two halves
    `a`, `b` of each block to `a + b`, `a − b`; the result is handed on viewed as [4096, 8, 2, 256]. -/
def stage8 (x : (⟨S4096x16x2x128, .f32⟩ : BufTy).Contents (Elt F)) : (⟨S4096x8x2x256, .f32⟩ : BufTy).Contents (Elt F) :=
  shapeCast S4096x8x2x256 (concatenate S4096x16x2x128 2
    [⟨S4096x16x1x128, broadcastInDim S4096x16x1x128 ![0, 1, 3] bcast_S4096x16x128_S4096x16x1x128_0_1_3 (addf (shapeCast S4096x16x128 (extractStridedSlice S4096x16x1x128 ![0, 0, 0, 0] x slices_S4096x16x2x128_S4096x16x1x128_0_0_0_0) shapeCasts_S4096x16x1x128_S4096x16x128) (shapeCast S4096x16x128 (extractStridedSlice S4096x16x1x128 ![0, 0, 1, 0] x slices_S4096x16x2x128_S4096x16x1x128_0_0_1_0) shapeCasts_S4096x16x1x128_S4096x16x128))⟩,
     ⟨S4096x16x1x128, broadcastInDim S4096x16x1x128 ![0, 1, 3] bcast_S4096x16x128_S4096x16x1x128_0_1_3 (subf (shapeCast S4096x16x128 (extractStridedSlice S4096x16x1x128 ![0, 0, 0, 0] x slices_S4096x16x2x128_S4096x16x1x128_0_0_0_0) shapeCasts_S4096x16x1x128_S4096x16x128) (shapeCast S4096x16x128 (extractStridedSlice S4096x16x1x128 ![0, 0, 1, 0] x slices_S4096x16x2x128_S4096x16x1x128_0_0_1_0) shapeCasts_S4096x16x1x128_S4096x16x128))⟩]
    concatenates_S4096x16x1x128_S4096x16x1x128_S4096x16x2x128_d2) shapeCasts_S4096x16x2x128_S4096x8x2x256

/-- Butterfly stage 9: the array viewed as [4096, 8, 2, 256] (row, block, half, place) sends the two halves
    `a`, `b` of each block to `a + b`, `a − b`; the result is handed on viewed as [4096, 4, 2, 512]. -/
def stage9 (x : (⟨S4096x8x2x256, .f32⟩ : BufTy).Contents (Elt F)) : (⟨S4096x4x2x512, .f32⟩ : BufTy).Contents (Elt F) :=
  shapeCast S4096x4x2x512 (concatenate S4096x8x2x256 2
    [⟨S4096x8x1x256, broadcastInDim S4096x8x1x256 ![0, 1, 3] bcast_S4096x8x256_S4096x8x1x256_0_1_3 (addf (shapeCast S4096x8x256 (extractStridedSlice S4096x8x1x256 ![0, 0, 0, 0] x slices_S4096x8x2x256_S4096x8x1x256_0_0_0_0) shapeCasts_S4096x8x1x256_S4096x8x256) (shapeCast S4096x8x256 (extractStridedSlice S4096x8x1x256 ![0, 0, 1, 0] x slices_S4096x8x2x256_S4096x8x1x256_0_0_1_0) shapeCasts_S4096x8x1x256_S4096x8x256))⟩,
     ⟨S4096x8x1x256, broadcastInDim S4096x8x1x256 ![0, 1, 3] bcast_S4096x8x256_S4096x8x1x256_0_1_3 (subf (shapeCast S4096x8x256 (extractStridedSlice S4096x8x1x256 ![0, 0, 0, 0] x slices_S4096x8x2x256_S4096x8x1x256_0_0_0_0) shapeCasts_S4096x8x1x256_S4096x8x256) (shapeCast S4096x8x256 (extractStridedSlice S4096x8x1x256 ![0, 0, 1, 0] x slices_S4096x8x2x256_S4096x8x1x256_0_0_1_0) shapeCasts_S4096x8x1x256_S4096x8x256))⟩]
    concatenates_S4096x8x1x256_S4096x8x1x256_S4096x8x2x256_d2) shapeCasts_S4096x8x2x256_S4096x4x2x512

/-- Butterfly stage 10: the array viewed as [4096, 4, 2, 512] (row, block, half, place) sends the two halves
    `a`, `b` of each block to `a + b`, `a − b`; the result is handed on viewed as [4096, 2, 2, 1024]. -/
def stage10 (x : (⟨S4096x4x2x512, .f32⟩ : BufTy).Contents (Elt F)) : (⟨S4096x2x2x1024, .f32⟩ : BufTy).Contents (Elt F) :=
  shapeCast S4096x2x2x1024 (concatenate S4096x4x2x512 2
    [⟨S4096x4x1x512, broadcastInDim S4096x4x1x512 ![0, 1, 3] bcast_S4096x4x512_S4096x4x1x512_0_1_3 (addf (shapeCast S4096x4x512 (extractStridedSlice S4096x4x1x512 ![0, 0, 0, 0] x slices_S4096x4x2x512_S4096x4x1x512_0_0_0_0) shapeCasts_S4096x4x1x512_S4096x4x512) (shapeCast S4096x4x512 (extractStridedSlice S4096x4x1x512 ![0, 0, 1, 0] x slices_S4096x4x2x512_S4096x4x1x512_0_0_1_0) shapeCasts_S4096x4x1x512_S4096x4x512))⟩,
     ⟨S4096x4x1x512, broadcastInDim S4096x4x1x512 ![0, 1, 3] bcast_S4096x4x512_S4096x4x1x512_0_1_3 (subf (shapeCast S4096x4x512 (extractStridedSlice S4096x4x1x512 ![0, 0, 0, 0] x slices_S4096x4x2x512_S4096x4x1x512_0_0_0_0) shapeCasts_S4096x4x1x512_S4096x4x512) (shapeCast S4096x4x512 (extractStridedSlice S4096x4x1x512 ![0, 0, 1, 0] x slices_S4096x4x2x512_S4096x4x1x512_0_0_1_0) shapeCasts_S4096x4x1x512_S4096x4x512))⟩]
    concatenates_S4096x4x1x512_S4096x4x1x512_S4096x4x2x512_d2) shapeCasts_S4096x4x2x512_S4096x2x2x1024

/-- Butterfly stage 11: the array viewed as [4096, 2, 2, 1024] (row, block, half, place) sends the two halves
    `a`, `b` of each block to `a + b`, `a − b`; the result is handed on viewed as [4096, 1, 2, 2048]. -/
def stage11 (x : (⟨S4096x2x2x1024, .f32⟩ : BufTy).Contents (Elt F)) : (⟨S4096x1x2x2048, .f32⟩ : BufTy).Contents (Elt F) :=
  shapeCast S4096x1x2x2048 (concatenate S4096x2x2x1024 2
    [⟨S4096x2x1x1024, broadcastInDim S4096x2x1x1024 ![0, 1, 3] bcast_S4096x2x1024_S4096x2x1x1024_0_1_3 (addf (shapeCast S4096x2x1024 (extractStridedSlice S4096x2x1x1024 ![0, 0, 0, 0] x slices_S4096x2x2x1024_S4096x2x1x1024_0_0_0_0) shapeCasts_S4096x2x1x1024_S4096x2x1024) (shapeCast S4096x2x1024 (extractStridedSlice S4096x2x1x1024 ![0, 0, 1, 0] x slices_S4096x2x2x1024_S4096x2x1x1024_0_0_1_0) shapeCasts_S4096x2x1x1024_S4096x2x1024))⟩,
     ⟨S4096x2x1x1024, broadcastInDim S4096x2x1x1024 ![0, 1, 3] bcast_S4096x2x1024_S4096x2x1x1024_0_1_3 (subf (shapeCast S4096x2x1024 (extractStridedSlice S4096x2x1x1024 ![0, 0, 0, 0] x slices_S4096x2x2x1024_S4096x2x1x1024_0_0_0_0) shapeCasts_S4096x2x1x1024_S4096x2x1024) (shapeCast S4096x2x1024 (extractStridedSlice S4096x2x1x1024 ![0, 0, 1, 0] x slices_S4096x2x2x1024_S4096x2x1x1024_0_0_1_0) shapeCasts_S4096x2x1x1024_S4096x2x1024))⟩]
    concatenates_S4096x2x1x1024_S4096x2x1x1024_S4096x2x2x1024_d2) shapeCasts_S4096x2x2x1024_S4096x1x2x2048

/-- Butterfly stage 12: the array viewed as [4096, 1, 2, 2048] (row, block, half, place) sends the two halves
    `a`, `b` of each block to `a + b`, `a − b`; the result is handed on viewed as [4096, 4096]. -/
def stage12 (x : (⟨S4096x1x2x2048, .f32⟩ : BufTy).Contents (Elt F)) : (⟨S4096x4096, .f32⟩ : BufTy).Contents (Elt F) :=
  shapeCast S4096x4096 (concatenate S4096x1x2x2048 2
    [⟨S4096x1x1x2048, broadcastInDim S4096x1x1x2048 ![0, 1, 3] bcast_S4096x1x2048_S4096x1x1x2048_0_1_3 (addf (shapeCast S4096x1x2048 (extractStridedSlice S4096x1x1x2048 ![0, 0, 0, 0] x slices_S4096x1x2x2048_S4096x1x1x2048_0_0_0_0) shapeCasts_S4096x1x1x2048_S4096x1x2048) (shapeCast S4096x1x2048 (extractStridedSlice S4096x1x1x2048 ![0, 0, 1, 0] x slices_S4096x1x2x2048_S4096x1x1x2048_0_0_1_0) shapeCasts_S4096x1x1x2048_S4096x1x2048))⟩,
     ⟨S4096x1x1x2048, broadcastInDim S4096x1x1x2048 ![0, 1, 3] bcast_S4096x1x2048_S4096x1x1x2048_0_1_3 (subf (shapeCast S4096x1x2048 (extractStridedSlice S4096x1x1x2048 ![0, 0, 0, 0] x slices_S4096x1x2x2048_S4096x1x1x2048_0_0_0_0) shapeCasts_S4096x1x1x2048_S4096x1x2048) (shapeCast S4096x1x2048 (extractStridedSlice S4096x1x1x2048 ![0, 0, 1, 0] x slices_S4096x1x2x2048_S4096x1x1x2048_0_0_1_0) shapeCasts_S4096x1x1x2048_S4096x1x2048))⟩]
    concatenates_S4096x1x1x2048_S4096x1x1x2048_S4096x1x2x2048_d2) shapeCasts_S4096x1x2x2048_S4096x4096

/-- The rotation: the twelve stages, then every entry times 2⁻⁶. -/
def fwht (y : (⟨S4096x4096, .f32⟩ : BufTy).Contents (Elt F)) : (⟨S4096x4096, .f32⟩ : BufTy).Contents (Elt F) :=
  mulf (stage12 (stage11 (stage10 (stage9 (stage8 (stage7 (stage6 (stage5 (stage4 (stage3 (stage2 (stage1 (shapeCast S4096x2048x2x1 y shapeCasts_S4096x4096_S4096x2048x2x1)))))))))))))
    (broadcastInDim S4096x4096 ![] bcast_S_S4096x4096 (constant S_ .f32 0x3C800000#32))

/-- The left operand, before rounding: the input's 4096 rows, each entry scaled by SU's entry of its column, rotated. -/
def xPre (inp : (⟨S2x2048x4096, .f32⟩ : BufTy).Contents (Elt F)) (su : (⟨S4096, .f32⟩ : BufTy).Contents (Elt F)) : (⟨S4096x4096, .f32⟩ : BufTy).Contents (Elt F) :=
  fwht (mulf (shapeCast S4096x4096 inp shapeCasts_S2x2048x4096_S4096x4096)
    (broadcastInDim S4096x4096 ![0, 1] bcast_S1x4096_S4096x4096_0_1 (broadcastInDim S1x4096 ![1] bcast_S4096_S1x4096_1 su)))

/-- The right operand, before rounding: the codebook rows the indices name (a negative index wrapped by 65536), eight
    weights each, laid out as a 4096 × 4096 table and transposed. -/
def wPre (grid : (⟨S65536x8, .f32⟩ : BufTy).Contents (Elt F)) (q : (⟨S4096x512, .i32⟩ : BufTy).Contents (Elt F)) : (⟨S4096x4096, .f32⟩ : BufTy).Contents (Elt F) :=
  transpose S4096x4096 [1, 0] (shapeCast S4096x4096
    (Host.gather gather_S65536x8_S4096x512x1_S4096x512x8_2_0_n_n_0_2_18 grid
      (broadcastInDim S4096x512x1 ![0, 1] bcast_S4096x512_S4096x512x1_0_1
        (select (cmpi .slt q (broadcastInDim S4096x512 ![] bcast_S_S4096x512 (constantI S_ 32 0#32)))
          (addi q (broadcastInDim S4096x512 ![] bcast_S_S4096x512 (constantI S_ 32 65536#32))) q)))
    shapeCasts_S4096x512x8_S4096x4096) transposes_S4096x4096_S4096x4096_1_0

/-- The result from the product `y`: rotated, each entry scaled by SV's entry of its column, as [2, 2048, 4096]. -/
def post (y : (⟨S4096x4096, .f32⟩ : BufTy).Contents (Elt F)) (sv : (⟨S4096, .f32⟩ : BufTy).Contents (Elt F)) : (⟨S2x2048x4096, .f32⟩ : BufTy).Contents (Elt F) :=
  shapeCast S2x2048x4096 (mulf (fwht y)
    (broadcastInDim S4096x4096 ![0, 1] bcast_S1x4096_S4096x4096_0_1 (broadcastInDim S1x4096 ![1] bcast_S4096_S1x4096_1 sv)))
    shapeCasts_S4096x4096_S2x2048x4096

end Cert.KernelIdeal.Host

end
-- ==== Proof.KI.HostPre.lean ====
/-
  What the region finds in its two operand buffers. The 141 operations before the region are cut where one butterfly
  stage hands its array to the next: the scaling of the input by SU, twelve stages of ten operations each, and a
  closing stretch (the scaling by 2⁻⁶, the gather of the codebook rows with its index wrap, the transposition, and the
  two roundings to bf16). Each piece is read for an arbitrary starting memory as the pure function of Stages.lean, and
  the pieces are composed in order.
-/
import proofs.«157367_j44899588112786_1_alg».proof.Proof.KI.Entry
import proofs.«157367_j44899588112786_1_alg».proof.Proof.KI.Stages

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input viewed as 4096 rows and scaled column by column by SU, handed to the first stage as [4096, 2048, 2, 1]. -/
abbrev preA : List (HloOp τ sig (Elt F)) :=
  ( StableHlo.reshape main_arg0 main_v0 rfl shapeCasts_S2x2048x4096_S4096x4096
  :: StableHlo.unary main_arg1 main_v1 (broadcastInDim S1x4096 ![1] bcast_S4096_S1x4096_1 : (⟨S4096, .f32⟩ : BufTy).Contents (Elt F) → (⟨S1x4096, .f32⟩ : BufTy).Contents (Elt F))
  :: StableHlo.unary main_v1 main_v2 (broadcastInDim S4096x4096 ![0, 1] bcast_S1x4096_S4096x4096_0_1 : (⟨S1x4096, .f32⟩ : BufTy).Contents (Elt F) → (⟨S4096x4096, .f32⟩ : BufTy).Contents (Elt F))
  :: StableHlo.binary main_v0 main_v2 main_v3 (mulf : (⟨S4096x4096, .f32⟩ : BufTy).Contents (Elt F) → (⟨S4096x4096, .f32⟩ : BufTy).Contents (Elt F) → (⟨S4096x4096, .f32⟩ : BufTy).Contents (Elt F))
  :: StableHlo.reshape main_v3 main_v4 rfl shapeCasts_S4096x4096_S4096x2048x2x1
  :: [] )

/-- The ten operations of the first butterfly stage before the region. -/
abbrev preB1 : List (HloOp τ sig (Elt F)) :=
  ( StableHlo.unary main_v4 main_v5 ((extractStridedSlice S4096x2048x1x1 ![0, 0, 0, 0] · slices_S4096x2048x2x1_S4096x2048x1x1_0_0_0_0) : (⟨S4096x2048x2x1, .f32⟩ : BufTy).Contents (Elt F) → (⟨S4096x2048x1x1, .f32⟩ : BufTy).Contents (Elt F))
  :: StableHlo.reshape main_v5 main_v6 rfl shapeCasts_S4096x2048x1x1_S4096x2048x1
  :: StableHlo.unary main_v4 main_v7 ((extractStridedSlice S4096x2048x1x1 ![0, 0, 1, 0] · slices_S4096x2048x2x1_S4096x2048x1x1_0_0_1_0) : (⟨S4096x2048x2x1, .f32⟩ : BufTy).Contents (Elt F) → (⟨S4096x2048x1x1, .f32⟩ : BufTy).Contents (Elt F))
  :: StableHlo.reshape main_v7 main_v8 rfl shapeCasts_S4096x2048x1x1_S4096x2048x1
  :: StableHlo.binary main_v6 main_v8 main_v9 (addf : (⟨S4096x2048x1, .f32⟩ : BufTy).Contents (Elt F) → (⟨S4096x2048x1, .f32⟩ : BufTy).Contents (Elt F) → (⟨S4096x2048x1, .f32⟩ : BufTy).Contents (Elt F))
  :: StableHlo.binary main_v6 main_v8 main_v10 (subf : (⟨S4096x2048x1, .f32⟩ : BufTy).Contents (Elt F) → (⟨S4096x2048x1, .f32⟩ : BufTy).Contents (Elt F) → (⟨S4096x2048x1, .f32⟩ : BufTy).Contents (Elt F))
  :: StableHlo.unary main_v9 main_v11 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.unary main_v10 main_v12 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.binary main_v11 main_v12 main_v13 ((fun a b => concatenate S4096x2048x2x1 2 [⟨S4096x2048x1x1, a⟩, ⟨S4096x2048x1x1, b⟩] concatenates_S4096x2048x1x1_S4096x2048x1x1_S4096x2048x2x1_d2) : (⟨S4096x2048x1x1, .f32⟩ : BufTy).Contents (Elt F) → (⟨S4096x2048x1x1, .f32⟩ : BufTy).Contents (Elt F) → (⟨S4096x2048x2x1, .f32⟩ : BufTy).Contents (Elt F))
  :: StableHlo.reshape main_v13 main_v14 rfl shapeCasts_S4096x2048x2x1_S4096x1024x2x2
  :: [] )

/-- The ten operations of the second butterfly stage before the region. -/
abbrev preB2 : List (HloOp τ sig (Elt F)) :=
  ( StableHlo.unary main_v14 main_v15 ((extractStridedSlice S4096x1024x1x2 ![0, 0, 0, 0] · slices_S4096x1024x2x2_S4096x1024x1x2_0_0_0_0) : (⟨S4096x1024x2x2, .f32⟩ : BufTy).Contents (Elt F) → (⟨S4096x1024x1x2, .f32⟩ : BufTy).Contents (Elt F))
  :: StableHlo.reshape main_v15 main_v16 rfl shapeCasts_S4096x1024x1x2_S4096x1024x2
  :: StableHlo.unary main_v14 main_v17 ((extractStridedSlice S4096x1024x1x2 ![0, 0, 1, 0] · slices_S4096x1024x2x2_S4096x1024x1x2_0_0_1_0) : (⟨S4096x1024x2x2, .f32⟩ : BufTy).Contents (Elt F) → (⟨S4096x1024x1x2, .f32⟩ : BufTy).Contents (Elt F))
  :: StableHlo.reshape main_v17 main_v18 rfl shapeCasts_S4096x1024x1x2_S4096x1024x2
  :: StableHlo.binary main_v16 main_v18 main_v19 (addf : (⟨S4096x1024x2, .f32⟩ : BufTy).Contents (Elt F) → (⟨S4096x1024x2, .f32⟩ : BufTy).Contents (Elt F) → (⟨S4096x1024x2, .f32⟩ : BufTy).Contents (Elt F))
  :: StableHlo.binary main_v16 main_v18 main_v20 (subf : (⟨S4096x1024x2, .f32⟩ : BufTy).Contents (Elt F) → (⟨S4096x1024x2, .f32⟩ : BufTy).Contents (Elt F) → (⟨S4096x1024x2, .f32⟩ : BufTy).Contents (Elt F))
  :: StableHlo.unary main_v19 main_v21 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.unary main_v20 main_v22 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.binary main_v21 main_v22 main_v23 ((fun a b => concatenate S4096x1024x2x2 2 [⟨S4096x1024x1x2, a⟩, ⟨S4096x1024x1x2, b⟩] concatenates_S4096x1024x1x2_S4096x1024x1x2_S4096x1024x2x2_d2) : (⟨S4096x1024x1x2, .f32⟩ : BufTy).Contents (Elt F) → (⟨S4096x1024x1x2, .f32⟩ : BufTy).Contents (Elt F) → (⟨S4096x1024x2x2, .f32⟩ : BufTy).Contents (Elt F))
  :: StableHlo.reshape main_v23 main_v24 rfl shapeCasts_S4096x1024x2x2_S4096x512x2x4
  :: [] )

/-- The ten operations of the third butterfly stage before the region. -/
abbrev preB3 : List (HloOp τ sig (Elt F)) :=
  ( StableHlo.unary main_v24 main_v25 ((extractStridedSlice S4096x512x1x4 ![0, 0, 0, 0] · slices_S4096x512x2x4_S4096x512x1x4_0_0_0_0) : (⟨S4096x512x2x4, .f32⟩ : BufTy).Contents (Elt F) → (⟨S4096x512x1x4, .f32⟩ : BufTy).Contents (Elt F))
  :: StableHlo.reshape main_v25 main_v26 rfl shapeCasts_S4096x512x1x4_S4096x512x4
  :: StableHlo.unary main_v24 main_v27 ((extractStridedSlice S4096x512x1x4 ![0, 0, 1, 0] · slices_S4096x512x2x4_S4096x512x1x4_0_0_1_0) : (⟨S4096x512x2x4, .f32⟩ : BufTy).Contents (Elt F) → (⟨S4096x512x1x4, .f32⟩ : BufTy).Contents (Elt F))
  :: StableHlo.reshape main_v27 main_v28 rfl shapeCasts_S4096x512x1x4_S4096x512x4
  :: StableHlo.binary main_v26 main_v28 main_v29 (addf : (⟨S4096x512x4, .f32⟩ : BufTy).Contents (Elt F) → (⟨S4096x512x4, .f32⟩ : BufTy).Contents (Elt F) → (⟨S4096x512x4, .f32⟩ : BufTy).Contents (Elt F))
  :: StableHlo.binary main_v26 main_v28 main_v30 (subf : (⟨S4096x512x4, .f32⟩ : BufTy).Contents (Elt F) → (⟨S4096x512x4, .f32⟩ : BufTy).Contents (Elt F) → (⟨S4096x512x4, .f32⟩ : BufTy).Contents (Elt F))
  :: StableHlo.unary main_v29 main_v31 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.unary main_v30 main_v32 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.binary main_v31 main_v32 main_v33 ((fun a b => concatenate S4096x512x2x4 2 [⟨S4096x512x1x4, a⟩, ⟨S4096x512x1x4, b⟩] concatenates_S4096x512x1x4_S4096x512x1x4_S4096x512x2x4_d2) : (⟨S4096x512x1x4, .f32⟩ : BufTy).Contents (Elt F) → (⟨S4096x512x1x4, .f32⟩ : BufTy).Contents (Elt F) → (⟨S4096x512x2x4, .f32⟩ : BufTy).Contents (Elt F))
  :: StableHlo.reshape main_v33 main_v34 rfl shapeCasts_S4096x512x2x4_S4096x256x2x8
  :: [] )

/-- The ten operations of the fourth butterfly stage before the region. -/
abbrev preB4 : List (HloOp τ sig (Elt F)) :=
  ( StableHlo.unary main_v34 main_v35 ((extractStridedSlice S4096x256x1x8 ![0, 0, 0, 0] · slices_S4096x256x2x8_S4096x256x1x8_0_0_0_0) : (⟨S4096x256x2x8, .f32⟩ : BufTy).Contents (Elt F) → (⟨S4096x256x1x8, .f32⟩ : BufTy).Contents (Elt F))
  :: StableHlo.reshape main_v35 main_v36 rfl shapeCasts_S4096x256x1x8_S4096x256x8
  :: StableHlo.unary main_v34 main_v37 ((extractStridedSlice S4096x256x1x8 ![0, 0, 1, 0] · slices_S4096x256x2x8_S4096x256x1x8_0_0_1_0) : (⟨S4096x256x2x8, .f32⟩ : BufTy).Contents (Elt F) → (⟨S4096x256x1x8, .f32⟩ : BufTy).Contents (Elt F))
  :: StableHlo.reshape main_v37 main_v38 rfl shapeCasts_S4096x256x1x8_S4096x256x8
  :: StableHlo.binary main_v36 main_v38 main_v39 (addf : (⟨S4096x256x8, .f32⟩ : BufTy).Contents (Elt F) → (⟨S4096x256x8, .f32⟩ : BufTy).Contents (Elt F) → (⟨S4096x256x8, .f32⟩ : BufTy).Contents (Elt F))
  :: StableHlo.binary main_v36 main_v38 main_v40 (subf : (⟨S4096x256x8, .f32⟩ : BufTy).Contents (Elt F) → (⟨S4096x256x8, .f32⟩ : BufTy).Contents (Elt F) → (⟨S4096x256x8, .f32⟩ : BufTy).Contents (Elt F))
  :: StableHlo.unary main_v39 main_v41 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.unary main_v40 main_v42 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.binary main_v41 main_v42 main_v43 ((fun a b => concatenate S4096x256x2x8 2 [⟨S4096x256x1x8, a⟩, ⟨S4096x256x1x8, b⟩] concatenates_S4096x256x1x8_S4096x256x1x8_S4096x256x2x8_d2) : (⟨S4096x256x1x8, .f32⟩ : BufTy).Contents (Elt F) → (⟨S4096x256x1x8, .f32⟩ : BufTy).Contents (Elt F) → (⟨S4096x256x2x8, .f32⟩ : BufTy).Contents (Elt F))
  :: StableHlo.reshape main_v43 main_v44 rfl shapeCasts_S4096x256x2x8_S4096x128x2x16
  :: [] )

/-- The ten operations of the fifth butterfly stage before the region. -/
abbrev preB5 : List (HloOp τ sig (Elt F)) :=
  ( StableHlo.unary main_v44 main_v45 ((extractStridedSlice S4096x128x1x16 ![0, 0, 0, 0] · slices_S4096x128x2x16_S4096x128x1x16_0_0_0_0) : (⟨S4096x128x2x16, .f32⟩ : BufTy).Contents (Elt F) → (⟨S4096x128x1x16, .f32⟩ : BufTy).Contents (Elt F))
  :: StableHlo.reshape main_v45 main_v46 rfl shapeCasts_S4096x128x1x16_S4096x128x16
  :: StableHlo.unary main_v44 main_v47 ((extractStridedSlice S4096x128x1x16 ![0, 0, 1, 0] · slices_S4096x128x2x16_S4096x128x1x16_0_0_1_0) : (⟨S4096x128x2x16, .f32⟩ : BufTy).Contents (Elt F) → (⟨S4096x128x1x16, .f32⟩ : BufTy).Contents (Elt F))
  :: StableHlo.reshape main_v47 main_v48 rfl shapeCasts_S4096x128x1x16_S4096x128x16
  :: StableHlo.binary main_v46 main_v48 main_v49 (addf : (⟨S4096x128x16, .f32⟩ : BufTy).Contents (Elt F) → (⟨S4096x128x16, .f32⟩ : BufTy).Contents (Elt F) → (⟨S4096x128x16, .f32⟩ : BufTy).Contents (Elt F))
  :: StableHlo.binary main_v46 main_v48 main_v50 (subf : (⟨S4096x128x16, .f32⟩ : BufTy).Contents (Elt F) → (⟨S4096x128x16, .f32⟩ : BufTy).Contents (Elt F) → (⟨S4096x128x16, .f32⟩ : BufTy).Contents (Elt F))
  :: StableHlo.unary main_v49 main_v51 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.unary main_v50 main_v52 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.binary main_v51 main_v52 main_v53 ((fun a b => concatenate S4096x128x2x16 2 [⟨S4096x128x1x16, a⟩, ⟨S4096x128x1x16, b⟩] concatenates_S4096x128x1x16_S4096x128x1x16_S4096x128x2x16_d2) : (⟨S4096x128x1x16, .f32⟩ : BufTy).Contents (Elt F) → (⟨S4096x128x1x16, .f32⟩ : BufTy).Contents (Elt F) → (⟨S4096x128x2x16, .f32⟩ : BufTy).Contents (Elt F))
  :: StableHlo.reshape main_v53 main_v54 rfl shapeCasts_S4096x128x2x16_S4096x64x2x32
  :: [] )

/-- The ten operations of the sixth butterfly stage before the region. -/
abbrev preB6 : List (HloOp τ sig (Elt F)) :=
  ( StableHlo.unary main_v54 main_v55 ((extractStridedSlice S4096x64x1x32 ![0, 0, 0, 0] · slices_S4096x64x2x32_S4096x64x1x32_0_0_0_0) : (⟨S4096x64x2x32, .f32⟩ : BufTy).Contents (Elt F) → (⟨S4096x64x1x32, .f32⟩ : BufTy).Contents (Elt F))
  :: StableHlo.reshape main_v55 main_v56 rfl shapeCasts_S4096x64x1x32_S4096x64x32
  :: StableHlo.unary main_v54 main_v57 ((extractStridedSlice S4096x64x1x32 ![0, 0, 1, 0] · slices_S4096x64x2x32_S4096x64x1x32_0_0_1_0) : (⟨S4096x64x2x32, .f32⟩ : BufTy).Contents (Elt F) → (⟨S4096x64x1x32, .f32⟩ : BufTy).Contents (Elt F))
  :: StableHlo.reshape main_v57 main_v58 rfl shapeCasts_S4096x64x1x32_S4096x64x32
  :: StableHlo.binary main_v56 main_v58 main_v59 (addf : (⟨S4096x64x32, .f32⟩ : BufTy).Contents (Elt F) → (⟨S4096x64x32, .f32⟩ : BufTy).Contents (Elt F) → (⟨S4096x64x32, .f32⟩ : BufTy).Contents (Elt F))
  :: StableHlo.binary main_v56 main_v58 main_v60 (subf : (⟨S4096x64x32, .f32⟩ : BufTy).Contents (Elt F) → (⟨S4096x64x32, .f32⟩ : BufTy).Contents (Elt F) → (⟨S4096x64x32, .f32⟩ : BufTy).Contents (Elt F))
  :: StableHlo.unary main_v59 main_v61 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.unary main_v60 main_v62 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.binary main_v61 main_v62 main_v63 ((fun a b => concatenate S4096x64x2x32 2 [⟨S4096x64x1x32, a⟩, ⟨S4096x64x1x32, b⟩] concatenates_S4096x64x1x32_S4096x64x1x32_S4096x64x2x32_d2) : (⟨S4096x64x1x32, .f32⟩ : BufTy).Contents (Elt F) → (⟨S4096x64x1x32, .f32⟩ : BufTy).Contents (Elt F) → (⟨S4096x64x2x32, .f32⟩ : BufTy).Contents (Elt F))
  :: StableHlo.reshape main_v63 main_v64 rfl shapeCasts_S4096x64x2x32_S4096x32x2x64
  :: [] )

/-- The ten operations of the seventh butterfly stage before the region. -/
abbrev preB7 : List (HloOp τ sig (Elt F)) :=
  ( StableHlo.unary main_v64 main_v65 ((extractStridedSlice S4096x32x1x64 ![0, 0, 0, 0] · slices_S4096x32x2x64_S4096x32x1x64_0_0_0_0) : (⟨S4096x32x2x64, .f32⟩ : BufTy).Contents (Elt F) → (⟨S4096x32x1x64, .f32⟩ : BufTy).Contents (Elt F))
  :: StableHlo.reshape main_v65 main_v66 rfl shapeCasts_S4096x32x1x64_S4096x32x64
  :: StableHlo.unary main_v64 main_v67 ((extractStridedSlice S4096x32x1x64 ![0, 0, 1, 0] · slices_S4096x32x2x64_S4096x32x1x64_0_0_1_0) : (⟨S4096x32x2x64, .f32⟩ : BufTy).Contents (Elt F) → (⟨S4096x32x1x64, .f32⟩ : BufTy).Contents (Elt F))
  :: StableHlo.reshape main_v67 main_v68 rfl shapeCasts_S4096x32x1x64_S4096x32x64
  :: StableHlo.binary main_v66 main_v68 main_v69 (addf : (⟨S4096x32x64, .f32⟩ : BufTy).Contents (Elt F) → (⟨S4096x32x64, .f32⟩ : BufTy).Contents (Elt F) → (⟨S4096x32x64, .f32⟩ : BufTy).Contents (Elt F))
  :: StableHlo.binary main_v66 main_v68 main_v70 (subf : (⟨S4096x32x64, .f32⟩ : BufTy).Contents (Elt F) → (⟨S4096x32x64, .f32⟩ : BufTy).Contents (Elt F) → (⟨S4096x32x64, .f32⟩ : BufTy).Contents (Elt F))
  :: StableHlo.unary main_v69 main_v71 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.unary main_v70 main_v72 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.binary main_v71 main_v72 main_v73 ((fun a b => concatenate S4096x32x2x64 2 [⟨S4096x32x1x64, a⟩, ⟨S4096x32x1x64, b⟩] concatenates_S4096x32x1x64_S4096x32x1x64_S4096x32x2x64_d2) : (⟨S4096x32x1x64, .f32⟩ : BufTy).Contents (Elt F) → (⟨S4096x32x1x64, .f32⟩ : BufTy).Contents (Elt F) → (⟨S4096x32x2x64, .f32⟩ : BufTy).Contents (Elt F))
  :: StableHlo.reshape main_v73 main_v74 rfl shapeCasts_S4096x32x2x64_S4096x16x2x128
  :: [] )

/-- The ten operations of the eighth butterfly stage before the region. -/
abbrev preB8 : List (HloOp τ sig (Elt F)) :=
  ( StableHlo.unary main_v74 main_v75 ((extractStridedSlice S4096x16x1x128 ![0, 0, 0, 0] · slices_S4096x16x2x128_S4096x16x1x128_0_0_0_0) : (⟨S4096x16x2x128, .f32⟩ : BufTy).Contents (Elt F) → (⟨S4096x16x1x128, .f32⟩ : BufTy).Contents (Elt F))
  :: StableHlo.reshape main_v75 main_v76 rfl shapeCasts_S4096x16x1x128_S4096x16x128
  :: StableHlo.unary main_v74 main_v77 ((extractStridedSlice S4096x16x1x128 ![0, 0, 1, 0] · slices_S4096x16x2x128_S4096x16x1x128_0_0_1_0) : (⟨S4096x16x2x128, .f32⟩ : BufTy).Contents (Elt F) → (⟨S4096x16x1x128, .f32⟩ : BufTy).Contents (Elt F))
  :: StableHlo.reshape main_v77 main_v78 rfl shapeCasts_S4096x16x1x128_S4096x16x128
  :: StableHlo.binary main_v76 main_v78 main_v79 (addf : (⟨S4096x16x128, .f32⟩ : BufTy).Contents (Elt F) → (⟨S4096x16x128, .f32⟩ : BufTy).Contents (Elt F) → (⟨S4096x16x128, .f32⟩ : BufTy).Contents (Elt F))
  :: StableHlo.binary main_v76 main_v78 main_v80 (subf : (⟨S4096x16x128, .f32⟩ : BufTy).Contents (Elt F) → (⟨S4096x16x128, .f32⟩ : BufTy).Contents (Elt F) → (⟨S4096x16x128, .f32⟩ : BufTy).Contents (Elt F))
  :: StableHlo.unary main_v79 main_v81 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.unary main_v80 main_v82 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.binary main_v81 main_v82 main_v83 ((fun a b => concatenate S4096x16x2x128 2 [⟨S4096x16x1x128, a⟩, ⟨S4096x16x1x128, b⟩] concatenates_S4096x16x1x128_S4096x16x1x128_S4096x16x2x128_d2) : (⟨S4096x16x1x128, .f32⟩ : BufTy).Contents (Elt F) → (⟨S4096x16x1x128, .f32⟩ : BufTy).Contents (Elt F) → (⟨S4096x16x2x128, .f32⟩ : BufTy).Contents (Elt F))
  :: StableHlo.reshape main_v83 main_v84 rfl shapeCasts_S4096x16x2x128_S4096x8x2x256
  :: [] )

/-- The ten operations of the ninth butterfly stage before the region. -/
abbrev preB9 : List (HloOp τ sig (Elt F)) :=
  ( StableHlo.unary main_v84 main_v85 ((extractStridedSlice S4096x8x1x256 ![0, 0, 0, 0] · slices_S4096x8x2x256_S4096x8x1x256_0_0_0_0) : (⟨S4096x8x2x256, .f32⟩ : BufTy).Contents (Elt F) → (⟨S4096x8x1x256, .f32⟩ : BufTy).Contents (Elt F))
  :: StableHlo.reshape main_v85 main_v86 rfl shapeCasts_S4096x8x1x256_S4096x8x256
  :: StableHlo.unary main_v84 main_v87 ((extractStridedSlice S4096x8x1x256 ![0, 0, 1, 0] · slices_S4096x8x2x256_S4096x8x1x256_0_0_1_0) : (⟨S4096x8x2x256, .f32⟩ : BufTy).Contents (Elt F) → (⟨S4096x8x1x256, .f32⟩ : BufTy).Contents (Elt F))
  :: StableHlo.reshape main_v87 main_v88 rfl shapeCasts_S4096x8x1x256_S4096x8x256
  :: StableHlo.binary main_v86 main_v88 main_v89 (addf : (⟨S4096x8x256, .f32⟩ : BufTy).Contents (Elt F) → (⟨S4096x8x256, .f32⟩ : BufTy).Contents (Elt F) → (⟨S4096x8x256, .f32⟩ : BufTy).Contents (Elt F))
  :: StableHlo.binary main_v86 main_v88 main_v90 (subf : (⟨S4096x8x256, .f32⟩ : BufTy).Contents (Elt F) → (⟨S4096x8x256, .f32⟩ : BufTy).Contents (Elt F) → (⟨S4096x8x256, .f32⟩ : BufTy).Contents (Elt F))
  :: StableHlo.unary main_v89 main_v91 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.unary main_v90 main_v92 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.binary main_v91 main_v92 main_v93 ((fun a b => concatenate S4096x8x2x256 2 [⟨S4096x8x1x256, a⟩, ⟨S4096x8x1x256, b⟩] concatenates_S4096x8x1x256_S4096x8x1x256_S4096x8x2x256_d2) : (⟨S4096x8x1x256, .f32⟩ : BufTy).Contents (Elt F) → (⟨S4096x8x1x256, .f32⟩ : BufTy).Contents (Elt F) → (⟨S4096x8x2x256, .f32⟩ : BufTy).Contents (Elt F))
  :: StableHlo.reshape main_v93 main_v94 rfl shapeCasts_S4096x8x2x256_S4096x4x2x512
  :: [] )

/-- The ten operations of the tenth butterfly stage before the region. -/
abbrev preB10 : List (HloOp τ sig (Elt F)) :=
  ( StableHlo.unary main_v94 main_v95 ((extractStridedSlice S4096x4x1x512 ![0, 0, 0, 0] · slices_S4096x4x2x512_S4096x4x1x512_0_0_0_0) : (⟨S4096x4x2x512, .f32⟩ : BufTy).Contents (Elt F) → (⟨S4096x4x1x512, .f32⟩ : BufTy).Contents (Elt F))
  :: StableHlo.reshape main_v95 main_v96 rfl shapeCasts_S4096x4x1x512_S4096x4x512
  :: StableHlo.unary main_v94 main_v97 ((extractStridedSlice S4096x4x1x512 ![0, 0, 1, 0] · slices_S4096x4x2x512_S4096x4x1x512_0_0_1_0) : (⟨S4096x4x2x512, .f32⟩ : BufTy).Contents (Elt F) → (⟨S4096x4x1x512, .f32⟩ : BufTy).Contents (Elt F))
  :: StableHlo.reshape main_v97 main_v98 rfl shapeCasts_S4096x4x1x512_S4096x4x512
  :: StableHlo.binary main_v96 main_v98 main_v99 (addf : (⟨S4096x4x512, .f32⟩ : BufTy).Contents (Elt F) → (⟨S4096x4x512, .f32⟩ : BufTy).Contents (Elt F) → (⟨S4096x4x512, .f32⟩ : BufTy).Contents (Elt F))
  :: StableHlo.binary main_v96 main_v98 main_v100 (subf : (⟨S4096x4x512, .f32⟩ : BufTy).Contents (Elt F) → (⟨S4096x4x512, .f32⟩ : BufTy).Contents (Elt F) → (⟨S4096x4x512, .f32⟩ : BufTy).Contents (Elt F))
  :: StableHlo.unary main_v99 main_v101 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.unary main_v100 main_v102 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.binary main_v101 main_v102 main_v103 ((fun a b => concatenate S4096x4x2x512 2 [⟨S4096x4x1x512, a⟩, ⟨S4096x4x1x512, b⟩] concatenates_S4096x4x1x512_S4096x4x1x512_S4096x4x2x512_d2) : (⟨S4096x4x1x512, .f32⟩ : BufTy).Contents (Elt F) → (⟨S4096x4x1x512, .f32⟩ : BufTy).Contents (Elt F) → (⟨S4096x4x2x512, .f32⟩ : BufTy).Contents (Elt F))
  :: StableHlo.reshape main_v103 main_v104 rfl shapeCasts_S4096x4x2x512_S4096x2x2x1024
  :: [] )

/-- The ten operations of the eleventh butterfly stage before the region. -/
abbrev preB11 : List (HloOp τ sig (Elt F)) :=
  ( StableHlo.unary main_v104 main_v105 ((extractStridedSlice S4096x2x1x1024 ![0, 0, 0, 0] · slices_S4096x2x2x1024_S4096x2x1x1024_0_0_0_0) : (⟨S4096x2x2x1024, .f32⟩ : BufTy).Contents (Elt F) → (⟨S4096x2x1x1024, .f32⟩ : BufTy).Contents (Elt F))
  :: StableHlo.reshape main_v105 main_v106 rfl shapeCasts_S4096x2x1x1024_S4096x2x1024
  :: StableHlo.unary main_v104 main_v107 ((extractStridedSlice S4096x2x1x1024 ![0, 0, 1, 0] · slices_S4096x2x2x1024_S4096x2x1x1024_0_0_1_0) : (⟨S4096x2x2x1024, .f32⟩ : BufTy).Contents (Elt F) → (⟨S4096x2x1x1024, .f32⟩ : BufTy).Contents (Elt F))
  :: StableHlo.reshape main_v107 main_v108 rfl shapeCasts_S4096x2x1x1024_S4096x2x1024
  :: StableHlo.binary main_v106 main_v108 main_v109 (addf : (⟨S4096x2x1024, .f32⟩ : BufTy).Contents (Elt F) → (⟨S4096x2x1024, .f32⟩ : BufTy).Contents (Elt F) → (⟨S4096x2x1024, .f32⟩ : BufTy).Contents (Elt F))
  :: StableHlo.binary main_v106 main_v108 main_v110 (subf : (⟨S4096x2x1024, .f32⟩ : BufTy).Contents (Elt F) → (⟨S4096x2x1024, .f32⟩ : BufTy).Contents (Elt F) → (⟨S4096x2x1024, .f32⟩ : BufTy).Contents (Elt F))
  :: StableHlo.unary main_v109 main_v111 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.unary main_v110 main_v112 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.binary main_v111 main_v112 main_v113 ((fun a b => concatenate S4096x2x2x1024 2 [⟨S4096x2x1x1024, a⟩, ⟨S4096x2x1x1024, b⟩] concatenates_S4096x2x1x1024_S4096x2x1x1024_S4096x2x2x1024_d2) : (⟨S4096x2x1x1024, .f32⟩ : BufTy).Contents (Elt F) → (⟨S4096x2x1x1024, .f32⟩ : BufTy).Contents (Elt F) → (⟨S4096x2x2x1024, .f32⟩ : BufTy).Contents (Elt F))
  :: StableHlo.reshape main_v113 main_v114 rfl shapeCasts_S4096x2x2x1024_S4096x1x2x2048
  :: [] )

/-- The ten operations of the twelfth butterfly stage before the region. -/
abbrev preB12 : List (HloOp τ sig (Elt F)) :=
  ( StableHlo.unary main_v114 main_v115 ((extractStridedSlice S4096x1x1x2048 ![0, 0, 0, 0] · slices_S4096x1x2x2048_S4096x1x1x2048_0_0_0_0) : (⟨S4096x1x2x2048, .f32⟩ : BufTy).Contents (Elt F) → (⟨S4096x1x1x2048, .f32⟩ : BufTy).Contents (Elt F))
  :: StableHlo.reshape main_v115 main_v116 rfl shapeCasts_S4096x1x1x2048_S4096x1x2048
  :: StableHlo.unary main_v114 main_v117 ((extractStridedSlice S4096x1x1x2048 ![0, 0, 1, 0] · slices_S4096x1x2x2048_S4096x1x1x2048_0_0_1_0) : (⟨S4096x1x2x2048, .f32⟩ : BufTy).Contents (Elt F) → (⟨S4096x1x1x2048, .f32⟩ : BufTy).Contents (Elt F))
  :: StableHlo.reshape main_v117 main_v118 rfl shapeCasts_S4096x1x1x2048_S4096x1x2048
  :: StableHlo.binary main_v116 main_v118 main_v119 (addf : (⟨S4096x1x2048, .f32⟩ : BufTy).Contents (Elt F) → (⟨S4096x1x2048, .f32⟩ : BufTy).Contents (Elt F) → (⟨S4096x1x2048, .f32⟩ : BufTy).Contents (Elt F))
  :: StableHlo.binary main_v116 main_v118 main_v120 (subf : (⟨S4096x1x2048, .f32⟩ : BufTy).Contents (Elt F) → (⟨S4096x1x2048, .f32⟩ : BufTy).Contents (Elt F) → (⟨S4096x1x2048, .f32⟩ : BufTy).Contents (Elt F))
  :: StableHlo.unary main_v119 main_v121 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.unary main_v120 main_v122 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.binary main_v121 main_v122 main_v123 ((fun a b => concatenate S4096x1x2x2048 2 [⟨S4096x1x1x2048, a⟩, ⟨S4096x1x1x2048, b⟩] concatenates_S4096x1x1x2048_S4096x1x1x2048_S4096x1x2x2048_d2) : (⟨S4096x1x1x2048, .f32⟩ : BufTy).Contents (Elt F) → (⟨S4096x1x1x2048, .f32⟩ : BufTy).Contents (Elt F) → (⟨S4096x1x2x2048, .f32⟩ : BufTy).Contents (Elt F))
  :: StableHlo.reshape main_v123 main_v124 rfl shapeCasts_S4096x1x2x2048_S4096x4096
  :: [] )

/-- The closing operations before the region: the scaling by 2⁻⁶, the wrapped gather and its transposition, the two roundings. -/
abbrev preC : List (HloOp τ sig (Elt F)) :=
  ( StableHlo.nullary main_cst (constant S_ .f32 0x3C800000#32)
  :: StableHlo.unary main_cst main_v125 (broadcastInDim S4096x4096 ![] bcast_S_S4096x4096 : (⟨S_, .f32⟩ : BufTy).Contents (Elt F) → (⟨S4096x4096, .f32⟩ : BufTy).Contents (Elt F))
  :: StableHlo.binary main_v124 main_v125 main_v126 (mulf : (⟨S4096x4096, .f32⟩ : BufTy).Contents (Elt F) → (⟨S4096x4096, .f32⟩ : BufTy).Contents (Elt F) → (⟨S4096x4096, .f32⟩ : BufTy).Contents (Elt F))
  :: StableHlo.nullary main_c (constantI S_ 32 0#32)
  :: StableHlo.unary main_c main_v127 (broadcastInDim S4096x512 ![] bcast_S_S4096x512 : (⟨S_, .i32⟩ : BufTy).Contents (Elt F) → (⟨S4096x512, .i32⟩ : BufTy).Contents (Elt F))
  :: StableHlo.binary main_arg4 main_v127 main_v128 (cmpi .slt : (⟨S4096x512, .i32⟩ : BufTy).Contents (Elt F) → (⟨S4096x512, .i32⟩ : BufTy).Contents (Elt F) → (⟨S4096x512, .i1⟩ : BufTy).Contents (Elt F))
  :: StableHlo.nullary main_c_0 (constantI S_ 32 65536#32)
  :: StableHlo.unary main_c_0 main_v129 (broadcastInDim S4096x512 ![] bcast_S_S4096x512 : (⟨S_, .i32⟩ : BufTy).Contents (Elt F) → (⟨S4096x512, .i32⟩ : BufTy).Contents (Elt F))
  :: StableHlo.binary main_arg4 main_v129 main_v130 (addi : (⟨S4096x512, .i32⟩ : BufTy).Contents (Elt F) → (⟨S4096x512, .i32⟩ : BufTy).Contents (Elt F) → (⟨S4096x512, .i32⟩ : BufTy).Contents (Elt F))
  :: StableHlo.ternary main_v128 main_v130 main_arg4 main_v131 (select : (⟨S4096x512, .i1⟩ : BufTy).Contents (Elt F) → (⟨S4096x512, .i32⟩ : BufTy).Contents (Elt F) → (⟨S4096x512, .i32⟩ : BufTy).Contents (Elt F) → (⟨S4096x512, .i32⟩ : BufTy).Contents (Elt F))
  :: StableHlo.unary main_v131 main_v132 (broadcastInDim S4096x512x1 ![0, 1] bcast_S4096x512_S4096x512x1_0_1 : (⟨S4096x512, .i32⟩ : BufTy).Contents (Elt F) → (⟨S4096x512x1, .i32⟩ : BufTy).Contents (Elt F))
  :: StableHlo.binary main_arg3 main_v132 main_v133 ((fun x i => Host.gather gather_S65536x8_S4096x512x1_S4096x512x8_2_0_n_n_0_2_18 x i) : (⟨S65536x8, .f32⟩ : BufTy).Contents (Elt F) → (⟨S4096x512x1, .i32⟩ : BufTy).Contents (Elt F) → (⟨S4096x512x8, .f32⟩ : BufTy).Contents (Elt F))
  :: StableHlo.reshape main_v133 main_v134 rfl shapeCasts_S4096x512x8_S4096x4096
  :: StableHlo.unary main_v134 main_v135 ((transpose S4096x4096 [1, 0] · transposes_S4096x4096_S4096x4096_1_0) : (⟨S4096x4096, .f32⟩ : BufTy).Contents (Elt F) → (⟨S4096x4096, .f32⟩ : BufTy).Contents (Elt F))
  :: StableHlo.unary main_v126 main_v136 ((truncf .bf16 · bitsLt_bf16_f32) : (⟨S4096x4096, .f32⟩ : BufTy).Contents (Elt F) → (⟨S4096x4096, .bf16⟩ : BufTy).Contents (Elt F))
  :: StableHlo.unary main_v135 main_v137 ((truncf .bf16 · bitsLt_bf16_f32) : (⟨S4096x4096, .f32⟩ : BufTy).Contents (Elt F) → (⟨S4096x4096, .bf16⟩ : BufTy).Contents (Elt F))
  :: [] )

/-- Everything before the closing stretch. -/
abbrev preAB : List (HloOp τ sig (Elt F)) :=
  preA ++ (preB1 ++ (preB2 ++ (preB3 ++ (preB4 ++ (preB5 ++ (preB6 ++ (preB7 ++ (preB8 ++ (preB9 ++ (preB10 ++ (preB11 ++ preB12)))))))))))

/-- The operations before the region are these pieces in order. -/
theorem hostOps0_cut : (hostOps0 : List (HloOp τ sig (Elt F))) = preAB ++ preC := rfl

/-- The scaled input as the first stage receives it. -/
theorem preA_val (W : Valuation τ sig (Elt F)) :
    StableHlo.after preA W (Proc.devRef .tc main_v4)
      = shapeCast S4096x2048x2x1 (mulf (shapeCast S4096x4096 (W (Proc.devRef .tc main_arg0)) shapeCasts_S2x2048x4096_S4096x4096)
          (broadcastInDim S4096x4096 ![0, 1] bcast_S1x4096_S4096x4096_0_1 (broadcastInDim S1x4096 ![1] bcast_S4096_S1x4096_1 (W (Proc.devRef .tc main_arg1)))))
          shapeCasts_S4096x4096_S4096x2048x2x1 := by
  simp only [preA]
  after_results <;> rfl

/-- Stage 1 read off its ten operations. -/
theorem preB1_val (W : Valuation τ sig (Elt F)) :
    StableHlo.after preB1 W (Proc.devRef .tc main_v14) = Host.stage1 (W (Proc.devRef .tc main_v4)) := by
  simp only [preB1]
  after_results <;> rfl

/-- Stage 2 read off its ten operations. -/
theorem preB2_val (W : Valuation τ sig (Elt F)) :
    StableHlo.after preB2 W (Proc.devRef .tc main_v24) = Host.stage2 (W (Proc.devRef .tc main_v14)) := by
  simp only [preB2]
  after_results <;> rfl

/-- Stage 3 read off its ten operations. -/
theorem preB3_val (W : Valuation τ sig (Elt F)) :
    StableHlo.after preB3 W (Proc.devRef .tc main_v34) = Host.stage3 (W (Proc.devRef .tc main_v24)) := by
  simp only [preB3]
  after_results <;> rfl

/-- Stage 4 read off its ten operations. -/
theorem preB4_val (W : Valuation τ sig (Elt F)) :
    StableHlo.after preB4 W (Proc.devRef .tc main_v44) = Host.stage4 (W (Proc.devRef .tc main_v34)) := by
  simp only [preB4]
  after_results <;> rfl

/-- Stage 5 read off its ten operations. -/
theorem preB5_val (W : Valuation τ sig (Elt F)) :
    StableHlo.after preB5 W (Proc.devRef .tc main_v54) = Host.stage5 (W (Proc.devRef .tc main_v44)) := by
  simp only [preB5]
  after_results <;> rfl

/-- Stage 6 read off its ten operations. -/
theorem preB6_val (W : Valuation τ sig (Elt F)) :
    StableHlo.after preB6 W (Proc.devRef .tc main_v64) = Host.stage6 (W (Proc.devRef .tc main_v54)) := by
  simp only [preB6]
  after_results <;> rfl

/-- Stage 7 read off its ten operations. -/
theorem preB7_val (W : Valuation τ sig (Elt F)) :
    StableHlo.after preB7 W (Proc.devRef .tc main_v74) = Host.stage7 (W (Proc.devRef .tc main_v64)) := by
  simp only [preB7]
  after_results <;> rfl

/-- Stage 8 read off its ten operations. -/
theorem preB8_val (W : Valuation τ sig (Elt F)) :
    StableHlo.after preB8 W (Proc.devRef .tc main_v84) = Host.stage8 (W (Proc.devRef .tc main_v74)) := by
  simp only [preB8]
  after_results <;> rfl

/-- Stage 9 read off its ten operations. -/
theorem preB9_val (W : Valuation τ sig (Elt F)) :
    StableHlo.after preB9 W (Proc.devRef .tc main_v94) = Host.stage9 (W (Proc.devRef .tc main_v84)) := by
  simp only [preB9]
  after_results <;> rfl

/-- Stage 10 read off its ten operations. -/
theorem preB10_val (W : Valuation τ sig (Elt F)) :
    StableHlo.after preB10 W (Proc.devRef .tc main_v104) = Host.stage10 (W (Proc.devRef .tc main_v94)) := by
  simp only [preB10]
  after_results <;> rfl

/-- Stage 11 read off its ten operations. -/
theorem preB11_val (W : Valuation τ sig (Elt F)) :
    StableHlo.after preB11 W (Proc.devRef .tc main_v114) = Host.stage11 (W (Proc.devRef .tc main_v104)) := by
  simp only [preB11]
  after_results <;> rfl

/-- Stage 12 read off its ten operations. -/
theorem preB12_val (W : Valuation τ sig (Elt F)) :
    StableHlo.after preB12 W (Proc.devRef .tc main_v124) = Host.stage12 (W (Proc.devRef .tc main_v114)) := by
  simp only [preB12]
  after_results <;> rfl

/-- The left operand: the rotated array's last stage scaled by 2⁻⁶ and rounded. -/
theorem preC_left (W : Valuation τ sig (Elt F)) :
    StableHlo.after preC W (Proc.devRef .tc main_v136)
      = truncf .bf16 (mulf (W (Proc.devRef .tc main_v124)) (broadcastInDim S4096x4096 ![] bcast_S_S4096x4096 (constant S_ .f32 0x3C800000#32))) bitsLt_bf16_f32 := by
  simp only [preC]
  after_results <;> rfl

/-- The right operand: the gathered, transposed codebook table, rounded. -/
theorem preC_right (W : Valuation τ sig (Elt F)) :
    StableHlo.after preC W (Proc.devRef .tc main_v137)
      = truncf .bf16 (Host.wPre (W (Proc.devRef .tc main_arg3)) (W (Proc.devRef .tc main_arg4))) bitsLt_bf16_f32 := by
  simp only [preC]
  after_results <;> rfl

/-- Nothing before the closing stretch writes the codebook. -/
theorem preAB_arg3 (W : Valuation τ sig (Elt F)) :
    StableHlo.after preAB W (Proc.devRef .tc main_arg3) = W (Proc.devRef .tc main_arg3) :=
  StableHlo.after_of_forall_not_mem (b := Proc.devRef .tc main_arg3) _ _ (List.forall_iff_forall_mem.mp (by
    simp only [preAB, preA, preB1, preB2, preB3, preB4, preB5, preB6, preB7, preB8, preB9, preB10, preB11, preB12, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nothing before the closing stretch writes the indices. -/
theorem preAB_arg4 (W : Valuation τ sig (Elt F)) :
    StableHlo.after preAB W (Proc.devRef .tc main_arg4) = W (Proc.devRef .tc main_arg4) :=
  StableHlo.after_of_forall_not_mem (b := Proc.devRef .tc main_arg4) _ _ (List.forall_iff_forall_mem.mp (by
    simp only [preAB, preA, preB1, preB2, preB3, preB4, preB5, preB6, preB7, preB8, preB9, preB10, preB11, preB12, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- From any memory, the operations before the region leave in the left operand's buffer the rounded rotation of the
    SU-scaled input. -/
theorem pre_left (X : Valuation τ sig (Elt F)) :
    StableHlo.after hostOps0 X (Proc.devRef .tc main_v136)
      = truncf .bf16 (Host.xPre (X (Proc.devRef .tc main_arg0)) (X (Proc.devRef .tc main_arg1))) bitsLt_bf16_f32 := by
  rw [hostOps0_cut, StableHlo.after_append, preC_left]
  simp only [preAB, StableHlo.after_append]
  rw [preB12_val, preB11_val, preB10_val, preB9_val, preB8_val, preB7_val, preB6_val, preB5_val, preB4_val, preB3_val,
    preB2_val, preB1_val, preA_val]
  unfold Host.xPre Host.fwht
  rfl

/-- From any memory, they leave in the right operand's buffer the rounded, transposed table of gathered codebook rows. -/
theorem pre_right (X : Valuation τ sig (Elt F)) :
    StableHlo.after hostOps0 X (Proc.devRef .tc main_v137)
      = truncf .bf16 (Host.wPre (X (Proc.devRef .tc main_arg3)) (X (Proc.devRef .tc main_arg4))) bitsLt_bf16_f32 := by
  rw [hostOps0_cut, StableHlo.after_append, preC_right, preAB_arg3, preAB_arg4]

/-- The region's left operand is the rounded rotation of the SU-scaled input. -/
theorem V_main_v136 (c : Dev nD) :
    V m c main_v136 = truncf .bf16 (Host.xPre (m ((c : Thread nD τ).loc main_arg0)) (m ((c : Thread nD τ).loc main_arg1))) bitsLt_bf16_f32 := by
  show StableHlo.after (List.flatten [hostOps0]) (fun b => m (c, b)) (Proc.devRef .tc main_v136) = _
  rw [List.flatten_cons, List.flatten_nil, List.append_nil]
  exact pre_left (fun b => m (c, b))

/-- The region's right operand is the rounded, transposed table of gathered codebook rows. -/
theorem V_main_v137 (c : Dev nD) :
    V m c main_v137 = truncf .bf16 (Host.wPre (m ((c : Thread nD τ).loc main_arg3)) (m ((c : Thread nD τ).loc main_arg4))) bitsLt_bf16_f32 := by
  show StableHlo.after (List.flatten [hostOps0]) (fun b => m (c, b)) (Proc.devRef .tc main_v137) = _
  rw [List.flatten_cons, List.flatten_nil, List.append_nil]
  exact pre_right (fun b => m (c, b))

end Cert.KernelIdeal.Fr

end
-- ==== Proof.KI.HostTail.lean ====
/-
  The result buffer after the 128 operations that follow the region. They are cut like the first stretch: the view of
  the product as [4096, 2048, 2, 1], twelve butterfly stages of ten operations each, and a closing stretch (the scaling
  by 2⁻⁶, the scaling column by column by SV, the view as [2, 2048, 4096]). Read for an arbitrary starting memory they
  are the function `Host.post` of the product array and of SV; the region leaves the product in its third array, and SV
  is as launched.
-/
import proofs.«157367_j44899588112786_1_alg».proof.Proof.KI.Args
import proofs.«157367_j44899588112786_1_alg».proof.Proof.KI.Stages

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product handed to the first stage as [4096, 2048, 2, 1]. -/
abbrev postA : List (HloOp τ sig (Elt F)) :=
  ( StableHlo.reshape main_v138 main_v139 rfl shapeCasts_S4096x4096_S4096x2048x2x1
  :: [] )

/-- The ten operations of the first butterfly stage after the region. -/
abbrev postB1 : List (HloOp τ sig (Elt F)) :=
  ( StableHlo.unary main_v139 main_v140 ((extractStridedSlice S4096x2048x1x1 ![0, 0, 0, 0] · slices_S4096x2048x2x1_S4096x2048x1x1_0_0_0_0) : (⟨S4096x2048x2x1, .f32⟩ : BufTy).Contents (Elt F) → (⟨S4096x2048x1x1, .f32⟩ : BufTy).Contents (Elt F))
  :: StableHlo.reshape main_v140 main_v141 rfl shapeCasts_S4096x2048x1x1_S4096x2048x1
  :: StableHlo.unary main_v139 main_v142 ((extractStridedSlice S4096x2048x1x1 ![0, 0, 1, 0] · slices_S4096x2048x2x1_S4096x2048x1x1_0_0_1_0) : (⟨S4096x2048x2x1, .f32⟩ : BufTy).Contents (Elt F) → (⟨S4096x2048x1x1, .f32⟩ : BufTy).Contents (Elt F))
  :: StableHlo.reshape main_v142 main_v143 rfl shapeCasts_S4096x2048x1x1_S4096x2048x1
  :: StableHlo.binary main_v141 main_v143 main_v144 (addf : (⟨S4096x2048x1, .f32⟩ : BufTy).Contents (Elt F) → (⟨S4096x2048x1, .f32⟩ : BufTy).Contents (Elt F) → (⟨S4096x2048x1, .f32⟩ : BufTy).Contents (Elt F))
  :: StableHlo.binary main_v141 main_v143 main_v145 (subf : (⟨S4096x2048x1, .f32⟩ : BufTy).Contents (Elt F) → (⟨S4096x2048x1, .f32⟩ : BufTy).Contents (Elt F) → (⟨S4096x2048x1, .f32⟩ : BufTy).Contents (Elt F))
  :: StableHlo.unary main_v144 main_v146 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.unary main_v145 main_v147 (broadcastInDim S4096x2048x1x1 ![0, 1, 3] bcast_S4096x2048x1_S4096x2048x1x1_0_1_3 : (⟨S4096x2048x1, .f32⟩ : BufTy).Contents (Elt F) → (⟨S4096x2048x1x1, .f32⟩ : BufTy).Contents (Elt F))
  :: StableHlo.binary main_v146 main_v147 main_v148 ((fun a b => concatenate S4096x2048x2x1 2 [⟨S4096x2048x1x1, a⟩, ⟨S4096x2048x1x1, b⟩] concatenates_S4096x2048x1x1_S4096x2048x1x1_S4096x2048x2x1_d2) : (⟨S4096x2048x1x1, .f32⟩ : BufTy).Contents (Elt F) → (⟨S4096x2048x1x1, .f32⟩ : BufTy).Contents (Elt F) → (⟨S4096x2048x2x1, .f32⟩ : BufTy).Contents (Elt F))
  :: StableHlo.reshape main_v148 main_v149 rfl shapeCasts_S4096x2048x2x1_S4096x1024x2x2
  :: [] )

/-- The ten operations of the second butterfly stage after the region. -/
abbrev postB2 : List (HloOp τ sig (Elt F)) :=
  ( StableHlo.unary main_v149 main_v150 ((extractStridedSlice S4096x1024x1x2 ![0, 0, 0, 0] · slices_S4096x1024x2x2_S4096x1024x1x2_0_0_0_0) : (⟨S4096x1024x2x2, .f32⟩ : BufTy).Contents (Elt F) → (⟨S4096x1024x1x2, .f32⟩ : BufTy).Contents (Elt F))
  :: StableHlo.reshape main_v150 main_v151 rfl shapeCasts_S4096x1024x1x2_S4096x1024x2
  :: StableHlo.unary main_v149 main_v152 ((extractStridedSlice S4096x1024x1x2 ![0, 0, 1, 0] · slices_S4096x1024x2x2_S4096x1024x1x2_0_0_1_0) : (⟨S4096x1024x2x2, .f32⟩ : BufTy).Contents (Elt F) → (⟨S4096x1024x1x2, .f32⟩ : BufTy).Contents (Elt F))
  :: StableHlo.reshape main_v152 main_v153 rfl shapeCasts_S4096x1024x1x2_S4096x1024x2
  :: StableHlo.binary main_v151 main_v153 main_v154 (addf : (⟨S4096x1024x2, .f32⟩ : BufTy).Contents (Elt F) → (⟨S4096x1024x2, .f32⟩ : BufTy).Contents (Elt F) → (⟨S4096x1024x2, .f32⟩ : BufTy).Contents (Elt F))
  :: StableHlo.binary main_v151 main_v153 main_v155 (subf : (⟨S4096x1024x2, .f32⟩ : BufTy).Contents (Elt F) → (⟨S4096x1024x2, .f32⟩ : BufTy).Contents (Elt F) → (⟨S4096x1024x2, .f32⟩ : BufTy).Contents (Elt F))
  :: StableHlo.unary main_v154 main_v156 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.unary main_v155 main_v157 (broadcastInDim S4096x1024x1x2 ![0, 1, 3] bcast_S4096x1024x2_S4096x1024x1x2_0_1_3 : (⟨S4096x1024x2, .f32⟩ : BufTy).Contents (Elt F) → (⟨S4096x1024x1x2, .f32⟩ : BufTy).Contents (Elt F))
  :: StableHlo.binary main_v156 main_v157 main_v158 ((fun a b => concatenate S4096x1024x2x2 2 [⟨S4096x1024x1x2, a⟩, ⟨S4096x1024x1x2, b⟩] concatenates_S4096x1024x1x2_S4096x1024x1x2_S4096x1024x2x2_d2) : (⟨S4096x1024x1x2, .f32⟩ : BufTy).Contents (Elt F) → (⟨S4096x1024x1x2, .f32⟩ : BufTy).Contents (Elt F) → (⟨S4096x1024x2x2, .f32⟩ : BufTy).Contents (Elt F))
  :: StableHlo.reshape main_v158 main_v159 rfl shapeCasts_S4096x1024x2x2_S4096x512x2x4
  :: [] )

/-- The ten operations of the third butterfly stage after the region. -/
abbrev postB3 : List (HloOp τ sig (Elt F)) :=
  ( StableHlo.unary main_v159 main_v160 ((extractStridedSlice S4096x512x1x4 ![0, 0, 0, 0] · slices_S4096x512x2x4_S4096x512x1x4_0_0_0_0) : (⟨S4096x512x2x4, .f32⟩ : BufTy).Contents (Elt F) → (⟨S4096x512x1x4, .f32⟩ : BufTy).Contents (Elt F))
  :: StableHlo.reshape main_v160 main_v161 rfl shapeCasts_S4096x512x1x4_S4096x512x4
  :: StableHlo.unary main_v159 main_v162 ((extractStridedSlice S4096x512x1x4 ![0, 0, 1, 0] · slices_S4096x512x2x4_S4096x512x1x4_0_0_1_0) : (⟨S4096x512x2x4, .f32⟩ : BufTy).Contents (Elt F) → (⟨S4096x512x1x4, .f32⟩ : BufTy).Contents (Elt F))
  :: StableHlo.reshape main_v162 main_v163 rfl shapeCasts_S4096x512x1x4_S4096x512x4
  :: StableHlo.binary main_v161 main_v163 main_v164 (addf : (⟨S4096x512x4, .f32⟩ : BufTy).Contents (Elt F) → (⟨S4096x512x4, .f32⟩ : BufTy).Contents (Elt F) → (⟨S4096x512x4, .f32⟩ : BufTy).Contents (Elt F))
  :: StableHlo.binary main_v161 main_v163 main_v165 (subf : (⟨S4096x512x4, .f32⟩ : BufTy).Contents (Elt F) → (⟨S4096x512x4, .f32⟩ : BufTy).Contents (Elt F) → (⟨S4096x512x4, .f32⟩ : BufTy).Contents (Elt F))
  :: StableHlo.unary main_v164 main_v166 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.unary main_v165 main_v167 (broadcastInDim S4096x512x1x4 ![0, 1, 3] bcast_S4096x512x4_S4096x512x1x4_0_1_3 : (⟨S4096x512x4, .f32⟩ : BufTy).Contents (Elt F) → (⟨S4096x512x1x4, .f32⟩ : BufTy).Contents (Elt F))
  :: StableHlo.binary main_v166 main_v167 main_v168 ((fun a b => concatenate S4096x512x2x4 2 [⟨S4096x512x1x4, a⟩, ⟨S4096x512x1x4, b⟩] concatenates_S4096x512x1x4_S4096x512x1x4_S4096x512x2x4_d2) : (⟨S4096x512x1x4, .f32⟩ : BufTy).Contents (Elt F) → (⟨S4096x512x1x4, .f32⟩ : BufTy).Contents (Elt F) → (⟨S4096x512x2x4, .f32⟩ : BufTy).Contents (Elt F))
  :: StableHlo.reshape main_v168 main_v169 rfl shapeCasts_S4096x512x2x4_S4096x256x2x8
  :: [] )

/-- The ten operations of the fourth butterfly stage after the region. -/
abbrev postB4 : List (HloOp τ sig (Elt F)) :=
  ( StableHlo.unary main_v169 main_v170 ((extractStridedSlice S4096x256x1x8 ![0, 0, 0, 0] · slices_S4096x256x2x8_S4096x256x1x8_0_0_0_0) : (⟨S4096x256x2x8, .f32⟩ : BufTy).Contents (Elt F) → (⟨S4096x256x1x8, .f32⟩ : BufTy).Contents (Elt F))
  :: StableHlo.reshape main_v170 main_v171 rfl shapeCasts_S4096x256x1x8_S4096x256x8
  :: StableHlo.unary main_v169 main_v172 ((extractStridedSlice S4096x256x1x8 ![0, 0, 1, 0] · slices_S4096x256x2x8_S4096x256x1x8_0_0_1_0) : (⟨S4096x256x2x8, .f32⟩ : BufTy).Contents (Elt F) → (⟨S4096x256x1x8, .f32⟩ : BufTy).Contents (Elt F))
  :: StableHlo.reshape main_v172 main_v173 rfl shapeCasts_S4096x256x1x8_S4096x256x8
  :: StableHlo.binary main_v171 main_v173 main_v174 (addf : (⟨S4096x256x8, .f32⟩ : BufTy).Contents (Elt F) → (⟨S4096x256x8, .f32⟩ : BufTy).Contents (Elt F) → (⟨S4096x256x8, .f32⟩ : BufTy).Contents (Elt F))
  :: StableHlo.binary main_v171 main_v173 main_v175 (subf : (⟨S4096x256x8, .f32⟩ : BufTy).Contents (Elt F) → (⟨S4096x256x8, .f32⟩ : BufTy).Contents (Elt F) → (⟨S4096x256x8, .f32⟩ : BufTy).Contents (Elt F))
  :: StableHlo.unary main_v174 main_v176 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.unary main_v175 main_v177 (broadcastInDim S4096x256x1x8 ![0, 1, 3] bcast_S4096x256x8_S4096x256x1x8_0_1_3 : (⟨S4096x256x8, .f32⟩ : BufTy).Contents (Elt F) → (⟨S4096x256x1x8, .f32⟩ : BufTy).Contents (Elt F))
  :: StableHlo.binary main_v176 main_v177 main_v178 ((fun a b => concatenate S4096x256x2x8 2 [⟨S4096x256x1x8, a⟩, ⟨S4096x256x1x8, b⟩] concatenates_S4096x256x1x8_S4096x256x1x8_S4096x256x2x8_d2) : (⟨S4096x256x1x8, .f32⟩ : BufTy).Contents (Elt F) → (⟨S4096x256x1x8, .f32⟩ : BufTy).Contents (Elt F) → (⟨S4096x256x2x8, .f32⟩ : BufTy).Contents (Elt F))
  :: StableHlo.reshape main_v178 main_v179 rfl shapeCasts_S4096x256x2x8_S4096x128x2x16
  :: [] )

/-- The ten operations of the fifth butterfly stage after the region. -/
abbrev postB5 : List (HloOp τ sig (Elt F)) :=
  ( StableHlo.unary main_v179 main_v180 ((extractStridedSlice S4096x128x1x16 ![0, 0, 0, 0] · slices_S4096x128x2x16_S4096x128x1x16_0_0_0_0) : (⟨S4096x128x2x16, .f32⟩ : BufTy).Contents (Elt F) → (⟨S4096x128x1x16, .f32⟩ : BufTy).Contents (Elt F))
  :: StableHlo.reshape main_v180 main_v181 rfl shapeCasts_S4096x128x1x16_S4096x128x16
  :: StableHlo.unary main_v179 main_v182 ((extractStridedSlice S4096x128x1x16 ![0, 0, 1, 0] · slices_S4096x128x2x16_S4096x128x1x16_0_0_1_0) : (⟨S4096x128x2x16, .f32⟩ : BufTy).Contents (Elt F) → (⟨S4096x128x1x16, .f32⟩ : BufTy).Contents (Elt F))
  :: StableHlo.reshape main_v182 main_v183 rfl shapeCasts_S4096x128x1x16_S4096x128x16
  :: StableHlo.binary main_v181 main_v183 main_v184 (addf : (⟨S4096x128x16, .f32⟩ : BufTy).Contents (Elt F) → (⟨S4096x128x16, .f32⟩ : BufTy).Contents (Elt F) → (⟨S4096x128x16, .f32⟩ : BufTy).Contents (Elt F))
  :: StableHlo.binary main_v181 main_v183 main_v185 (subf : (⟨S4096x128x16, .f32⟩ : BufTy).Contents (Elt F) → (⟨S4096x128x16, .f32⟩ : BufTy).Contents (Elt F) → (⟨S4096x128x16, .f32⟩ : BufTy).Contents (Elt F))
  :: StableHlo.unary main_v184 main_v186 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.unary main_v185 main_v187 (broadcastInDim S4096x128x1x16 ![0, 1, 3] bcast_S4096x128x16_S4096x128x1x16_0_1_3 : (⟨S4096x128x16, .f32⟩ : BufTy).Contents (Elt F) → (⟨S4096x128x1x16, .f32⟩ : BufTy).Contents (Elt F))
  :: StableHlo.binary main_v186 main_v187 main_v188 ((fun a b => concatenate S4096x128x2x16 2 [⟨S4096x128x1x16, a⟩, ⟨S4096x128x1x16, b⟩] concatenates_S4096x128x1x16_S4096x128x1x16_S4096x128x2x16_d2) : (⟨S4096x128x1x16, .f32⟩ : BufTy).Contents (Elt F) → (⟨S4096x128x1x16, .f32⟩ : BufTy).Contents (Elt F) → (⟨S4096x128x2x16, .f32⟩ : BufTy).Contents (Elt F))
  :: StableHlo.reshape main_v188 main_v189 rfl shapeCasts_S4096x128x2x16_S4096x64x2x32
  :: [] )

/-- The ten operations of the sixth butterfly stage after the region. -/
abbrev postB6 : List (HloOp τ sig (Elt F)) :=
  ( StableHlo.unary main_v189 main_v190 ((extractStridedSlice S4096x64x1x32 ![0, 0, 0, 0] · slices_S4096x64x2x32_S4096x64x1x32_0_0_0_0) : (⟨S4096x64x2x32, .f32⟩ : BufTy).Contents (Elt F) → (⟨S4096x64x1x32, .f32⟩ : BufTy).Contents (Elt F))
  :: StableHlo.reshape main_v190 main_v191 rfl shapeCasts_S4096x64x1x32_S4096x64x32
  :: StableHlo.unary main_v189 main_v192 ((extractStridedSlice S4096x64x1x32 ![0, 0, 1, 0] · slices_S4096x64x2x32_S4096x64x1x32_0_0_1_0) : (⟨S4096x64x2x32, .f32⟩ : BufTy).Contents (Elt F) → (⟨S4096x64x1x32, .f32⟩ : BufTy).Contents (Elt F))
  :: StableHlo.reshape main_v192 main_v193 rfl shapeCasts_S4096x64x1x32_S4096x64x32
  :: StableHlo.binary main_v191 main_v193 main_v194 (addf : (⟨S4096x64x32, .f32⟩ : BufTy).Contents (Elt F) → (⟨S4096x64x32, .f32⟩ : BufTy).Contents (Elt F) → (⟨S4096x64x32, .f32⟩ : BufTy).Contents (Elt F))
  :: StableHlo.binary main_v191 main_v193 main_v195 (subf : (⟨S4096x64x32, .f32⟩ : BufTy).Contents (Elt F) → (⟨S4096x64x32, .f32⟩ : BufTy).Contents (Elt F) → (⟨S4096x64x32, .f32⟩ : BufTy).Contents (Elt F))
  :: StableHlo.unary main_v194 main_v196 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.unary main_v195 main_v197 (broadcastInDim S4096x64x1x32 ![0, 1, 3] bcast_S4096x64x32_S4096x64x1x32_0_1_3 : (⟨S4096x64x32, .f32⟩ : BufTy).Contents (Elt F) → (⟨S4096x64x1x32, .f32⟩ : BufTy).Contents (Elt F))
  :: StableHlo.binary main_v196 main_v197 main_v198 ((fun a b => concatenate S4096x64x2x32 2 [⟨S4096x64x1x32, a⟩, ⟨S4096x64x1x32, b⟩] concatenates_S4096x64x1x32_S4096x64x1x32_S4096x64x2x32_d2) : (⟨S4096x64x1x32, .f32⟩ : BufTy).Contents (Elt F) → (⟨S4096x64x1x32, .f32⟩ : BufTy).Contents (Elt F) → (⟨S4096x64x2x32, .f32⟩ : BufTy).Contents (Elt F))
  :: StableHlo.reshape main_v198 main_v199 rfl shapeCasts_S4096x64x2x32_S4096x32x2x64
  :: [] )

/-- The ten operations of the seventh butterfly stage after the region. -/
abbrev postB7 : List (HloOp τ sig (Elt F)) :=
  ( StableHlo.unary main_v199 main_v200 ((extractStridedSlice S4096x32x1x64 ![0, 0, 0, 0] · slices_S4096x32x2x64_S4096x32x1x64_0_0_0_0) : (⟨S4096x32x2x64, .f32⟩ : BufTy).Contents (Elt F) → (⟨S4096x32x1x64, .f32⟩ : BufTy).Contents (Elt F))
  :: StableHlo.reshape main_v200 main_v201 rfl shapeCasts_S4096x32x1x64_S4096x32x64
  :: StableHlo.unary main_v199 main_v202 ((extractStridedSlice S4096x32x1x64 ![0, 0, 1, 0] · slices_S4096x32x2x64_S4096x32x1x64_0_0_1_0) : (⟨S4096x32x2x64, .f32⟩ : BufTy).Contents (Elt F) → (⟨S4096x32x1x64, .f32⟩ : BufTy).Contents (Elt F))
  :: StableHlo.reshape main_v202 main_v203 rfl shapeCasts_S4096x32x1x64_S4096x32x64
  :: StableHlo.binary main_v201 main_v203 main_v204 (addf : (⟨S4096x32x64, .f32⟩ : BufTy).Contents (Elt F) → (⟨S4096x32x64, .f32⟩ : BufTy).Contents (Elt F) → (⟨S4096x32x64, .f32⟩ : BufTy).Contents (Elt F))
  :: StableHlo.binary main_v201 main_v203 main_v205 (subf : (⟨S4096x32x64, .f32⟩ : BufTy).Contents (Elt F) → (⟨S4096x32x64, .f32⟩ : BufTy).Contents (Elt F) → (⟨S4096x32x64, .f32⟩ : BufTy).Contents (Elt F))
  :: StableHlo.unary main_v204 main_v206 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.unary main_v205 main_v207 (broadcastInDim S4096x32x1x64 ![0, 1, 3] bcast_S4096x32x64_S4096x32x1x64_0_1_3 : (⟨S4096x32x64, .f32⟩ : BufTy).Contents (Elt F) → (⟨S4096x32x1x64, .f32⟩ : BufTy).Contents (Elt F))
  :: StableHlo.binary main_v206 main_v207 main_v208 ((fun a b => concatenate S4096x32x2x64 2 [⟨S4096x32x1x64, a⟩, ⟨S4096x32x1x64, b⟩] concatenates_S4096x32x1x64_S4096x32x1x64_S4096x32x2x64_d2) : (⟨S4096x32x1x64, .f32⟩ : BufTy).Contents (Elt F) → (⟨S4096x32x1x64, .f32⟩ : BufTy).Contents (Elt F) → (⟨S4096x32x2x64, .f32⟩ : BufTy).Contents (Elt F))
  :: StableHlo.reshape main_v208 main_v209 rfl shapeCasts_S4096x32x2x64_S4096x16x2x128
  :: [] )

/-- The ten operations of the eighth butterfly stage after the region. -/
abbrev postB8 : List (HloOp τ sig (Elt F)) :=
  ( StableHlo.unary main_v209 main_v210 ((extractStridedSlice S4096x16x1x128 ![0, 0, 0, 0] · slices_S4096x16x2x128_S4096x16x1x128_0_0_0_0) : (⟨S4096x16x2x128, .f32⟩ : BufTy).Contents (Elt F) → (⟨S4096x16x1x128, .f32⟩ : BufTy).Contents (Elt F))
  :: StableHlo.reshape main_v210 main_v211 rfl shapeCasts_S4096x16x1x128_S4096x16x128
  :: StableHlo.unary main_v209 main_v212 ((extractStridedSlice S4096x16x1x128 ![0, 0, 1, 0] · slices_S4096x16x2x128_S4096x16x1x128_0_0_1_0) : (⟨S4096x16x2x128, .f32⟩ : BufTy).Contents (Elt F) → (⟨S4096x16x1x128, .f32⟩ : BufTy).Contents (Elt F))
  :: StableHlo.reshape main_v212 main_v213 rfl shapeCasts_S4096x16x1x128_S4096x16x128
  :: StableHlo.binary main_v211 main_v213 main_v214 (addf : (⟨S4096x16x128, .f32⟩ : BufTy).Contents (Elt F) → (⟨S4096x16x128, .f32⟩ : BufTy).Contents (Elt F) → (⟨S4096x16x128, .f32⟩ : BufTy).Contents (Elt F))
  :: StableHlo.binary main_v211 main_v213 main_v215 (subf : (⟨S4096x16x128, .f32⟩ : BufTy).Contents (Elt F) → (⟨S4096x16x128, .f32⟩ : BufTy).Contents (Elt F) → (⟨S4096x16x128, .f32⟩ : BufTy).Contents (Elt F))
  :: StableHlo.unary main_v214 main_v216 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.unary main_v215 main_v217 (broadcastInDim S4096x16x1x128 ![0, 1, 3] bcast_S4096x16x128_S4096x16x1x128_0_1_3 : (⟨S4096x16x128, .f32⟩ : BufTy).Contents (Elt F) → (⟨S4096x16x1x128, .f32⟩ : BufTy).Contents (Elt F))
  :: StableHlo.binary main_v216 main_v217 main_v218 ((fun a b => concatenate S4096x16x2x128 2 [⟨S4096x16x1x128, a⟩, ⟨S4096x16x1x128, b⟩] concatenates_S4096x16x1x128_S4096x16x1x128_S4096x16x2x128_d2) : (⟨S4096x16x1x128, .f32⟩ : BufTy).Contents (Elt F) → (⟨S4096x16x1x128, .f32⟩ : BufTy).Contents (Elt F) → (⟨S4096x16x2x128, .f32⟩ : BufTy).Contents (Elt F))
  :: StableHlo.reshape main_v218 main_v219 rfl shapeCasts_S4096x16x2x128_S4096x8x2x256
  :: [] )

/-- The ten operations of the ninth butterfly stage after the region. -/
abbrev postB9 : List (HloOp τ sig (Elt F)) :=
  ( StableHlo.unary main_v219 main_v220 ((extractStridedSlice S4096x8x1x256 ![0, 0, 0, 0] · slices_S4096x8x2x256_S4096x8x1x256_0_0_0_0) : (⟨S4096x8x2x256, .f32⟩ : BufTy).Contents (Elt F) → (⟨S4096x8x1x256, .f32⟩ : BufTy).Contents (Elt F))
  :: StableHlo.reshape main_v220 main_v221 rfl shapeCasts_S4096x8x1x256_S4096x8x256
  :: StableHlo.unary main_v219 main_v222 ((extractStridedSlice S4096x8x1x256 ![0, 0, 1, 0] · slices_S4096x8x2x256_S4096x8x1x256_0_0_1_0) : (⟨S4096x8x2x256, .f32⟩ : BufTy).Contents (Elt F) → (⟨S4096x8x1x256, .f32⟩ : BufTy).Contents (Elt F))
  :: StableHlo.reshape main_v222 main_v223 rfl shapeCasts_S4096x8x1x256_S4096x8x256
  :: StableHlo.binary main_v221 main_v223 main_v224 (addf : (⟨S4096x8x256, .f32⟩ : BufTy).Contents (Elt F) → (⟨S4096x8x256, .f32⟩ : BufTy).Contents (Elt F) → (⟨S4096x8x256, .f32⟩ : BufTy).Contents (Elt F))
  :: StableHlo.binary main_v221 main_v223 main_v225 (subf : (⟨S4096x8x256, .f32⟩ : BufTy).Contents (Elt F) → (⟨S4096x8x256, .f32⟩ : BufTy).Contents (Elt F) → (⟨S4096x8x256, .f32⟩ : BufTy).Contents (Elt F))
  :: StableHlo.unary main_v224 main_v226 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.unary main_v225 main_v227 (broadcastInDim S4096x8x1x256 ![0, 1, 3] bcast_S4096x8x256_S4096x8x1x256_0_1_3 : (⟨S4096x8x256, .f32⟩ : BufTy).Contents (Elt F) → (⟨S4096x8x1x256, .f32⟩ : BufTy).Contents (Elt F))
  :: StableHlo.binary main_v226 main_v227 main_v228 ((fun a b => concatenate S4096x8x2x256 2 [⟨S4096x8x1x256, a⟩, ⟨S4096x8x1x256, b⟩] concatenates_S4096x8x1x256_S4096x8x1x256_S4096x8x2x256_d2) : (⟨S4096x8x1x256, .f32⟩ : BufTy).Contents (Elt F) → (⟨S4096x8x1x256, .f32⟩ : BufTy).Contents (Elt F) → (⟨S4096x8x2x256, .f32⟩ : BufTy).Contents (Elt F))
  :: StableHlo.reshape main_v228 main_v229 rfl shapeCasts_S4096x8x2x256_S4096x4x2x512
  :: [] )

/-- The ten operations of the tenth butterfly stage after the region. -/
abbrev postB10 : List (HloOp τ sig (Elt F)) :=
  ( StableHlo.unary main_v229 main_v230 ((extractStridedSlice S4096x4x1x512 ![0, 0, 0, 0] · slices_S4096x4x2x512_S4096x4x1x512_0_0_0_0) : (⟨S4096x4x2x512, .f32⟩ : BufTy).Contents (Elt F) → (⟨S4096x4x1x512, .f32⟩ : BufTy).Contents (Elt F))
  :: StableHlo.reshape main_v230 main_v231 rfl shapeCasts_S4096x4x1x512_S4096x4x512
  :: StableHlo.unary main_v229 main_v232 ((extractStridedSlice S4096x4x1x512 ![0, 0, 1, 0] · slices_S4096x4x2x512_S4096x4x1x512_0_0_1_0) : (⟨S4096x4x2x512, .f32⟩ : BufTy).Contents (Elt F) → (⟨S4096x4x1x512, .f32⟩ : BufTy).Contents (Elt F))
  :: StableHlo.reshape main_v232 main_v233 rfl shapeCasts_S4096x4x1x512_S4096x4x512
  :: StableHlo.binary main_v231 main_v233 main_v234 (addf : (⟨S4096x4x512, .f32⟩ : BufTy).Contents (Elt F) → (⟨S4096x4x512, .f32⟩ : BufTy).Contents (Elt F) → (⟨S4096x4x512, .f32⟩ : BufTy).Contents (Elt F))
  :: StableHlo.binary main_v231 main_v233 main_v235 (subf : (⟨S4096x4x512, .f32⟩ : BufTy).Contents (Elt F) → (⟨S4096x4x512, .f32⟩ : BufTy).Contents (Elt F) → (⟨S4096x4x512, .f32⟩ : BufTy).Contents (Elt F))
  :: StableHlo.unary main_v234 main_v236 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.unary main_v235 main_v237 (broadcastInDim S4096x4x1x512 ![0, 1, 3] bcast_S4096x4x512_S4096x4x1x512_0_1_3 : (⟨S4096x4x512, .f32⟩ : BufTy).Contents (Elt F) → (⟨S4096x4x1x512, .f32⟩ : BufTy).Contents (Elt F))
  :: StableHlo.binary main_v236 main_v237 main_v238 ((fun a b => concatenate S4096x4x2x512 2 [⟨S4096x4x1x512, a⟩, ⟨S4096x4x1x512, b⟩] concatenates_S4096x4x1x512_S4096x4x1x512_S4096x4x2x512_d2) : (⟨S4096x4x1x512, .f32⟩ : BufTy).Contents (Elt F) → (⟨S4096x4x1x512, .f32⟩ : BufTy).Contents (Elt F) → (⟨S4096x4x2x512, .f32⟩ : BufTy).Contents (Elt F))
  :: StableHlo.reshape main_v238 main_v239 rfl shapeCasts_S4096x4x2x512_S4096x2x2x1024
  :: [] )

/-- The ten operations of the eleventh butterfly stage after the region. -/
abbrev postB11 : List (HloOp τ sig (Elt F)) :=
  ( StableHlo.unary main_v239 main_v240 ((extractStridedSlice S4096x2x1x1024 ![0, 0, 0, 0] · slices_S4096x2x2x1024_S4096x2x1x1024_0_0_0_0) : (⟨S4096x2x2x1024, .f32⟩ : BufTy).Contents (Elt F) → (⟨S4096x2x1x1024, .f32⟩ : BufTy).Contents (Elt F))
  :: StableHlo.reshape main_v240 main_v241 rfl shapeCasts_S4096x2x1x1024_S4096x2x1024
  :: StableHlo.unary main_v239 main_v242 ((extractStridedSlice S4096x2x1x1024 ![0, 0, 1, 0] · slices_S4096x2x2x1024_S4096x2x1x1024_0_0_1_0) : (⟨S4096x2x2x1024, .f32⟩ : BufTy).Contents (Elt F) → (⟨S4096x2x1x1024, .f32⟩ : BufTy).Contents (Elt F))
  :: StableHlo.reshape main_v242 main_v243 rfl shapeCasts_S4096x2x1x1024_S4096x2x1024
  :: StableHlo.binary main_v241 main_v243 main_v244 (addf : (⟨S4096x2x1024, .f32⟩ : BufTy).Contents (Elt F) → (⟨S4096x2x1024, .f32⟩ : BufTy).Contents (Elt F) → (⟨S4096x2x1024, .f32⟩ : BufTy).Contents (Elt F))
  :: StableHlo.binary main_v241 main_v243 main_v245 (subf : (⟨S4096x2x1024, .f32⟩ : BufTy).Contents (Elt F) → (⟨S4096x2x1024, .f32⟩ : BufTy).Contents (Elt F) → (⟨S4096x2x1024, .f32⟩ : BufTy).Contents (Elt F))
  :: StableHlo.unary main_v244 main_v246 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.unary main_v245 main_v247 (broadcastInDim S4096x2x1x1024 ![0, 1, 3] bcast_S4096x2x1024_S4096x2x1x1024_0_1_3 : (⟨S4096x2x1024, .f32⟩ : BufTy).Contents (Elt F) → (⟨S4096x2x1x1024, .f32⟩ : BufTy).Contents (Elt F))
  :: StableHlo.binary main_v246 main_v247 main_v248 ((fun a b => concatenate S4096x2x2x1024 2 [⟨S4096x2x1x1024, a⟩, ⟨S4096x2x1x1024, b⟩] concatenates_S4096x2x1x1024_S4096x2x1x1024_S4096x2x2x1024_d2) : (⟨S4096x2x1x1024, .f32⟩ : BufTy).Contents (Elt F) → (⟨S4096x2x1x1024, .f32⟩ : BufTy).Contents (Elt F) → (⟨S4096x2x2x1024, .f32⟩ : BufTy).Contents (Elt F))
  :: StableHlo.reshape main_v248 main_v249 rfl shapeCasts_S4096x2x2x1024_S4096x1x2x2048
  :: [] )

/-- The ten operations of the twelfth butterfly stage after the region. -/
abbrev postB12 : List (HloOp τ sig (Elt F)) :=
  ( StableHlo.unary main_v249 main_v250 ((extractStridedSlice S4096x1x1x2048 ![0, 0, 0, 0] · slices_S4096x1x2x2048_S4096x1x1x2048_0_0_0_0) : (⟨S4096x1x2x2048, .f32⟩ : BufTy).Contents (Elt F) → (⟨S4096x1x1x2048, .f32⟩ : BufTy).Contents (Elt F))
  :: StableHlo.reshape main_v250 main_v251 rfl shapeCasts_S4096x1x1x2048_S4096x1x2048
  :: StableHlo.unary main_v249 main_v252 ((extractStridedSlice S4096x1x1x2048 ![0, 0, 1, 0] · slices_S4096x1x2x2048_S4096x1x1x2048_0_0_1_0) : (⟨S4096x1x2x2048, .f32⟩ : BufTy).Contents (Elt F) → (⟨S4096x1x1x2048, .f32⟩ : BufTy).Contents (Elt F))
  :: StableHlo.reshape main_v252 main_v253 rfl shapeCasts_S4096x1x1x2048_S4096x1x2048
  :: StableHlo.binary main_v251 main_v253 main_v254 (addf : (⟨S4096x1x2048, .f32⟩ : BufTy).Contents (Elt F) → (⟨S4096x1x2048, .f32⟩ : BufTy).Contents (Elt F) → (⟨S4096x1x2048, .f32⟩ : BufTy).Contents (Elt F))
  :: StableHlo.binary main_v251 main_v253 main_v255 (subf : (⟨S4096x1x2048, .f32⟩ : BufTy).Contents (Elt F) → (⟨S4096x1x2048, .f32⟩ : BufTy).Contents (Elt F) → (⟨S4096x1x2048, .f32⟩ : BufTy).Contents (Elt F))
  :: StableHlo.unary main_v254 main_v256 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.unary main_v255 main_v257 (broadcastInDim S4096x1x1x2048 ![0, 1, 3] bcast_S4096x1x2048_S4096x1x1x2048_0_1_3 : (⟨S4096x1x2048, .f32⟩ : BufTy).Contents (Elt F) → (⟨S4096x1x1x2048, .f32⟩ : BufTy).Contents (Elt F))
  :: StableHlo.binary main_v256 main_v257 main_v258 ((fun a b => concatenate S4096x1x2x2048 2 [⟨S4096x1x1x2048, a⟩, ⟨S4096x1x1x2048, b⟩] concatenates_S4096x1x1x2048_S4096x1x1x2048_S4096x1x2x2048_d2) : (⟨S4096x1x1x2048, .f32⟩ : BufTy).Contents (Elt F) → (⟨S4096x1x1x2048, .f32⟩ : BufTy).Contents (Elt F) → (⟨S4096x1x2x2048, .f32⟩ : BufTy).Contents (Elt F))
  :: StableHlo.reshape main_v258 main_v259 rfl shapeCasts_S4096x1x2x2048_S4096x4096
  :: [] )

/-- The closing operations: the scaling by 2⁻⁶, the scaling by SV, the view as [2, 2048, 4096]. -/
abbrev postC : List (HloOp τ sig (Elt F)) :=
  ( StableHlo.nullary main_cst_1 (constant S_ .f32 0x3C800000#32)
  :: StableHlo.unary main_cst_1 main_v260 (broadcastInDim S4096x4096 ![] bcast_S_S4096x4096 : (⟨S_, .f32⟩ : BufTy).Contents (Elt F) → (⟨S4096x4096, .f32⟩ : BufTy).Contents (Elt F))
  :: StableHlo.binary main_v259 main_v260 main_v261 (mulf : (⟨S4096x4096, .f32⟩ : BufTy).Contents (Elt F) → (⟨S4096x4096, .f32⟩ : BufTy).Contents (Elt F) → (⟨S4096x4096, .f32⟩ : BufTy).Contents (Elt F))
  :: StableHlo.unary main_arg2 main_v262 (broadcastInDim S1x4096 ![1] bcast_S4096_S1x4096_1 : (⟨S4096, .f32⟩ : BufTy).Contents (Elt F) → (⟨S1x4096, .f32⟩ : BufTy).Contents (Elt F))
  :: StableHlo.unary main_v262 main_v263 (broadcastInDim S4096x4096 ![0, 1] bcast_S1x4096_S4096x4096_0_1 : (⟨S1x4096, .f32⟩ : BufTy).Contents (Elt F) → (⟨S4096x4096, .f32⟩ : BufTy).Contents (Elt F))
  :: StableHlo.binary main_v261 main_v263 main_v264 (mulf : (⟨S4096x4096, .f32⟩ : BufTy).Contents (Elt F) → (⟨S4096x4096, .f32⟩ : BufTy).Contents (Elt F) → (⟨S4096x4096, .f32⟩ : BufTy).Contents (Elt F))
  :: StableHlo.reshape main_v264 main_v265 rfl shapeCasts_S4096x4096_S2x2048x4096
  :: [] )

/-- Everything before the closing stretch. -/
abbrev postAB : List (HloOp τ sig (Elt F)) :=
  postA ++ (postB1 ++ (postB2 ++ (postB3 ++ (postB4 ++ (postB5 ++ (postB6 ++ (postB7 ++ (postB8 ++ (postB9 ++ (postB10 ++ (postB11 ++ postB12)))))))))))

/-- The operations after the region are these pieces in order. -/
theorem hostOps1_cut : (hostOps1 : List (HloOp τ sig (Elt F))) = postAB ++ postC := rfl

/-- The product as the first stage receives it. -/
theorem postA_val (W : Valuation τ sig (Elt F)) :
    StableHlo.after postA W (Proc.devRef .tc main_v139)
      = shapeCast S4096x2048x2x1 (W (Proc.devRef .tc main_v138)) shapeCasts_S4096x4096_S4096x2048x2x1 := by
  simp only [postA]
  after_results <;> rfl

/-- Stage 1 read off its ten operations. -/
theorem postB1_val (W : Valuation τ sig (Elt F)) :
    StableHlo.after postB1 W (Proc.devRef .tc main_v149) = Host.stage1 (W (Proc.devRef .tc main_v139)) := by
  simp only [postB1]
  after_results <;> rfl

/-- Stage 2 read off its ten operations. -/
theorem postB2_val (W : Valuation τ sig (Elt F)) :
    StableHlo.after postB2 W (Proc.devRef .tc main_v159) = Host.stage2 (W (Proc.devRef .tc main_v149)) := by
  simp only [postB2]
  after_results <;> rfl

/-- Stage 3 read off its ten operations. -/
theorem postB3_val (W : Valuation τ sig (Elt F)) :
    StableHlo.after postB3 W (Proc.devRef .tc main_v169) = Host.stage3 (W (Proc.devRef .tc main_v159)) := by
  simp only [postB3]
  after_results <;> rfl

/-- Stage 4 read off its ten operations. -/
theorem postB4_val (W : Valuation τ sig (Elt F)) :
    StableHlo.after postB4 W (Proc.devRef .tc main_v179) = Host.stage4 (W (Proc.devRef .tc main_v169)) := by
  simp only [postB4]
  after_results <;> rfl

/-- Stage 5 read off its ten operations. -/
theorem postB5_val (W : Valuation τ sig (Elt F)) :
    StableHlo.after postB5 W (Proc.devRef .tc main_v189) = Host.stage5 (W (Proc.devRef .tc main_v179)) := by
  simp only [postB5]
  after_results <;> rfl

/-- Stage 6 read off its ten operations. -/
theorem postB6_val (W : Valuation τ sig (Elt F)) :
    StableHlo.after postB6 W (Proc.devRef .tc main_v199) = Host.stage6 (W (Proc.devRef .tc main_v189)) := by
  simp only [postB6]
  after_results <;> rfl

/-- Stage 7 read off its ten operations. -/
theorem postB7_val (W : Valuation τ sig (Elt F)) :
    StableHlo.after postB7 W (Proc.devRef .tc main_v209) = Host.stage7 (W (Proc.devRef .tc main_v199)) := by
  simp only [postB7]
  after_results <;> rfl

/-- Stage 8 read off its ten operations. -/
theorem postB8_val (W : Valuation τ sig (Elt F)) :
    StableHlo.after postB8 W (Proc.devRef .tc main_v219) = Host.stage8 (W (Proc.devRef .tc main_v209)) := by
  simp only [postB8]
  after_results <;> rfl

/-- Stage 9 read off its ten operations. -/
theorem postB9_val (W : Valuation τ sig (Elt F)) :
    StableHlo.after postB9 W (Proc.devRef .tc main_v229) = Host.stage9 (W (Proc.devRef .tc main_v219)) := by
  simp only [postB9]
  after_results <;> rfl

/-- Stage 10 read off its ten operations. -/
theorem postB10_val (W : Valuation τ sig (Elt F)) :
    StableHlo.after postB10 W (Proc.devRef .tc main_v239) = Host.stage10 (W (Proc.devRef .tc main_v229)) := by
  simp only [postB10]
  after_results <;> rfl

/-- Stage 11 read off its ten operations. -/
theorem postB11_val (W : Valuation τ sig (Elt F)) :
    StableHlo.after postB11 W (Proc.devRef .tc main_v249) = Host.stage11 (W (Proc.devRef .tc main_v239)) := by
  simp only [postB11]
  after_results <;> rfl

/-- Stage 12 read off its ten operations. -/
theorem postB12_val (W : Valuation τ sig (Elt F)) :
    StableHlo.after postB12 W (Proc.devRef .tc main_v259) = Host.stage12 (W (Proc.devRef .tc main_v249)) := by
  simp only [postB12]
  after_results <;> rfl

/-- The result from the last stage's array and SV. -/
theorem postC_val (W : Valuation τ sig (Elt F)) :
    StableHlo.after postC W (Proc.devRef .tc main_v265)
      = shapeCast S2x2048x4096 (mulf (mulf (W (Proc.devRef .tc main_v259)) (broadcastInDim S4096x4096 ![] bcast_S_S4096x4096 (constant S_ .f32 0x3C800000#32)))
          (broadcastInDim S4096x4096 ![0, 1] bcast_S1x4096_S4096x4096_0_1 (broadcastInDim S1x4096 ![1] bcast_S4096_S1x4096_1 (W (Proc.devRef .tc main_arg2)))))
          shapeCasts_S4096x4096_S2x2048x4096 := by
  simp only [postC]
  after_results <;> rfl

/-- Nothing before the closing stretch writes SV. -/
theorem postAB_arg2 (W : Valuation τ sig (Elt F)) :
    StableHlo.after postAB W (Proc.devRef .tc main_arg2) = W (Proc.devRef .tc main_arg2) :=
  StableHlo.after_of_forall_not_mem (b := Proc.devRef .tc main_arg2) _ _ (List.forall_iff_forall_mem.mp (by
    simp only [postAB, postA, postB1, postB2, postB3, postB4, postB5, postB6, postB7, postB8, postB9, postB10, postB11, postB12, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- From any memory, the operations after the region leave in the result buffer the rotated, SV-scaled array of what
    the product buffer held. -/
theorem tail_val (X : Valuation τ sig (Elt F)) :
    StableHlo.after hostOps1 X (Proc.devRef .tc main_v265)
      = Host.post (X (Proc.devRef .tc main_v138)) (X (Proc.devRef .tc main_arg2)) := by
  rw [hostOps1_cut, StableHlo.after_append, postC_val, postAB_arg2]
  simp only [postAB, StableHlo.after_append]
  rw [postB12_val, postB11_val, postB10_val, postB9_val, postB8_val, postB7_val, postB6_val, postB5_val, postB4_val, postB3_val,
    postB2_val, postB1_val, postA_val]
  unfold Host.post Host.fwht
  rfl

/-- The program's result: `Host.post` of the product the region leaves in its third array and of SV as launched. -/
theorem tail_main_v265 (dats : (p : Fin 1) → (c : Dev nD) → Pipeline.Dat τ (Elt F) Unit ℕ (UR sig nD τ) ℕ (cfgs p) c) (c : Dev nD) :
    Pipeline.afterTail₀ cfgs dats 0 (V0 m) [hostOps1] c main_v265
      = Host.post ((dats 0 c).arrAt 2 cfg0.N) (m ((c : Thread nD τ).loc main_arg2)) := by
  unfold Pipeline.afterTail₀
  show StableHlo.after (List.flatten [hostOps1]) _ (Proc.devRef .tc main_v265) = _
  rw [List.flatten_cons, List.flatten_nil, List.append_nil, tail_val]
  exact congrArg₂ (Host.post (F := F)) (Pipeline.withArrays_arr spec0 launch0.win.arr_inj c _ _ 2)
    ((Pipeline.withArrays_of_ne _ c (V0 m c) _ main_arg2 (by exact (by decide : ∀ w, Pipeline.arrRef spec0 w ≠ main_arg2))).trans
      (V_main_arg2 m c))

end Cert.KernelIdeal.Fr

end
-- ==== Proof.KI.RefRun.lean ====
/-
  The reference's run restated over the shared host functions. The generated run gives the result buffer as the
  operations' composed term, whose repeated subterms it names; stage by stage those names are the butterfly stages of
  Stages.lean applied to the previous name, the product's operands are `xPre` and `wPre` of the arguments, and what
  follows the product is `post`. Every equation here compares one stage's worth of structure and nothing deeper.
-/
import proofs.«157367_j44899588112786_1_alg».proof.Proof.Gen.ReferenceIdeal.Run
import proofs.«157367_j44899588112786_1_alg».proof.Proof.KI.Stages
import Idealize.ShloMosaic.PureOps.Ideal

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- The product of the two prepared operands, as a function of the launch contents. -/
def prod (V0 : Valuation τ sig (Elt F)) : (⟨S4096x4096, .f32⟩ : BufTy).Contents (Elt F) :=
  Host.dotGeneral dot_S4096x4096_S4096x4096_S4096x4096_1_0_0_1_n_n none
    (Cert.KernelIdeal.Host.xPre (V0 (Proc.devRef .tc main_arg0)) (V0 (Proc.devRef .tc main_arg1)))
    (Cert.KernelIdeal.Host.wPre (V0 (Proc.devRef .tc main_arg3)) (V0 (Proc.devRef .tc main_arg4)))

/-- First rotation, stage 1. -/
theorem rotA1 (V0 : Valuation τ sig (Elt F)) : res_main_v14 V0 = Cert.KernelIdeal.Host.stage1 (res_main_v4 V0) := by
  unfold res_main_v14 res_main_v6 res_main_v8 Cert.KernelIdeal.Host.stage1
  rfl

/-- First rotation, stage 2. -/
theorem rotA2 (V0 : Valuation τ sig (Elt F)) : res_main_v24 V0 = Cert.KernelIdeal.Host.stage2 (res_main_v14 V0) := by
  unfold res_main_v24 res_main_v16 res_main_v18 Cert.KernelIdeal.Host.stage2
  rfl

/-- First rotation, stage 3. -/
theorem rotA3 (V0 : Valuation τ sig (Elt F)) : res_main_v34 V0 = Cert.KernelIdeal.Host.stage3 (res_main_v24 V0) := by
  unfold res_main_v34 res_main_v26 res_main_v28 Cert.KernelIdeal.Host.stage3
  rfl

/-- First rotation, stage 4. -/
theorem rotA4 (V0 : Valuation τ sig (Elt F)) : res_main_v44 V0 = Cert.KernelIdeal.Host.stage4 (res_main_v34 V0) := by
  unfold res_main_v44 res_main_v36 res_main_v38 Cert.KernelIdeal.Host.stage4
  rfl

/-- First rotation, stage 5. -/
theorem rotA5 (V0 : Valuation τ sig (Elt F)) : res_main_v54 V0 = Cert.KernelIdeal.Host.stage5 (res_main_v44 V0) := by
  unfold res_main_v54 res_main_v46 res_main_v48 Cert.KernelIdeal.Host.stage5
  rfl

/-- First rotation, stage 6. -/
theorem rotA6 (V0 : Valuation τ sig (Elt F)) : res_main_v64 V0 = Cert.KernelIdeal.Host.stage6 (res_main_v54 V0) := by
  unfold res_main_v64 res_main_v56 res_main_v58 Cert.KernelIdeal.Host.stage6
  rfl

/-- First rotation, stage 7. -/
theorem rotA7 (V0 : Valuation τ sig (Elt F)) : res_main_v74 V0 = Cert.KernelIdeal.Host.stage7 (res_main_v64 V0) := by
  unfold res_main_v74 res_main_v66 res_main_v68 Cert.KernelIdeal.Host.stage7
  rfl

/-- First rotation, stage 8. -/
theorem rotA8 (V0 : Valuation τ sig (Elt F)) : res_main_v84 V0 = Cert.KernelIdeal.Host.stage8 (res_main_v74 V0) := by
  unfold res_main_v84 res_main_v76 res_main_v78 Cert.KernelIdeal.Host.stage8
  rfl

/-- First rotation, stage 9. -/
theorem rotA9 (V0 : Valuation τ sig (Elt F)) : res_main_v94 V0 = Cert.KernelIdeal.Host.stage9 (res_main_v84 V0) := by
  unfold res_main_v94 res_main_v86 res_main_v88 Cert.KernelIdeal.Host.stage9
  rfl

/-- First rotation, stage 10. -/
theorem rotA10 (V0 : Valuation τ sig (Elt F)) : res_main_v104 V0 = Cert.KernelIdeal.Host.stage10 (res_main_v94 V0) := by
  unfold res_main_v104 res_main_v96 res_main_v98 Cert.KernelIdeal.Host.stage10
  rfl

/-- First rotation, stage 11. -/
theorem rotA11 (V0 : Valuation τ sig (Elt F)) : res_main_v114 V0 = Cert.KernelIdeal.Host.stage11 (res_main_v104 V0) := by
  unfold res_main_v114 res_main_v106 res_main_v108 Cert.KernelIdeal.Host.stage11
  rfl

/-- Second rotation, stage 1. -/
theorem rotB1 (V0 : Valuation τ sig (Elt F)) : res_main_v147 V0 = Cert.KernelIdeal.Host.stage1 (res_main_v137 V0) := by
  unfold res_main_v147 res_main_v139 res_main_v141 Cert.KernelIdeal.Host.stage1
  rfl

/-- Second rotation, stage 2. -/
theorem rotB2 (V0 : Valuation τ sig (Elt F)) : res_main_v157 V0 = Cert.KernelIdeal.Host.stage2 (res_main_v147 V0) := by
  unfold res_main_v157 res_main_v149 res_main_v151 Cert.KernelIdeal.Host.stage2
  rfl

/-- Second rotation, stage 3. -/
theorem rotB3 (V0 : Valuation τ sig (Elt F)) : res_main_v167 V0 = Cert.KernelIdeal.Host.stage3 (res_main_v157 V0) := by
  unfold res_main_v167 res_main_v159 res_main_v161 Cert.KernelIdeal.Host.stage3
  rfl

/-- Second rotation, stage 4. -/
theorem rotB4 (V0 : Valuation τ sig (Elt F)) : res_main_v177 V0 = Cert.KernelIdeal.Host.stage4 (res_main_v167 V0) := by
  unfold res_main_v177 res_main_v169 res_main_v171 Cert.KernelIdeal.Host.stage4
  rfl

/-- Second rotation, stage 5. -/
theorem rotB5 (V0 : Valuation τ sig (Elt F)) : res_main_v187 V0 = Cert.KernelIdeal.Host.stage5 (res_main_v177 V0) := by
  unfold res_main_v187 res_main_v179 res_main_v181 Cert.KernelIdeal.Host.stage5
  rfl

/-- Second rotation, stage 6. -/
theorem rotB6 (V0 : Valuation τ sig (Elt F)) : res_main_v197 V0 = Cert.KernelIdeal.Host.stage6 (res_main_v187 V0) := by
  unfold res_main_v197 res_main_v189 res_main_v191 Cert.KernelIdeal.Host.stage6
  rfl

/-- Second rotation, stage 7. -/
theorem rotB7 (V0 : Valuation τ sig (Elt F)) : res_main_v207 V0 = Cert.KernelIdeal.Host.stage7 (res_main_v197 V0) := by
  unfold res_main_v207 res_main_v199 res_main_v201 Cert.KernelIdeal.Host.stage7
  rfl

/-- Second rotation, stage 8. -/
theorem rotB8 (V0 : Valuation τ sig (Elt F)) : res_main_v217 V0 = Cert.KernelIdeal.Host.stage8 (res_main_v207 V0) := by
  unfold res_main_v217 res_main_v209 res_main_v211 Cert.KernelIdeal.Host.stage8
  rfl

/-- Second rotation, stage 9. -/
theorem rotB9 (V0 : Valuation τ sig (Elt F)) : res_main_v227 V0 = Cert.KernelIdeal.Host.stage9 (res_main_v217 V0) := by
  unfold res_main_v227 res_main_v219 res_main_v221 Cert.KernelIdeal.Host.stage9
  rfl

/-- Second rotation, stage 10. -/
theorem rotB10 (V0 : Valuation τ sig (Elt F)) : res_main_v237 V0 = Cert.KernelIdeal.Host.stage10 (res_main_v227 V0) := by
  unfold res_main_v237 res_main_v229 res_main_v231 Cert.KernelIdeal.Host.stage10
  rfl

/-- Second rotation, stage 11. -/
theorem rotB11 (V0 : Valuation τ sig (Elt F)) : res_main_v247 V0 = Cert.KernelIdeal.Host.stage11 (res_main_v237 V0) := by
  unfold res_main_v247 res_main_v239 res_main_v241 Cert.KernelIdeal.Host.stage11
  rfl

/-- The product as the second rotation receives it: the named term is the product viewed as [4096, 2048, 2, 1]. -/
theorem mid_eq (V0 : Valuation τ sig (Elt F)) :
    res_main_v137 V0 = shapeCast S4096x2048x2x1 (prod V0) shapeCasts_S4096x4096_S4096x2048x2x1 := by
  unfold res_main_v137
  show shapeCast _ (Host.dotGeneral _ none (mulf (Cert.KernelIdeal.Host.stage12 (res_main_v114 V0)) _)
    (Cert.KernelIdeal.Host.wPre (V0 (Proc.devRef .tc main_arg3)) (V0 (Proc.devRef .tc main_arg4)))) _ = _
  rw [rotA11, rotA10, rotA9, rotA8, rotA7, rotA6, rotA5, rotA4, rotA3, rotA2, rotA1]
  unfold prod Cert.KernelIdeal.Host.xPre Cert.KernelIdeal.Host.fwht res_main_v4
  rfl

/-- The result buffer is `post` of the product and of SV. -/
theorem result_eq (V0 : Valuation τ sig (Elt F)) :
    val5 V0 (Proc.devRef .tc main_v263) = Cert.KernelIdeal.Host.post (prod V0) (V0 (Proc.devRef .tc main_arg2)) := by
  refine (val5_main_v263 V0).trans ?_
  show shapeCast _ (mulf (mulf (Cert.KernelIdeal.Host.stage12 (res_main_v247 V0)) _) _) _ = _
  rw [rotB11, rotB10, rotB9, rotB8, rotB7, rotB6, rotB5, rotB4, rotB3, rotB2, rotB1, mid_eq]
  unfold Cert.KernelIdeal.Host.post Cert.KernelIdeal.Host.fwht
  rfl

/-- On every device, from any memory with zero counters, every weakly fair execution of the reference terminates with
    the result buffer at `post` of the product of the two prepared operands, and the arguments unchanged. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
      r.2.mem ((c.tc : Thread _ Cert.ReferenceIdeal.τ).loc Cert.ReferenceIdeal.main_v263)
        = Cert.KernelIdeal.Host.post (Host.dotGeneral (φ₂ := .f32) Cert.ReferenceIdeal.dot_S4096x4096_S4096x4096_S4096x4096_1_0_0_1_n_n none
            (Cert.KernelIdeal.Host.xPre (m' ((c.tc : Thread _ _).loc Cert.ReferenceIdeal.main_arg0)) (m' ((c.tc : Thread _ _).loc Cert.ReferenceIdeal.main_arg1)))
            (Cert.KernelIdeal.Host.wPre (m' ((c.tc : Thread _ _).loc Cert.ReferenceIdeal.main_arg3)) (m' ((c.tc : Thread _ _).loc Cert.ReferenceIdeal.main_arg4))))
            (m' ((c.tc : Thread _ _).loc Cert.ReferenceIdeal.main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run _ _ _).mono (fun _ h c =>
      ⟨(h c).1.trans ((val5_main_v263 (launchContents m' c)).symm.trans (result_eq (launchContents m' c))), (h c).2⟩)
    (Cert.ReferenceIdeal.Value.run (F := Ideal) m' ρ')

end Cert.ReferenceIdeal.RefValue

end
-- ==== Proof.KI.Bridge.lean ====
/-
  The reference's product is the same array: the host's contraction of the left operand's columns with the right
  operand's rows is, entry (I, J), the sum over s < 4096 of x(I, s) · w(s, J), and rounding an operand to bf16 changes
  nothing at the ideal instance.
-/
import proofs.«157367_j44899588112786_1_alg».proof.Proof.KI.Mat
import proofs.«157367_j44899588112786_1_alg».proof.Proof.Gen.ReferenceIdeal

noncomputable section

namespace Cert.KernelIdeal.Mat

open Cert.KernelIdeal Idealize.ShloMosaic Idealize.ShloMosaic.ValueIdx
open Cert.KernelIdeal.Facts₀ Cert.KernelIdeal.Facts

theorem dot_eq (x w : FVec Ideal S4096x4096 .f32) :
    (Host.dotGeneral Cert.ReferenceIdeal.dot_S4096x4096_S4096x4096_S4096x4096_1_0_0_1_n_n none x w : FVec Ideal S4096x4096 .f32)
      = prod (truncf .bf16 x bitsLt_bf16_f32) (truncf .bf16 w bitsLt_bf16_f32) := by
  funext j
  obtain ⟨I, J, rfl⟩ : ∃ (I J : Fin 4096), j = ix2 I J := ⟨j 0, j 1, eq_ix2 j⟩
  rw [prod_apply]
  unfold part
  rw [Finset.sum_range]
  simp only [Host.dotGeneral]
  refine (Ideal.dotGeneral_apply Cert.ReferenceIdeal.dot_S4096x4096_S4096x4096_S4096x4096_1_0_0_1_n_n none _ x w (ix2 I J)).trans ?_
  rw [← Equiv.sum_comp (contrEquiv1 Cert.ReferenceIdeal.dot_S4096x4096_S4096x4096_S4096x4096_1_0_0_1_n_n 4096 rfl rfl).symm]
  refine Finset.sum_congr rfl fun s _ => ?_
  have hl : Cert.ReferenceIdeal.dot_S4096x4096_S4096x4096_S4096x4096_1_0_0_1_n_n.lhsIdx (ix2 I J) ((contrEquiv1 Cert.ReferenceIdeal.dot_S4096x4096_S4096x4096_S4096x4096_1_0_0_1_n_n 4096 rfl rfl).symm s) = ix2 I s := by
    funext ax; apply Fin.ext
    match ax with
    | ⟨0, _⟩ => rfl
    | ⟨1, _⟩ =>
      exact (Cert.ReferenceIdeal.dot_S4096x4096_S4096x4096_S4096x4096_1_0_0_1_n_n.lhsIdx_val_of_single (cl := 1) rfl (ix2 I J) _).trans
        (contrEquiv1_symm_val Cert.ReferenceIdeal.dot_S4096x4096_S4096x4096_S4096x4096_1_0_0_1_n_n 4096 rfl rfl s)
  have hr : Cert.ReferenceIdeal.dot_S4096x4096_S4096x4096_S4096x4096_1_0_0_1_n_n.rhsIdx (ix2 I J) ((contrEquiv1 Cert.ReferenceIdeal.dot_S4096x4096_S4096x4096_S4096x4096_1_0_0_1_n_n 4096 rfl rfl).symm s) = ix2 s J := by
    funext ax; apply Fin.ext
    match ax with
    | ⟨0, _⟩ =>
      exact (Cert.ReferenceIdeal.dot_S4096x4096_S4096x4096_S4096x4096_1_0_0_1_n_n.rhsIdx_val_of_single (cr := 0) rfl (ix2 I J) _).trans
        (contrEquiv1_symm_val Cert.ReferenceIdeal.dot_S4096x4096_S4096x4096_S4096x4096_1_0_0_1_n_n 4096 rfl rfl s)
    | ⟨1, _⟩ => rfl
  rw [hl, hr, nat2_of_lt _ _ _ I.isLt s.isLt, nat2_of_lt _ _ _ s.isLt J.isLt]
  rfl

end Cert.KernelIdeal.Mat

end
-- ==== Proof.lean ====
/-
  The kernel computes y = H(H(x · SU) · Wᵀ) · SV on the 4096 rows of the input, H the Walsh–Hadamard rotation of a row
  (twelve butterfly stages and the factor 2⁻⁶), W the 4096 × 4096 table of codebook rows the indices name; so does the
  reference. They differ in the middle only: the kernel rounds both operands of the product to bf16 and multiplies
  block by block — a 4 × 4 × 4 grid of 1024 × 1024 blocks, the contraction axis last, an accumulator cleared at step 0,
  added to at every step and copied out at step 3 — where the reference contracts once. Over the extended reals a
  rounding is the identity and the four partial sums of 1024 products add up to the one sum of 4096, by the
  commutative-monoid laws of the addition alone, so no operand needs to be finite and the precondition is never opened.
  The host operations before and after the product are the same functions in both programs and are carried as such.
-/
import proofs.«157367_j44899588112786_1_alg».proof.Defs
import proofs.«157367_j44899588112786_1_alg».proof.Proof.Gen.Pre_finite_inputs
import proofs.«157367_j44899588112786_1_alg».proof.Proof.K.Frame
import proofs.«157367_j44899588112786_1_alg».proof.Proof.KI.Value
import proofs.«157367_j44899588112786_1_alg».proof.Proof.KI.HostPre
import proofs.«157367_j44899588112786_1_alg».proof.Proof.KI.HostTail
import proofs.«157367_j44899588112786_1_alg».proof.Proof.KI.RefRun
import proofs.«157367_j44899588112786_1_alg».proof.Proof.KI.Bridge

noncomputable section

namespace Cert.Proof

open Idealize.ShloMosaic Idealize.ShloMosaic.TcCoe Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Gen Cert.KernelIdeal.Fr

/-- The idealized kernel's run, read: the result is the host tail of the product of the two rounded operands. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v265)
        = Cert.KernelIdeal.Host.post (Mat.prod (truncf .bf16 (Cert.KernelIdeal.Host.xPre (m ((c.tc : Thread nD τ).loc main_arg0)) (m ((c.tc : Thread nD τ).loc main_arg1))) Facts₀.bitsLt_bf16_f32)
            (truncf .bf16 (Cert.KernelIdeal.Host.wPre (m ((c.tc : Thread nD τ).loc main_arg3)) (m ((c.tc : Thread nD τ).loc main_arg4))) Facts₀.bitsLt_bf16_f32))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v265 (Pipeline.mem_restRefs_of main_v265 (by decide) (by decide))).trans
        ((tail_main_v265 m (dats m) c).trans (by rw [final m c]; unfold opA opB; rw [V_main_v136, V_main_v137])),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end

/-- Both results are the host tail of one product array. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2, Cert.KernelIdeal.Mat.dot_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
